-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S400x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_2)) (v1 : (c : Dev Cert.KernelIdeal.nD) → Buf (Elt Ideal) ((c.tc : Thread Cert.KernelIdeal.nD Cert.KernelIdeal.τ).loc Cert.KernelIdeal.main_v13_0)) (v2 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_2) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  reducesTo_S_S_d : S_.ReducesTo [] S_

variable [Facts]

def fn_part2 {F : FTy → Type} [FloatOps F] (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  main_v36

def fn_part1 {F : FTy → Type} [FloatOps F] (main_arg4 : FVec F S128x40 .f32) (main_arg5 : FVec F S40 .f32) (main_arg6 : FVec F S_ .f32) (main_arg7 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_v32 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x40 .f32) (main_arg5 : FVec F S40 .f32) (main_arg6 : FVec F S_ .f32) (main_arg7 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S10000x256 : Shape := ⟨2, ![10000, 256]⟩
abbrev S1x1 : Shape := ⟨2, ![1, 1]⟩
abbrev S1x128 : Shape := ⟨2, ![1, 128]⟩
abbrev S1x40 : Shape := ⟨2, ![1, 40]⟩
abbrev S10000x40 : Shape := ⟨2, ![10000, 40]⟩
abbrev S400x10000 : Shape := ⟨2, ![400, 10000]⟩
abbrev S400x128 : Shape := ⟨2, ![400, 128]⟩
abbrev S400x40 : Shape := ⟨2, ![400, 40]⟩
abbrev S400x256 : Shape := ⟨2, ![400, 256]⟩
abbrev S400 : Shape := ⟨1, ![400]⟩
abbrev S400x1 : Shape := ⟨2, ![400, 1]⟩

abbrev nBuf : Space → Nat
  | .hbm => 26
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S_, .f32⟩
  | .hbm, ⟨7, _⟩ => ⟨S_, .f32⟩
  | .hbm, ⟨8, _⟩ => ⟨S10000x128, .bf16⟩
  | .hbm, ⟨9, _⟩ => ⟨S10000x128, .f32⟩
  | .hbm, ⟨10, _⟩ => ⟨S10000x128, .f32⟩
  | .hbm, ⟨11, _⟩ => ⟨S10000x128, .bf16⟩
  | .hbm, ⟨12, _⟩ => ⟨S10000x256, .bf16⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S1x128, .f32⟩
  | .hbm, ⟨21, _⟩ => ⟨S1x128, .f32⟩
  | .hbm, ⟨22, _⟩ => ⟨S1x40, .f32⟩
  | .hbm, ⟨23, _⟩ => ⟨S10000x128, .f32⟩
  | .hbm, ⟨24, _⟩ => ⟨S10000x128, .f32⟩
  | .hbm, ⟨25, _⟩ => ⟨S10000x40, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S128x40, .f32⟩
  | .local _ .vmem, ⟨7, _⟩ => ⟨S1x40, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S400x40, .f32⟩
  | .local _ .vmem, ⟨14, _⟩ => ⟨S400x40, .f32⟩
  | .local _ .vmem, ⟨15, _⟩ => ⟨S10000x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg1 : BitVec 32 := BitVec.ofNat 32 (i 1).val
  let c400_i32 : BitVec 32 := 400#32
  let v15 : BitVec 32 := Scalar.muli arg1 c400_i32
  let v16 : Index := Scalar.indexCast v15
  let c0_7 : Index := 0#32
  ![v16.toNat, 0]
def k0_cond2 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_2 : BitVec 32 := 0#32
  let v7 : BitVec 1 := Scalar.cmpi .ne v6 c0_i32_2
  v7

def k0_off2 (i : grid0.Coords) : Fin 2 → Nat :=
  let arg1 : BitVec 32 := BitVec.ofNat 32 (i 1).val
  let c400_i32 : BitVec 32 := 400#32
  let v14 : BitVec 32 := Scalar.muli arg1 c400_i32
  let v15 : Index := Scalar.indexCast v14
  let c0_7 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli v0 arg1
  let c24_i32 : BitVec 32 := 24#32
  let v2 : BitVec 32 := Scalar.muli arg0 c24_i32
  let v3 : BitVec 32 := Scalar.addi v1 v2
  let c0_i32 : BitVec 32 := 0#32
  let c0_i32_0 : BitVec 32 := 0#32
  ![v3.toNat, c0_i32.toNat]

def cc0_transform_9 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S400x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S400x40 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  concatenates_S10000x128_S10000x128_S10000x256_d1 : Shape.Concatenates [S10000x128, S10000x128] S10000x256 1
  shapeCasts_S_S1x1 : S_.ShapeCasts S1x1
  bcast_S1x1_S1x128_0_1 : S1x1.BroadcastsInDim S1x128 (![0, 1] : Fin 2 → Fin S1x128.rank)
  shapeCasts_S128_S1x128 : S128.ShapeCasts S1x128
  shapeCasts_S40_S1x40 : S40.ShapeCasts S1x40
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  slices_S400x256_o0_0_S400x128 : S400x256.Slices ![0, 0] S400x128
  slices_S400x256_o0_128_S400x128 : S400x256.Slices ![0, 128] S400x128
  inb_S400x128_S400x128_0_0 : ∀ a, (![0, 0] : Fin 2 → Nat) a + S400x128.size a ≤ S400x128.size a
  h_S400x128 : 0 < S400x128.numel
  h_S400x256 : 0 < S400x256.numel
  shapeCasts_S400x256_S400x256 : S400x256.ShapeCasts S400x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x128_S128x128_0_0 : ∀ a, (![0, 0] : Fin 2 → Nat) a + S128x128.size a ≤ S128x128.size a
  h_S128x128 : 0 < S128x128.numel
  concatenates_S400x128_S400x128_S400x256_d1 : Shape.Concatenates [S400x128, S400x128] S400x256 1
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S400x10000_S10000x256_S400x256_1_0_0_1_n_n_wf : DotDims.WF S400x10000 S10000x256 S400x256 [1] [0] [0] [1] [] []
  dot_S400x128_S128x128_S400x128_1_0_0_1_n_n_wf : DotDims.WF S400x128 S128x128 S400x128 [1] [0] [0] [1] [] []
  dot_S400x128_S128x40_S400x40_1_0_0_1_n_n_wf : DotDims.WF S400x128 S128x40 S400x40 [1] [0] [0] [1] [] []
  hrank0 : 0 < grid0.rank
  k0_off1_inb : ∀ i : grid0.Coords, ∀ (k0_h1 : k0_cond1 i = 1#1), ∀ a, (k0_off1 i) a + S400x256.size a ≤ S10000x256.size a
  k0_off1_packedbf16 : ∀ i : grid0.Coords, ∀ (k0_h1 : k0_cond1 i = 1#1), (Rect.unit (s := S10000x256) (k0_off1 i) S400x256.size (k0_off1_inb i k0_h1)).PackedRows (EltTy.packing .bf16)
  k0_off2_inb : ∀ i : grid0.Coords, ∀ (k0_h2 : k0_cond2 i = 1#1), ∀ a, (k0_off2 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x40.size a ≤ S128x40.size a
  hwx0_5 : ∀ i : grid0.Coords, EltTy.bits .f32 = 32 ∨ (Rect.block (s := S128x40) S128x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x128.size a ≤ S10000x128.size a
  hwx0_9 : ∀ i : grid0.Coords, EltTy.bits .f32 = 32 ∨ (Rect.block (s := S10000x128) S400x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S400x40.size a ≤ S10000x40.size a
  hwx0_10 : ∀ i : grid0.Coords, EltTy.bits .f32 = 32 ∨ (Rect.block (s := S10000x40) S400x40.size (cc0_transform_10 i) (hinb0_10 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_0) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_1) S400x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v13_2) S400x40.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) | 9 => fun i => !(k0_cond2 i == 1#1) | 10 => fun i => !(k0_cond2 i == 1#1) | ⟨_ + 11, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x128 : Shape := ⟨2, ![1, 128]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S_, .f32⟩
  | .hbm, ⟨7, _⟩ => ⟨S_, .f32⟩
  | .hbm, ⟨8, _⟩ => ⟨S10000x128, .f32⟩
  | .hbm, ⟨9, _⟩ => ⟨S_, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x40, .f32⟩
  | .hbm, ⟨28, _⟩ => ⟨S1x40, .f32⟩
  | .hbm, ⟨29, _⟩ => ⟨S10000x40, .f32⟩
  | .hbm, ⟨30, _⟩ => ⟨S10000x40, .f32⟩
  | .hbm, ⟨31, _⟩ => ⟨S_, .f32⟩
  | .hbm, ⟨32, _⟩ => ⟨S10000, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x1, .f32⟩
  | .hbm, ⟨37, _⟩ => ⟨S10000x40, .f32⟩
  | .hbm, ⟨38, _⟩ => ⟨S10000x40, .f32⟩
  | .hbm, ⟨39, _⟩ => ⟨S10000x40, .f32⟩
  | .hbm, ⟨40, _⟩ => ⟨S_, .f32⟩
  | .hbm, ⟨41, _⟩ => ⟨S10000, .f32⟩
  | .hbm, ⟨42, _⟩ => ⟨S10000x1, .f32⟩
  | .hbm, ⟨43, _⟩ => ⟨S10000x1, .f32⟩
  | .hbm, ⟨44, _⟩ => ⟨S10000x40, .f32⟩
  | .hbm, ⟨45, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v19 : Ref sig .tc := ⟨.hbm, 45, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.KB.Runs.lean ====
/-
  What the two phases of the kernel body share.  The grid is 2 × 25: the first coordinate is the layer, the
  second the block of 400 rows.  Points 0–24 run the first layer (the first conditional), points 25–49 the second.
-/
import proofs.«172329_g62586263437736_cont_9to1_m_674_9_alg».proof.Proof.Gen.Kernel.Frame
import proofs.«172329_g62586263437736_cont_9to1_m_674_9_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional: the point belongs to the first layer. -/
abbrev inL1 (i : grid0.Coords) : Prop := k0_cond1 i = 1#1
/-- The second conditional: the point belongs to the second layer. -/
abbrev inL2 (i : grid0.Coords) : Prop := k0_cond2 i = 1#1

/-- The first layer is the first 25 points. -/
theorem inL1_iff : ∀ t : Fin cfg0.N, inL1 (grid0.coords t) ↔ t.val < 25 :=
  (by decide +kernel : ∀ t : Fin grid0.N, inL1 (grid0.coords t) ↔ t.val < 25)
/-- The second layer is the last 25 points. -/
theorem inL2_iff : ∀ t : Fin cfg0.N, inL2 (grid0.coords t) ↔ 25 ≤ t.val :=
  (by decide +kernel : ∀ t : Fin grid0.N, inL2 (grid0.coords t) ↔ 25 ≤ t.val)

/-- The persistent scratch: the hidden activation as a [value | remainder] pair, 10000 rows of 256 lanes. -/
abbrev scr : Memref sig .tc .vmem S10000x256 .bf16 := Memref.whole cc0_scratch0

end Cert.Kernel.Gen

end
-- ==== Proof.KB.RunA.lean ====
/-
  The body at a point of the FIRST layer (first conditional taken, second not).  It reads the block of 400
  adjacency rows, the whole [value | remainder] operand, the rows of that operand belonging to the block, the
  scale row, the weights and the bias; it stores the aggregated block into the first output's buffer and the
  new [value | remainder] rows of the hidden activation into rows [400·b, 400·b + 400) of the scratch, whose
  other rows it leaves as they were.  The second layer's operands and outputs are not touched.
-/
import proofs.«172329_g62586263437736_cont_9to1_m_674_9_alg».proof.Proof.KB.Runs
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 400 rows of a [10000, 256] array that belong to the point's block. -/
abbrev rowsA (i : grid0.Coords) (hc0 : inL1 i) (X : Vec F S10000x256 .bf16) : Vec F S400x256 .bf16 :=
  View.ld X (Rect.unit (s := S10000x256) (k0_off1 i) S400x256.size (k0_off1_inb i hc0))

/-- The scratch after the point: `blk` in the block's rows, the earlier contents `xs` elsewhere. -/
def scrPut (i : grid0.Coords) (hc0 : inL1 i) (arg13 : Memref sig .tc .vmem S10000x256 .bf16) (harg13 : arg13.IsWhole)
    (xs : Vec F S10000x256 .bf16) (blk : Vec F S400x256 .bf16) : Vec F S10000x256 .bf16 :=
  arg13.view.read (Elt F) (arg13.view.writes (Elt F) (harg13.unread xs)
    [⟨Rect.unit (s := S10000x256) (k0_off1 i) S400x256.size (k0_off1_inb i hc0), blk⟩])

/-- A store through the whole-shape rectangle at zero offsets leaves its payload. -/
theorem read_writes_whole0 {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h; exact View.read_writes_whole v f w

/-- The zero offsets of a rank-2 rectangle, as a constant function. -/
theorem hz2 : (![0, 0] : Fin 2 → ℕ) = fun _ => 0 := by
  funext a; match a with | ⟨0, _⟩ => rfl | ⟨1, _⟩ => rfl

set_option maxHeartbeats 1000000 in
/-- The first layer's point: from the operands at `x0 … x4`, the first output's buffer at anything and the scratch
    at `xs`, the body runs to the operands unchanged, the first output's buffer at the aggregated block and the scratch
    at `xs` with the block's rows replaced by the new [value | remainder] rows. -/
theorem runA (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S400x40 .f32) (harg12 : arg12.IsWhole) (arg13 : Memref sig .tc .vmem S10000x256 .bf16) (harg13 : arg13.IsWhole) (hc0 : inL1 i) (hc1 : ¬inL2 i)
    (x0 : Vec F S400x10000 .f32) (x1 : Vec F S10000x256 .bf16) (x2 : Vec F S128x128 .f32) (x3 : Vec F S1x128 .f32) (x4 : Vec F S1x128 .f32)
    (xs : Vec F S10000x256 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg10 fullShare (k0_pay2 x0 x1)
                ∗ owns (c : Thread nD τ) arg13 fullShare (scrPut i hc0 arg13 harg13 xs (k0_pay3 x0 x1 (rowsA i hc0 x1) x4 x2 x3))) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13) K := by
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H8]
    · iexists _; isplitr; swap; · iexact H8
      ipureintro
      simp only [View.readAt_eq_ld, harg2.read_unread, harg3.read_unread, View.ld_unit_zero (S := S400x10000) hz2, View.ld_unit_zero (S := S10000x256) hz2]
      exact read_writes_whole0 (S := S400x128) _ _ hz2 _ _
    iexists _; isplitr; swap; · iexact HS0
    ipureintro
    unfold scrPut rowsA
    simp only [View.readAt_eq_ld, harg2.read_unread, harg3.read_unread, harg4.read_unread, harg5.read_unread, harg6.read_unread, View.ld_unit_zero (S := S400x10000) hz2, View.ld_unit_zero (S := S10000x256) hz2, View.ld_unit_zero (S := S128x128) hz2, View.ld_unit_zero (S := S1x128) hz2]

end Cert.Kernel.Gen

end
-- ==== Proof.KB.RunB.lean ====
/-
  The body at a point of the SECOND layer (first conditional not taken, second taken).  It reads the block of
  400 adjacency rows, the whole scratch (the hidden activation as [value | remainder]), the scratch rows of the
  block, the second scale row, weights and bias; it stores the aggregated block into the second output's buffer
  and the block's log-probabilities into the third's.  The scratch and the first layer's buffers are not changed.
-/
import proofs.«172329_g62586263437736_cont_9to1_m_674_9_alg».proof.Proof.KB.RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 400 scratch rows that belong to the point's block. -/
abbrev rowsB (i : grid0.Coords) (hc1 : inL2 i) (X : Vec F S10000x256 .bf16) : Vec F S400x256 .bf16 :=
  View.ld X (Rect.unit (s := S10000x256) (k0_off2 i) S400x256.size (k0_off2_inb i hc1))

set_option maxHeartbeats 1000000 in
/-- The second layer's point: from the operands at `x0, x5, x6, x7`, the second and third outputs' buffers at anything
    and the scratch at `xs`, the body runs to the operands and the scratch unchanged, the second output's buffer at
    the block's second aggregation and the third's at its log-probabilities. -/
theorem runB (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S400x40 .f32) (harg12 : arg12.IsWhole) (arg13 : Memref sig .tc .vmem S10000x256 .bf16) (harg13 : arg13.IsWhole) (hc0 : ¬inL1 i) (hc1 : inL2 i)
    (x0 : Vec F S400x10000 .f32) (x5 : Vec F S128x40 .f32) (x6 : Vec F S1x40 .f32) (x7 : Vec F S1x128 .f32)
    (xs : Vec F S10000x256 .bf16) (E : Set ℕ) (K : PUnit → sProp 𝕄) :
        iprop(owns (c : Thread nD τ) arg2 fullShare x0 ∗ owns (c : Thread nD τ) arg7 fullShare x5 ∗ owns (c : Thread nD τ) arg8 fullShare x6 ∗ owns (c : Thread nD τ) arg9 fullShare x7 ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg7 fullShare x5 ∗ owns (c : Thread nD τ) arg8 fullShare x6 ∗ owns (c : Thread nD τ) arg9 fullShare x7
                ∗ owns (c : Thread nD τ) arg11 fullShare (k0_pay4 x0 xs)
                ∗ owns (c : Thread nD τ) arg12 fullShare (k0_pay5 x0 xs (rowsB i hc1 xs) x7 x5 x6)
                ∗ owns (c : Thread nD τ) arg13 fullShare xs) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13) K := by
    simp only [cc0_body_eq_skeleton]; unfold cc0_body_skel
    unfold owns
    iintro ⟨⟨%f0, %hf0, H0⟩, ⟨%f5, %hf5, H5⟩, ⟨%f6, %hf6, H6⟩, ⟨%f7, %hf7, H7⟩, ⟨%d9, %f9, -, H9⟩, ⟨%d10, %f10, -, H10⟩, ⟨%fs0, %hfs0, HS0⟩, Hk⟩
    obtain rfl := harg2.eq_unread hf0; obtain rfl := harg7.eq_unread hf5; obtain rfl := harg8.eq_unread hf6; obtain rfl := harg9.eq_unread hf7
    obtain rfl := harg13.eq_unread hfs0
    sl_exec (disch := first | exact hc0 | exact hc1)
    sl_step
    iapply Hk
    isplitl [H0]
    · iexists _; isplitr; · ipureintro; exact harg2.read_unread _
      iexact H0
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H9]
    · iexists _; isplitr; swap; · iexact H9
      ipureintro
      simp only [View.readAt_eq_ld, harg2.read_unread, harg13.read_unread, View.ld_unit_zero (S := S400x10000) hz2, View.ld_unit_zero (S := S10000x256) hz2]
      exact read_writes_whole0 (S := S400x128) _ _ hz2 _ _
    isplitl [H10]
    · iexists _; isplitr; swap; · iexact H10
      ipureintro
      unfold rowsB
      simp only [View.readAt_eq_ld, harg2.read_unread, harg7.read_unread, harg8.read_unread, harg9.read_unread, harg13.read_unread, View.ld_unit_zero (S := S400x10000) hz2, View.ld_unit_zero (S := S10000x256) hz2, View.ld_unit_zero (S := S128x40) hz2, View.ld_unit_zero (S := S1x40) hz2, View.ld_unit_zero (S := S1x128) hz2]
      exact read_writes_whole0 (S := S400x40) _ _ hz2 _ _
    iexists _; isplitr; · ipureintro; exact harg13.read_unread _
    iexact HS0

end Cert.Kernel.Gen

end
-- ==== Proof.KB.Frame.lean ====
/-
  The proof data of the one pipeline and its body obligation.

  The grid's 50 points are the first layer's 25 row blocks followed by the second layer's 25.  What the body
  carries from point to point is the scratch: after the first layer's block b it holds, in rows [400·b, 400·b+400),
  the [value | remainder] pair of the hidden activation of those rows, computed from the block's adjacency rows and
  the whole input pair; rows of earlier blocks keep what those blocks left, rows of later blocks are still arbitrary.
  The invariant before point n says that the scratch agrees with the completed pair `hidPair` on its first 400·n
  rows (all rows from point 25 on).  The first output's buffer holds the aggregated block of the point during the
  first layer and is left untouched, on block 24, during the second, at whose last point it is written back once more
  with those same contents; the second and third outputs' buffers are untouched during the first layer and hold the
  second layer's aggregated block and log-probabilities afterwards.
-/
import proofs.«172329_g62586263437736_cont_9to1_m_674_9_alg».proof.Proof.KB.RunB
import Idealize.ShloMosaic.Lib.WritesUnit
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem N50 : cfg0.N = 50 := N_0
theorem lt_N {n : ℕ} (h : n < 50) : n < cfg0.N := lt_of_lt_of_eq h N50.symm
theorem val_lt50 (t : Fin cfg0.N) : t.val < 50 := lt_of_lt_of_eq t.isLt N50

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The first output is stored into during the first layer only. -/
theorem idle8_iff : ∀ t : Fin cfg0.N, cfg0.idle 8 (grid0.coords t) = true ↔ 25 ≤ t.val :=
  (by decide +kernel : ∀ t : Fin grid0.N, cfg0.idle 8 (grid0.coords t) = true ↔ 25 ≤ t.val)
/-- The second and third outputs are stored into during the second layer only. -/
theorem idle9_iff : ∀ t : Fin cfg0.N, cfg0.idle 9 (grid0.coords t) = true ↔ t.val < 25 :=
  (by decide +kernel : ∀ t : Fin grid0.N, cfg0.idle 9 (grid0.coords t) = true ↔ t.val < 25)
theorem idle10_iff : ∀ t : Fin cfg0.N, cfg0.idle 10 (grid0.coords t) = true ↔ t.val < 25 :=
  (by decide +kernel : ∀ t : Fin grid0.N, cfg0.idle 10 (grid0.coords t) = true ↔ t.val < 25)
/-- The first output's block index is the row block during the first layer and stays 24 afterwards: it is written
    back when the index moves (after points 0–23) and at the end. -/
theorem flush8_iff : ∀ t : Fin cfg0.N, (cfg0.win 8).flush t = true ↔ (t.val < 24 ∨ t.val = 49) :=
  (by decide +kernel : ∀ t : Fin grid0.N, win0_8.flush t = true ↔ (t.val < 24 ∨ t.val = 49))
/-- The other outputs' block index is 0 during the first layer and the row block afterwards. -/
theorem flush9_iff : ∀ t : Fin cfg0.N, (cfg0.win 9).flush t = true ↔ 25 ≤ t.val :=
  (by decide +kernel : ∀ t : Fin grid0.N, win0_9.flush t = true ↔ 25 ≤ t.val)
theorem flush10_iff : ∀ t : Fin cfg0.N, (cfg0.win 10).flush t = true ↔ 25 ≤ t.val :=
  (by decide +kernel : ∀ t : Fin grid0.N, win0_10.flush t = true ↔ 25 ≤ t.val)
/-- The row offset of the first layer's scratch rows is 400 times the block. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

theorem Bool.eq_false_of_not_iff {b : Bool} {p : Prop} (h : b = true ↔ p) (hp : ¬p) : b = false := by
  cases b
  · rfl
  · exact absurd (h.mp rfl) hp

/-! ## The scratch rows written by a first-layer point -/

/-- Inside the point's rows the scratch holds the new rows. -/
theorem scrPut_in (t : Fin cfg0.N) (ht : t.val < 25) (hc0 : inL1 (grid0.coords t)) (arg13 : Memref sig .tc .vmem S10000x256 .bf16)
    (harg13 : arg13.IsWhole) (xs : Vec F S10000x256 .bf16) (blk : Vec F S400x256 .bf16) (j : S10000x256.Idx) (p : Fin 400)
    (hj : (j 0).val = 400 * t.val + p.val) :
    scrPut (grid0.coords t) hc0 arg13 harg13 xs blk j = blk (ValueIdx.ix2 p (j 1)) := by
  unfold scrPut
  exact View.read_writes_cons_rows_of_mem (d := ![10000, 256]) arg13.view (harg13.unread xs) (k0_off1_inb (grid0.coords t) hc0) blk [] j
    (ValueIdx.ix2 p (j 1)) (off1_eq t ht) hj rfl

/-- Outside them it holds what it held. -/
theorem scrPut_out (t : Fin cfg0.N) (ht : t.val < 25) (hc0 : inL1 (grid0.coords t)) (arg13 : Memref sig .tc .vmem S10000x256 .bf16)
    (harg13 : arg13.IsWhole) (xs : Vec F S10000x256 .bf16) (blk : Vec F S400x256 .bf16) (j : S10000x256.Idx)
    (hj : (j 0).val < 400 * t.val ∨ 400 * t.val + 400 ≤ (j 0).val) :
    scrPut (grid0.coords t) hc0 arg13 harg13 xs blk j = xs j := by
  unfold scrPut
  rw [View.read_writes_cons_rows_of_not_mem (d := ![10000, 256]) (W := 400) arg13.view (harg13.unread xs) (k0_off1_inb (grid0.coords t) hc0) blk [] j
    (off1_eq t ht) rfl hj, View.writes_nil, harg13.read_unread]

/-! ## The completed [value | remainder] pair of the hidden activation -/

/-- The 400 rows the first-layer point of block `b` stores. -/
def hidRows (c : Dev nD) (b : Fin cfg0.N) (hb : b.val < 25) : Vec F S400x256 .bf16 :=
  k0_pay3 (iblk m c 0 b) (iblk m c 1 b) (rowsA (grid0.coords b) ((inL1_iff b).mpr hb) (iblk m c 1 b)) (iblk m c 4 b) (iblk m c 2 b) (iblk m c 3 b)

/-- All 10000 rows: row r is row r mod 400 of block r / 400. -/
def hidPair (c : Dev nD) : Vec F S10000x256 .bf16 := fun j =>
  hidRows m c ⟨(j 0).val / 400, lt_N (by have := ValueIdx.idx2_lt0 j; omega)⟩ (by have := ValueIdx.idx2_lt0 j; show (j 0).val / 400 < 25; omega)
    (ValueIdx.ix2 (⟨(j 0).val % 400, by omega⟩ : Fin 400) (j 1))

theorem hidRows_congr (c : Dev nD) (b b' : Fin cfg0.N) (hb : b.val < 25) (hb' : b'.val < 25) (p p' : Fin 400) (q : Fin 256)
    (e1 : b = b') (e2 : p = p') : hidRows m c b hb (ValueIdx.ix2 p q) = hidRows m c b' hb' (ValueIdx.ix2 p' q) := by
  subst e1; subst e2; rfl

theorem hidPair_eq (c : Dev nD) (j : S10000x256.Idx) (b : Fin cfg0.N) (hb : b.val < 25) (p : Fin 400)
    (hj : (j 0).val = 400 * b.val + p.val) : hidPair m c j = hidRows m c b hb (ValueIdx.ix2 p (j 1)) := by
  unfold hidPair
  exact hidRows_congr m c _ b _ hb _ p (j 1) (Fin.ext (by have := p.isLt; show (j 0).val / 400 = b.val; omega))
    (Fin.ext (by have := p.isLt; show (j 0).val % 400 = p.val; omega))

/-- The scratch agrees with the completed pair on its first 400·n rows. -/
def Agree (c : Dev nD) (n : ℕ) (xs : Vec F S10000x256 .bf16) : Prop :=
  ∀ j : S10000x256.Idx, (j 0).val < 400 * n → xs j = hidPair m c j

theorem agree_zero (c : Dev nD) (xs : Vec F S10000x256 .bf16) : Agree m c 0 xs := fun j hj => absurd hj (by omega)

theorem agree_all (c : Dev nD) (n : ℕ) (hn : 25 ≤ n) (xs : Vec F S10000x256 .bf16) (h : Agree m c n xs) : xs = hidPair m c :=
  funext fun j => h j (by have := ValueIdx.idx2_lt0 j; omega)

/-- A first-layer point extends the agreement by its 400 rows. -/
theorem agree_step (c : Dev nD) (t : Fin cfg0.N) (ht : t.val < 25) (arg13 : Memref sig .tc .vmem S10000x256 .bf16)
    (harg13 : arg13.IsWhole) (xs : Vec F S10000x256 .bf16) (hx : Agree m c t.val xs) :
    Agree m c (t.val + 1) (scrPut (grid0.coords t) ((inL1_iff t).mpr ht) arg13 harg13 xs (hidRows m c t ht)) := by
  intro j hj
  by_cases hlt : (j 0).val < 400 * t.val
  · rw [scrPut_out t ht _ arg13 harg13 xs _ j (Or.inl hlt)]; exact hx j hlt
  · obtain ⟨p, hp⟩ : ∃ p : Fin 400, (j 0).val = 400 * t.val + p.val :=
      ⟨⟨(j 0).val - 400 * t.val, by omega⟩, by show (j 0).val = 400 * t.val + ((j 0).val - 400 * t.val); omega⟩
    rw [scrPut_in t ht _ arg13 harg13 xs _ j p hp]
    exact (hidPair_eq m c j t ht p hp).symm

/-! ## The invariant -/

/-- What the launch hands the body besides the windows: the scratch at some contents and the generator register. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Before point n: the scratch agrees with the completed pair on its first 400·n rows. -/
def PhiS (c : Dev nD) (n : ℕ) : sProp 𝕄 :=
  iprop(iprop((∃ xs, ⌜Agree m c n xs⌝ ∗ owns (c : Thread nD τ) scr fullShare xs)) ∗ (∃ r, prngReg c r))

/-! ## The proof data -/

/-- The last first-layer point at or before `t`: what the first output's buffer holds was stored there. -/
def lastL1 (t : Fin cfg0.N) : Fin cfg0.N := ⟨min t.val 24, lt_N (by omega)⟩

theorem lastL1_of_lt (t : Fin cfg0.N) (h : t.val < 25) : lastL1 t = t := Fin.ext (by show min t.val 24 = t.val; omega)
theorem lastL1_of_ge (t : Fin cfg0.N) (h : 24 ≤ t.val) : lastL1 t = ⟨24, lt_N (by omega)⟩ := Fin.ext (by show min t.val 24 = 24; omega)

/-- The proof data on core `c`: the arrays as the region finds them; after the body each operand's buffer at its
    block, the first output's at the aggregated block of the last first-layer point so far, the second's at the second
    aggregation of the point's rows over the completed pair, the third's (second layer) at their log-probabilities;
    the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (iblk m c 0 (lastL1 t)) (iblk m c 1 (lastL1 t))
    | ⟨9, _⟩ => k0_pay4 (iblk m c 0 t) (hidPair m c)
    | ⟨10, h⟩ => if h2 : 25 ≤ t.val then
        k0_pay5 (iblk m c 0 t) (hidPair m c) (rowsB (grid0.coords t) ((inL2_iff t).mpr h2) (hidPair m c)) (iblk m c 7 t) (iblk m c 5 t) (iblk m c 6 t)
      else Pipeline.Dat.unnamed (cfg := cfg0) ⟨10, h⟩ t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay2 (iblk m c 0 (lastL1 t)) (iblk m c 1 (lastL1 t)) := by dsimp only [dats]
theorem after9 (c : Dev nD) (t : Fin cfg0.N) : (dats m 0 c).after 9 t = k0_pay4 (iblk m c 0 t) (hidPair m c) := by dsimp only [dats]
theorem after10 (c : Dev nD) (t : Fin cfg0.N) (h2 : 25 ≤ t.val) : (dats m 0 c).after 10 t
    = k0_pay5 (iblk m c 0 t) (hidPair m c) (rowsB (grid0.coords t) ((inL2_iff t).mpr h2) (hidPair m c)) (iblk m c 7 t) (iblk m c 5 t) (iblk m c 6 t) := by
  dsimp only [dats]; rw [dif_pos h2]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- During the second layer the first output's buffer still holds the aggregated block 24. -/
theorem before8_late (c : Dev nD) : ∀ (n : ℕ) (t : Fin cfg0.N), t.val = 25 + n → ∀ d, (dats m 0 c).before 8 t d = (dats m 0 c).after 8 t
  | 0, t, ht, d => by
    rw [(dats m 0 c).before_of_pos 8 t (by omega) ((cfg0.win 8).fetch_out rfl t) d,
      if_neg (by rw [Bool.eq_false_of_not_iff (flush8_iff _) (by show ¬(t.val - 1 < 24 ∨ t.val - 1 = 49); omega)]; exact Bool.false_ne_true)]
    unfold Dat.left
    rw [Bool.eq_false_of_not_iff (idle8_iff _) (by show ¬(25 ≤ t.val - 1); omega)]
    unfold Dat.kept
    rw [Pipeline.fill_of_clip_none 8 _ (fun _ => rfl) d ((dats m 0 c).after 8 _), Window.fill_cut, after8, after8,
      lastL1_of_ge _ (by show 24 ≤ t.val - 1; omega), lastL1_of_ge t (by omega)]
  | n + 1, t, ht, d => by
    rw [(dats m 0 c).before_of_pos 8 t (by omega) ((cfg0.win 8).fetch_out rfl t) d,
      if_neg (by rw [Bool.eq_false_of_not_iff (flush8_iff _) (by show ¬(t.val - 1 < 24 ∨ t.val - 1 = 49); have := val_lt50 t; omega)]; exact Bool.false_ne_true)]
    unfold Dat.left
    rw [(idle8_iff _).mpr (by show 25 ≤ t.val - 1; omega)]
    refine (before8_late c n ⟨t.val - 1, by have := t.isLt; omega⟩ (by show t.val - 1 = 25 + n; omega) d).trans ?_
    rw [after8, after8, lastL1_of_ge _ (by show 24 ≤ t.val - 1; omega), lastL1_of_ge t (by omega)]

/-! ## The body obligation -/

abbrev ms0 (t : Fin cfg0.N) : Memref sig .tc .vmem S400x10000 .f32 := win0_0.stage (cfg0.slots t 0)
abbrev ms1 (t : Fin cfg0.N) : Memref sig .tc .vmem S10000x256 .bf16 := win0_1.stage (cfg0.slots t 1)
abbrev ms2 (t : Fin cfg0.N) : Memref sig .tc .vmem S128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S1x128 .f32 := win0_4.stage (cfg0.slots t 4)
abbrev ms5 (t : Fin cfg0.N) : Memref sig .tc .vmem S128x40 .f32 := win0_5.stage (cfg0.slots t 5)
abbrev ms6 (t : Fin cfg0.N) : Memref sig .tc .vmem S1x40 .f32 := win0_6.stage (cfg0.slots t 6)
abbrev ms7 (t : Fin cfg0.N) : Memref sig .tc .vmem S1x128 .f32 := win0_7.stage (cfg0.slots t 7)
abbrev ms8 (t : Fin cfg0.N) : Memref sig .tc .vmem S400x128 .f32 := win0_8.stage (cfg0.slots t 8)
abbrev ms9 (t : Fin cfg0.N) : Memref sig .tc .vmem S400x128 .f32 := win0_9.stage (cfg0.slots t 9)
abbrev ms10 (t : Fin cfg0.N) : Memref sig .tc .vmem S400x40 .f32 := win0_10.stage (cfg0.slots t 10)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point.  The operands' buffers hold their blocks.  In the first layer the point stores its
    aggregated block and extends the scratch's agreement with the completed pair by its 400 rows; the other two
    outputs' buffers are handed back as found.  In the second layer the scratch is the completed pair, the point
    stores the second aggregation and the log-probabilities of its block, and the first output's buffer is handed
    back as found — which at the last point, where it is written back, is the aggregated block 24. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 50 := val_lt50 t
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  by_cases h : t.val < 25
  · have hc0 : inL1 (grid0.coords t) := (inL1_iff t).mpr h
    have hc1 : ¬inL2 (grid0.coords t) := fun h' => by have := (inL2_iff t).mp h'; omega
    rw [show (dats m 0 c).leavesExact 8 t = owns (c : Thread nD τ) (ms8 t) fullShare ((dats m 0 c).after 8 t) from by
      unfold Dat.leavesExact; rw [Bool.eq_false_of_not_iff (idle8_iff t) (by omega)], after8, lastL1_of_lt t h]
    rw [Dat.leavesExact_idle (dats m 0 c) 9 t ((idle9_iff t).mpr h) (Bool.eq_false_of_not_iff (flush9_iff t) (by omega)),
      Dat.leavesExact_idle (dats m 0 c) 10 t ((idle10_iff t).mpr h) (Bool.eq_false_of_not_iff (flush10_iff t) (by omega))]
    iintro ⟨⟨⟨%xs, %hxs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ hc0 hc1 (iblk m c 0 t) (iblk m c 1 t) (iblk m c 2 t) (iblk m c 3 t) (iblk m c 4 t) xs Set.univ _)
    isplitl [H0]; · iexact H0
    isplitl [H1]; · iexact H1
    isplitl [H2]; · iexact H2
    isplitl [H3]; · iexact H3
    isplitl [H4]; · iexact H4
    isplitl [H8]; · iexists _; iexact H8
    isplitl [HS0]; · iexact HS0
    iintro ⟨H0, H1, H2, H3, H4, H8, HS0⟩
    isplitl [HS0 Hg]
    · isplitl [HS0]
      · iexists _; isplitr
        · ipureintro; exact agree_step m c t h scr (Memref.isWhole_whole _) xs hxs
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have h2 : 25 ≤ t.val := by omega
    have hc0 : ¬inL1 (grid0.coords t) := fun h' => h ((inL1_iff t).mp h')
    have hc1 : inL2 (grid0.coords t) := (inL2_iff t).mpr h2
    rw [show (dats m 0 c).leavesExact 9 t = owns (c : Thread nD τ) (ms9 t) fullShare ((dats m 0 c).after 9 t) from by
      unfold Dat.leavesExact; rw [Bool.eq_false_of_not_iff (idle9_iff t) (by omega)], after9]
    rw [show (dats m 0 c).leavesExact 10 t = owns (c : Thread nD τ) (ms10 t) fullShare ((dats m 0 c).after 10 t) from by
      unfold Dat.leavesExact; rw [Bool.eq_false_of_not_iff (idle10_iff t) (by omega)], after10 m c t h2]
    iintro ⟨⟨⟨%xs, %hxs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain rfl := agree_all m c t.val h2 xs hxs
    iapply (runB c (grid0.coords t) _ _ _ _ _ _ _ _ _ _ _ _ _ _ _ _ _ _ _ _ _ _ _ _ hc0 hc1 (iblk m c 0 t) (iblk m c 5 t) (iblk m c 6 t) (iblk m c 7 t) (hidPair m c) Set.univ _)
    isplitl [H0]; · iexact H0
    isplitl [H5]; · iexact H5
    isplitl [H6]; · iexact H6
    isplitl [H7]; · iexact H7
    isplitl [H9]; · iexists _; iexact H9
    isplitl [H10]; · iexists _; iexact H10
    isplitl [HS0]; · iexact HS0
    iintro ⟨H0, H5, H6, H7, H9, H10, HS0⟩
    isplitl [HS0 Hg]
    · isplitl [HS0]
      · iexists _; isplitr
        · ipureintro; exact fun j _ => rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · by_cases h49 : t.val = 49
      · rw [show (dats m 0 c).leavesExact 8 t = owns (c : Thread nD τ) (ms8 t) fullShare ((dats m 0 c).after 8 t) from by
          unfold Dat.leavesExact; rw [(idle8_iff t).mpr h2, (flush8_iff t).mpr (Or.inr h49)]]
        rw [← before8_late m c (t.val - 25) t (by omega) d8]; iexact H8
      · rw [Dat.leavesExact_idle (dats m 0 c) 8 t ((idle8_iff t).mpr h2) (Bool.eq_false_of_not_iff (flush8_iff t) (by omega))]
        iexists _; iexact H8
    isplitl [H9]; · iexact H9
    iexact H10

/-- The body obligation of the pipeline, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch. -/
theorem hin (c : Dev nD) : Pipeline.ΦA spec0 c ⊢ (dats m 0 c).Φ 0 := by
  rw [show (dats m 0 c).Φ 0 = PhiS m c 0 from rfl, PhiA_eq]; unfold PhiS
  iintro ⟨⟨%d, HS0⟩, Hg⟩
  isplitl [HS0]
  · iexists _; isplitr
    · ipureintro; exact agree_zero m c d
    iexact HS0
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%xs, -, HS0⟩, Hg⟩
  isplitl [HS0]
  · iexists _; iexact HS0
  iexact Hg

/-! ## The run and the frame -/

set_option backward.isDefEq.respectTransparency.types false in
/-- Every weakly fair execution of the program terminates; each window's array then holds what the write-backs of
    the proof data leave in it, and every other buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every run ends with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  frame_of m ρ (dats m) (A_eq m) (run_main m ρ)

end Cert.Kernel.Gen

end
-- ==== Proof.KI.Runs.lean ====
/-
  What the two phases of the kernel body share.  The grid is 2 × 25: the first coordinate is the layer, the
  second the block of 400 rows.  Points 0–24 run the first layer (the first conditional), points 25–49 the second.
-/
import proofs.«172329_g62586263437736_cont_9to1_m_674_9_alg».proof.Proof.Gen.KernelIdeal.Frame
import proofs.«172329_g62586263437736_cont_9to1_m_674_9_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional: the point belongs to the first layer. -/
abbrev inL1 (i : grid0.Coords) : Prop := k0_cond1 i = 1#1
/-- The second conditional: the point belongs to the second layer. -/
abbrev inL2 (i : grid0.Coords) : Prop := k0_cond2 i = 1#1

/-- The first layer is the first 25 points. -/
theorem inL1_iff : ∀ t : Fin cfg0.N, inL1 (grid0.coords t) ↔ t.val < 25 :=
  (by decide +kernel : ∀ t : Fin grid0.N, inL1 (grid0.coords t) ↔ t.val < 25)
/-- The second layer is the last 25 points. -/
theorem inL2_iff : ∀ t : Fin cfg0.N, inL2 (grid0.coords t) ↔ 25 ≤ t.val :=
  (by decide +kernel : ∀ t : Fin grid0.N, inL2 (grid0.coords t) ↔ 25 ≤ t.val)

/-- The persistent scratch: the hidden activation as a [value | remainder] pair, 10000 rows of 256 lanes. -/
abbrev scr : Memref sig .tc .vmem S10000x256 .bf16 := Memref.whole cc0_scratch0

end Cert.KernelIdeal.Gen

end
-- ==== Proof.KI.RunA.lean ====
/-
  The body at a point of the FIRST layer (first conditional taken, second not).  It reads the block of 400
  adjacency rows, the whole [value | remainder] operand, the rows of that operand belonging to the block, the
  scale row, the weights and the bias; it stores the aggregated block into the first output's buffer and the
  new [value | remainder] rows of the hidden activation into rows [400·b, 400·b + 400) of the scratch, whose
  other rows it leaves as they were.  The second layer's operands and outputs are not touched.
-/
import proofs.«172329_g62586263437736_cont_9to1_m_674_9_alg».proof.Proof.KI.Runs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 400 rows of a [10000, 256] array that belong to the point's block. -/
abbrev rowsA (i : grid0.Coords) (hc0 : inL1 i) (X : Vec F S10000x256 .bf16) : Vec F S400x256 .bf16 :=
  View.ld X (Rect.unit (s := S10000x256) (k0_off1 i) S400x256.size (k0_off1_inb i hc0))

/-- The scratch after the point: `blk` in the block's rows, the earlier contents `xs` elsewhere. -/
def scrPut (i : grid0.Coords) (hc0 : inL1 i) (arg13 : Memref sig .tc .vmem S10000x256 .bf16) (harg13 : arg13.IsWhole)
    (xs : Vec F S10000x256 .bf16) (blk : Vec F S400x256 .bf16) : Vec F S10000x256 .bf16 :=
  arg13.view.read (Elt F) (arg13.view.writes (Elt F) (harg13.unread xs)
    [⟨Rect.unit (s := S10000x256) (k0_off1 i) S400x256.size (k0_off1_inb i hc0), blk⟩])

/-- A store through the whole-shape rectangle at zero offsets leaves its payload. -/
theorem read_writes_whole0 {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  subst h; exact View.read_writes_whole v f w

/-- The zero offsets of a rank-2 rectangle, as a constant function. -/
theorem hz2 : (![0, 0] : Fin 2 → ℕ) = fun _ => 0 := by
  funext a; match a with | ⟨0, _⟩ => rfl | ⟨1, _⟩ => rfl

set_option maxHeartbeats 1000000 in
/-- The first layer's point: from the operands at `x0 … x4`, the first output's buffer at anything and the scratch
    at `xs`, the body runs to the operands unchanged, the first output's buffer at the aggregated block and the scratch
    at `xs` with the block's rows replaced by the new [value | remainder] rows. -/
theorem runA (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S400x40 .f32) (harg12 : arg12.IsWhole) (arg13 : Memref sig .tc .vmem S10000x256 .bf16) (harg13 : arg13.IsWhole) (hc0 : inL1 i) (hc1 : ¬inL2 i)
    (x0 : Vec F S400x10000 .f32) (x1 : Vec F S10000x256 .bf16) (x2 : Vec F S128x128 .f32) (x3 : Vec F S1x128 .f32) (x4 : Vec F S1x128 .f32)
    (xs : Vec F S10000x256 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg10 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg10 fullShare (k0_pay2 x0 x1)
                ∗ owns (c : Thread nD τ) arg13 fullShare (scrPut i hc0 arg13 harg13 xs (k0_pay3 x0 x1 (rowsA i hc0 x1) x4 x2 x3))) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13) K := by
    simp only [cc0_body_eq_skeleton]; unfold cc0_body_skel
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg13.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H8]
    · iexists _; isplitr; swap; · iexact H8
      ipureintro
      simp only [View.readAt_eq_ld, harg2.read_unread, harg3.read_unread, View.ld_unit_zero (S := S400x10000) hz2, View.ld_unit_zero (S := S10000x256) hz2]
      exact read_writes_whole0 (S := S400x128) _ _ hz2 _ _
    iexists _; isplitr; swap; · iexact HS0
    ipureintro
    unfold scrPut rowsA
    simp only [View.readAt_eq_ld, harg2.read_unread, harg3.read_unread, harg4.read_unread, harg5.read_unread, harg6.read_unread, View.ld_unit_zero (S := S400x10000) hz2, View.ld_unit_zero (S := S10000x256) hz2, View.ld_unit_zero (S := S128x128) hz2, View.ld_unit_zero (S := S1x128) hz2]

end Cert.KernelIdeal.Gen

end
-- ==== Proof.KI.RunB.lean ====
/-
  The body at a point of the SECOND layer (first conditional not taken, second taken).  It reads the block of
  400 adjacency rows, the whole scratch (the hidden activation as [value | remainder]), the scratch rows of the
  block, the second scale row, weights and bias; it stores the aggregated block into the second output's buffer
  and the block's log-probabilities into the third's.  The scratch and the first layer's buffers are not changed.
-/
import proofs.«172329_g62586263437736_cont_9to1_m_674_9_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 400 scratch rows that belong to the point's block. -/
abbrev rowsB (i : grid0.Coords) (hc1 : inL2 i) (X : Vec F S10000x256 .bf16) : Vec F S400x256 .bf16 :=
  View.ld X (Rect.unit (s := S10000x256) (k0_off2 i) S400x256.size (k0_off2_inb i hc1))

set_option maxHeartbeats 1000000 in
/-- The second layer's point: from the operands at `x0, x5, x6, x7`, the second and third outputs' buffers at anything
    and the scratch at `xs`, the body runs to the operands and the scratch unchanged, the second output's buffer at
    the block's second aggregation and the third's at its log-probabilities. -/
theorem runB (c : Dev nD) (i : grid0.Coords) (arg2 : Memref sig .tc .vmem S400x10000 .f32) (harg2 : arg2.IsWhole) (arg3 : Memref sig .tc .vmem S10000x256 .bf16) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x40 .f32) (harg7 : arg7.IsWhole) (arg8 : Memref sig .tc .vmem S1x40 .f32) (harg8 : arg8.IsWhole) (arg9 : Memref sig .tc .vmem S1x128 .f32) (harg9 : arg9.IsWhole) (arg10 : Memref sig .tc .vmem S400x128 .f32) (harg10 : arg10.IsWhole) (arg11 : Memref sig .tc .vmem S400x128 .f32) (harg11 : arg11.IsWhole) (arg12 : Memref sig .tc .vmem S400x40 .f32) (harg12 : arg12.IsWhole) (arg13 : Memref sig .tc .vmem S10000x256 .bf16) (harg13 : arg13.IsWhole) (hc0 : ¬inL1 i) (hc1 : inL2 i)
    (x0 : Vec F S400x10000 .f32) (x5 : Vec F S128x40 .f32) (x6 : Vec F S1x40 .f32) (x7 : Vec F S1x128 .f32)
    (xs : Vec F S10000x256 .bf16) (E : Set ℕ) (K : PUnit → sProp 𝕄) :
        iprop(owns (c : Thread nD τ) arg2 fullShare x0 ∗ owns (c : Thread nD τ) arg7 fullShare x5 ∗ owns (c : Thread nD τ) arg8 fullShare x6 ∗ owns (c : Thread nD τ) arg9 fullShare x7 ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg7 fullShare x5 ∗ owns (c : Thread nD τ) arg8 fullShare x6 ∗ owns (c : Thread nD τ) arg9 fullShare x7
                ∗ owns (c : Thread nD τ) arg11 fullShare (k0_pay4 x0 xs)
                ∗ owns (c : Thread nD τ) arg12 fullShare (k0_pay5 x0 xs (rowsB i hc1 xs) x7 x5 x6)
                ∗ owns (c : Thread nD τ) arg13 fullShare xs) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13) K := by
    simp only [cc0_body_eq_skeleton]; unfold cc0_body_skel
    unfold owns
    iintro ⟨⟨%f0, %hf0, H0⟩, ⟨%f5, %hf5, H5⟩, ⟨%f6, %hf6, H6⟩, ⟨%f7, %hf7, H7⟩, ⟨%d9, %f9, -, H9⟩, ⟨%d10, %f10, -, H10⟩, ⟨%fs0, %hfs0, HS0⟩, Hk⟩
    obtain rfl := harg2.eq_unread hf0; obtain rfl := harg7.eq_unread hf5; obtain rfl := harg8.eq_unread hf6; obtain rfl := harg9.eq_unread hf7
    obtain rfl := harg13.eq_unread hfs0
    sl_exec (disch := first | exact hc0 | exact hc1)
    sl_step
    iapply Hk
    isplitl [H0]
    · iexists _; isplitr; · ipureintro; exact harg2.read_unread _
      iexact H0
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H9]
    · iexists _; isplitr; swap; · iexact H9
      ipureintro
      simp only [View.readAt_eq_ld, harg2.read_unread, harg13.read_unread, View.ld_unit_zero (S := S400x10000) hz2, View.ld_unit_zero (S := S10000x256) hz2]
      exact read_writes_whole0 (S := S400x128) _ _ hz2 _ _
    isplitl [H10]
    · iexists _; isplitr; swap; · iexact H10
      ipureintro
      unfold rowsB
      simp only [View.readAt_eq_ld, harg2.read_unread, harg7.read_unread, harg8.read_unread, harg9.read_unread, harg13.read_unread, View.ld_unit_zero (S := S400x10000) hz2, View.ld_unit_zero (S := S10000x256) hz2, View.ld_unit_zero (S := S128x40) hz2, View.ld_unit_zero (S := S1x40) hz2, View.ld_unit_zero (S := S1x128) hz2]
      exact read_writes_whole0 (S := S400x40) _ _ hz2 _ _
    iexists _; isplitr; · ipureintro; exact harg13.read_unread _
    iexact HS0

end Cert.KernelIdeal.Gen

end
-- ==== Proof.KI.Frame.lean ====
/-
  The proof data of the one pipeline and its body obligation.

  The grid's 50 points are the first layer's 25 row blocks followed by the second layer's 25.  What the body
  carries from point to point is the scratch: after the first layer's block b it holds, in rows [400·b, 400·b+400),
  the [value | remainder] pair of the hidden activation of those rows, computed from the block's adjacency rows and
  the whole input pair; rows of earlier blocks keep what those blocks left, rows of later blocks are still arbitrary.
  The invariant before point n says that the scratch agrees with the completed pair `hidPair` on its first 400·n
  rows (all rows from point 25 on).  The first output's buffer holds the aggregated block of the point during the
  first layer and is left untouched, on block 24, during the second, at whose last point it is written back once more
  with those same contents; the second and third outputs' buffers are untouched during the first layer and hold the
  second layer's aggregated block and log-probabilities afterwards.
-/
import proofs.«172329_g62586263437736_cont_9to1_m_674_9_alg».proof.Proof.KI.RunB
import Idealize.ShloMosaic.Lib.WritesUnit
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the grid -/

theorem N50 : cfg0.N = 50 := N_0
theorem lt_N {n : ℕ} (h : n < 50) : n < cfg0.N := lt_of_lt_of_eq h N50.symm
theorem val_lt50 (t : Fin cfg0.N) : t.val < 50 := lt_of_lt_of_eq t.isLt N50

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The first output is stored into during the first layer only. -/
theorem idle8_iff : ∀ t : Fin cfg0.N, cfg0.idle 8 (grid0.coords t) = true ↔ 25 ≤ t.val :=
  (by decide +kernel : ∀ t : Fin grid0.N, cfg0.idle 8 (grid0.coords t) = true ↔ 25 ≤ t.val)
/-- The second and third outputs are stored into during the second layer only. -/
theorem idle9_iff : ∀ t : Fin cfg0.N, cfg0.idle 9 (grid0.coords t) = true ↔ t.val < 25 :=
  (by decide +kernel : ∀ t : Fin grid0.N, cfg0.idle 9 (grid0.coords t) = true ↔ t.val < 25)
theorem idle10_iff : ∀ t : Fin cfg0.N, cfg0.idle 10 (grid0.coords t) = true ↔ t.val < 25 :=
  (by decide +kernel : ∀ t : Fin grid0.N, cfg0.idle 10 (grid0.coords t) = true ↔ t.val < 25)
/-- The first output's block index is the row block during the first layer and stays 24 afterwards: it is written
    back when the index moves (after points 0–23) and at the end. -/
theorem flush8_iff : ∀ t : Fin cfg0.N, (cfg0.win 8).flush t = true ↔ (t.val < 24 ∨ t.val = 49) :=
  (by decide +kernel : ∀ t : Fin grid0.N, win0_8.flush t = true ↔ (t.val < 24 ∨ t.val = 49))
/-- The other outputs' block index is 0 during the first layer and the row block afterwards. -/
theorem flush9_iff : ∀ t : Fin cfg0.N, (cfg0.win 9).flush t = true ↔ 25 ≤ t.val :=
  (by decide +kernel : ∀ t : Fin grid0.N, win0_9.flush t = true ↔ 25 ≤ t.val)
theorem flush10_iff : ∀ t : Fin cfg0.N, (cfg0.win 10).flush t = true ↔ 25 ≤ t.val :=
  (by decide +kernel : ∀ t : Fin grid0.N, win0_10.flush t = true ↔ 25 ≤ t.val)
/-- The row offset of the first layer's scratch rows is 400 times the block. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

theorem Bool.eq_false_of_not_iff {b : Bool} {p : Prop} (h : b = true ↔ p) (hp : ¬p) : b = false := by
  cases b
  · rfl
  · exact absurd (h.mp rfl) hp

/-! ## The scratch rows written by a first-layer point -/

/-- Inside the point's rows the scratch holds the new rows. -/
theorem scrPut_in (t : Fin cfg0.N) (ht : t.val < 25) (hc0 : inL1 (grid0.coords t)) (arg13 : Memref sig .tc .vmem S10000x256 .bf16)
    (harg13 : arg13.IsWhole) (xs : Vec F S10000x256 .bf16) (blk : Vec F S400x256 .bf16) (j : S10000x256.Idx) (p : Fin 400)
    (hj : (j 0).val = 400 * t.val + p.val) :
    scrPut (grid0.coords t) hc0 arg13 harg13 xs blk j = blk (ValueIdx.ix2 p (j 1)) := by
  unfold scrPut
  exact View.read_writes_cons_rows_of_mem (d := ![10000, 256]) arg13.view (harg13.unread xs) (k0_off1_inb (grid0.coords t) hc0) blk [] j
    (ValueIdx.ix2 p (j 1)) (off1_eq t ht) hj rfl

/-- Outside them it holds what it held. -/
theorem scrPut_out (t : Fin cfg0.N) (ht : t.val < 25) (hc0 : inL1 (grid0.coords t)) (arg13 : Memref sig .tc .vmem S10000x256 .bf16)
    (harg13 : arg13.IsWhole) (xs : Vec F S10000x256 .bf16) (blk : Vec F S400x256 .bf16) (j : S10000x256.Idx)
    (hj : (j 0).val < 400 * t.val ∨ 400 * t.val + 400 ≤ (j 0).val) :
    scrPut (grid0.coords t) hc0 arg13 harg13 xs blk j = xs j := by
  unfold scrPut
  rw [View.read_writes_cons_rows_of_not_mem (d := ![10000, 256]) (W := 400) arg13.view (harg13.unread xs) (k0_off1_inb (grid0.coords t) hc0) blk [] j
    (off1_eq t ht) rfl hj, View.writes_nil, harg13.read_unread]

/-! ## The completed [value | remainder] pair of the hidden activation -/

/-- The 400 rows the first-layer point of block `b` stores. -/
def hidRows (c : Dev nD) (b : Fin cfg0.N) (hb : b.val < 25) : Vec F S400x256 .bf16 :=
  k0_pay3 (iblk m c 0 b) (iblk m c 1 b) (rowsA (grid0.coords b) ((inL1_iff b).mpr hb) (iblk m c 1 b)) (iblk m c 4 b) (iblk m c 2 b) (iblk m c 3 b)

/-- All 10000 rows: row r is row r mod 400 of block r / 400. -/
def hidPair (c : Dev nD) : Vec F S10000x256 .bf16 := fun j =>
  hidRows m c ⟨(j 0).val / 400, lt_N (by have := ValueIdx.idx2_lt0 j; omega)⟩ (by have := ValueIdx.idx2_lt0 j; show (j 0).val / 400 < 25; omega)
    (ValueIdx.ix2 (⟨(j 0).val % 400, by omega⟩ : Fin 400) (j 1))

theorem hidRows_congr (c : Dev nD) (b b' : Fin cfg0.N) (hb : b.val < 25) (hb' : b'.val < 25) (p p' : Fin 400) (q : Fin 256)
    (e1 : b = b') (e2 : p = p') : hidRows m c b hb (ValueIdx.ix2 p q) = hidRows m c b' hb' (ValueIdx.ix2 p' q) := by
  subst e1; subst e2; rfl

theorem hidPair_eq (c : Dev nD) (j : S10000x256.Idx) (b : Fin cfg0.N) (hb : b.val < 25) (p : Fin 400)
    (hj : (j 0).val = 400 * b.val + p.val) : hidPair m c j = hidRows m c b hb (ValueIdx.ix2 p (j 1)) := by
  unfold hidPair
  exact hidRows_congr m c _ b _ hb _ p (j 1) (Fin.ext (by have := p.isLt; show (j 0).val / 400 = b.val; omega))
    (Fin.ext (by have := p.isLt; show (j 0).val % 400 = p.val; omega))

/-- The scratch agrees with the completed pair on its first 400·n rows. -/
def Agree (c : Dev nD) (n : ℕ) (xs : Vec F S10000x256 .bf16) : Prop :=
  ∀ j : S10000x256.Idx, (j 0).val < 400 * n → xs j = hidPair m c j

theorem agree_zero (c : Dev nD) (xs : Vec F S10000x256 .bf16) : Agree m c 0 xs := fun j hj => absurd hj (by omega)

theorem agree_all (c : Dev nD) (n : ℕ) (hn : 25 ≤ n) (xs : Vec F S10000x256 .bf16) (h : Agree m c n xs) : xs = hidPair m c :=
  funext fun j => h j (by have := ValueIdx.idx2_lt0 j; omega)

/-- A first-layer point extends the agreement by its 400 rows. -/
theorem agree_step (c : Dev nD) (t : Fin cfg0.N) (ht : t.val < 25) (arg13 : Memref sig .tc .vmem S10000x256 .bf16)
    (harg13 : arg13.IsWhole) (xs : Vec F S10000x256 .bf16) (hx : Agree m c t.val xs) :
    Agree m c (t.val + 1) (scrPut (grid0.coords t) ((inL1_iff t).mpr ht) arg13 harg13 xs (hidRows m c t ht)) := by
  intro j hj
  by_cases hlt : (j 0).val < 400 * t.val
  · rw [scrPut_out t ht _ arg13 harg13 xs _ j (Or.inl hlt)]; exact hx j hlt
  · obtain ⟨p, hp⟩ : ∃ p : Fin 400, (j 0).val = 400 * t.val + p.val :=
      ⟨⟨(j 0).val - 400 * t.val, by omega⟩, by show (j 0).val = 400 * t.val + ((j 0).val - 400 * t.val); omega⟩
    rw [scrPut_in t ht _ arg13 harg13 xs _ j p hp]
    exact (hidPair_eq m c j t ht p hp).symm

/-! ## The invariant -/

/-- What the launch hands the body besides the windows: the scratch at some contents and the generator register. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Before point n: the scratch agrees with the completed pair on its first 400·n rows. -/
def PhiS (c : Dev nD) (n : ℕ) : sProp 𝕄 :=
  iprop(iprop((∃ xs, ⌜Agree m c n xs⌝ ∗ owns (c : Thread nD τ) scr fullShare xs)) ∗ (∃ r, prngReg c r))

/-! ## The proof data -/

/-- The last first-layer point at or before `t`: what the first output's buffer holds was stored there. -/
def lastL1 (t : Fin cfg0.N) : Fin cfg0.N := ⟨min t.val 24, lt_N (by omega)⟩

theorem lastL1_of_lt (t : Fin cfg0.N) (h : t.val < 25) : lastL1 t = t := Fin.ext (by show min t.val 24 = t.val; omega)
theorem lastL1_of_ge (t : Fin cfg0.N) (h : 24 ≤ t.val) : lastL1 t = ⟨24, lt_N (by omega)⟩ := Fin.ext (by show min t.val 24 = 24; omega)

/-- The proof data on core `c`: the arrays as the region finds them; after the body each operand's buffer at its
    block, the first output's at the aggregated block of the last first-layer point so far, the second's at the second
    aggregation of the point's rows over the completed pair, the third's (second layer) at their log-probabilities;
    the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (iblk m c 0 (lastL1 t)) (iblk m c 1 (lastL1 t))
    | ⟨9, _⟩ => k0_pay4 (iblk m c 0 t) (hidPair m c)
    | ⟨10, h⟩ => if h2 : 25 ≤ t.val then
        k0_pay5 (iblk m c 0 t) (hidPair m c) (rowsB (grid0.coords t) ((inL2_iff t).mpr h2) (hidPair m c)) (iblk m c 7 t) (iblk m c 5 t) (iblk m c 6 t)
      else Pipeline.Dat.unnamed (cfg := cfg0) ⟨10, h⟩ t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay2 (iblk m c 0 (lastL1 t)) (iblk m c 1 (lastL1 t)) := by dsimp only [dats]
theorem after9 (c : Dev nD) (t : Fin cfg0.N) : (dats m 0 c).after 9 t = k0_pay4 (iblk m c 0 t) (hidPair m c) := by dsimp only [dats]
theorem after10 (c : Dev nD) (t : Fin cfg0.N) (h2 : 25 ≤ t.val) : (dats m 0 c).after 10 t
    = k0_pay5 (iblk m c 0 t) (hidPair m c) (rowsB (grid0.coords t) ((inL2_iff t).mpr h2) (hidPair m c)) (iblk m c 7 t) (iblk m c 5 t) (iblk m c 6 t) := by
  dsimp only [dats]; rw [dif_pos h2]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- During the second layer the first output's buffer still holds the aggregated block 24. -/
theorem before8_late (c : Dev nD) : ∀ (n : ℕ) (t : Fin cfg0.N), t.val = 25 + n → ∀ d, (dats m 0 c).before 8 t d = (dats m 0 c).after 8 t
  | 0, t, ht, d => by
    rw [(dats m 0 c).before_of_pos 8 t (by omega) ((cfg0.win 8).fetch_out rfl t) d,
      if_neg (by rw [Bool.eq_false_of_not_iff (flush8_iff _) (by show ¬(t.val - 1 < 24 ∨ t.val - 1 = 49); omega)]; exact Bool.false_ne_true)]
    unfold Dat.left
    rw [Bool.eq_false_of_not_iff (idle8_iff _) (by show ¬(25 ≤ t.val - 1); omega)]
    unfold Dat.kept
    rw [Pipeline.fill_of_clip_none 8 _ (fun _ => rfl) d ((dats m 0 c).after 8 _), Window.fill_cut, after8, after8,
      lastL1_of_ge _ (by show 24 ≤ t.val - 1; omega), lastL1_of_ge t (by omega)]
  | n + 1, t, ht, d => by
    rw [(dats m 0 c).before_of_pos 8 t (by omega) ((cfg0.win 8).fetch_out rfl t) d,
      if_neg (by rw [Bool.eq_false_of_not_iff (flush8_iff _) (by show ¬(t.val - 1 < 24 ∨ t.val - 1 = 49); have := val_lt50 t; omega)]; exact Bool.false_ne_true)]
    unfold Dat.left
    rw [(idle8_iff _).mpr (by show 25 ≤ t.val - 1; omega)]
    refine (before8_late c n ⟨t.val - 1, by have := t.isLt; omega⟩ (by show t.val - 1 = 25 + n; omega) d).trans ?_
    rw [after8, after8, lastL1_of_ge _ (by show 24 ≤ t.val - 1; omega), lastL1_of_ge t (by omega)]

/-! ## The body obligation -/

abbrev ms0 (t : Fin cfg0.N) : Memref sig .tc .vmem S400x10000 .f32 := win0_0.stage (cfg0.slots t 0)
abbrev ms1 (t : Fin cfg0.N) : Memref sig .tc .vmem S10000x256 .bf16 := win0_1.stage (cfg0.slots t 1)
abbrev ms2 (t : Fin cfg0.N) : Memref sig .tc .vmem S128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S1x128 .f32 := win0_4.stage (cfg0.slots t 4)
abbrev ms5 (t : Fin cfg0.N) : Memref sig .tc .vmem S128x40 .f32 := win0_5.stage (cfg0.slots t 5)
abbrev ms6 (t : Fin cfg0.N) : Memref sig .tc .vmem S1x40 .f32 := win0_6.stage (cfg0.slots t 6)
abbrev ms7 (t : Fin cfg0.N) : Memref sig .tc .vmem S1x128 .f32 := win0_7.stage (cfg0.slots t 7)
abbrev ms8 (t : Fin cfg0.N) : Memref sig .tc .vmem S400x128 .f32 := win0_8.stage (cfg0.slots t 8)
abbrev ms9 (t : Fin cfg0.N) : Memref sig .tc .vmem S400x128 .f32 := win0_9.stage (cfg0.slots t 9)
abbrev ms10 (t : Fin cfg0.N) : Memref sig .tc .vmem S400x40 .f32 := win0_10.stage (cfg0.slots t 10)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point.  The operands' buffers hold their blocks.  In the first layer the point stores its
    aggregated block and extends the scratch's agreement with the completed pair by its 400 rows; the other two
    outputs' buffers are handed back as found.  In the second layer the scratch is the completed pair, the point
    stores the second aggregation and the log-probabilities of its block, and the first output's buffer is handed
    back as found — which at the last point, where it is written back, is the aggregated block 24. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 50 := val_lt50 t
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  by_cases h : t.val < 25
  · have hc0 : inL1 (grid0.coords t) := (inL1_iff t).mpr h
    have hc1 : ¬inL2 (grid0.coords t) := fun h' => by have := (inL2_iff t).mp h'; omega
    rw [show (dats m 0 c).leavesExact 8 t = owns (c : Thread nD τ) (ms8 t) fullShare ((dats m 0 c).after 8 t) from by
      unfold Dat.leavesExact; rw [Bool.eq_false_of_not_iff (idle8_iff t) (by omega)], after8, lastL1_of_lt t h]
    rw [Dat.leavesExact_idle (dats m 0 c) 9 t ((idle9_iff t).mpr h) (Bool.eq_false_of_not_iff (flush9_iff t) (by omega)),
      Dat.leavesExact_idle (dats m 0 c) 10 t ((idle10_iff t).mpr h) (Bool.eq_false_of_not_iff (flush10_iff t) (by omega))]
    iintro ⟨⟨⟨%xs, %hxs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ hc0 hc1 (iblk m c 0 t) (iblk m c 1 t) (iblk m c 2 t) (iblk m c 3 t) (iblk m c 4 t) xs Set.univ _)
    isplitl [H0]; · iexact H0
    isplitl [H1]; · iexact H1
    isplitl [H2]; · iexact H2
    isplitl [H3]; · iexact H3
    isplitl [H4]; · iexact H4
    isplitl [H8]; · iexists _; iexact H8
    isplitl [HS0]; · iexact HS0
    iintro ⟨H0, H1, H2, H3, H4, H8, HS0⟩
    isplitl [HS0 Hg]
    · isplitl [HS0]
      · iexists _; isplitr
        · ipureintro; exact agree_step m c t h scr (Memref.isWhole_whole _) xs hxs
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have h2 : 25 ≤ t.val := by omega
    have hc0 : ¬inL1 (grid0.coords t) := fun h' => h ((inL1_iff t).mp h')
    have hc1 : inL2 (grid0.coords t) := (inL2_iff t).mpr h2
    rw [show (dats m 0 c).leavesExact 9 t = owns (c : Thread nD τ) (ms9 t) fullShare ((dats m 0 c).after 9 t) from by
      unfold Dat.leavesExact; rw [Bool.eq_false_of_not_iff (idle9_iff t) (by omega)], after9]
    rw [show (dats m 0 c).leavesExact 10 t = owns (c : Thread nD τ) (ms10 t) fullShare ((dats m 0 c).after 10 t) from by
      unfold Dat.leavesExact; rw [Bool.eq_false_of_not_iff (idle10_iff t) (by omega)], after10 m c t h2]
    iintro ⟨⟨⟨%xs, %hxs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain rfl := agree_all m c t.val h2 xs hxs
    iapply (runB c (grid0.coords t) _ _ _ _ _ _ _ _ _ _ _ _ _ _ _ _ _ _ _ _ _ _ _ _ hc0 hc1 (iblk m c 0 t) (iblk m c 5 t) (iblk m c 6 t) (iblk m c 7 t) (hidPair m c) Set.univ _)
    isplitl [H0]; · iexact H0
    isplitl [H5]; · iexact H5
    isplitl [H6]; · iexact H6
    isplitl [H7]; · iexact H7
    isplitl [H9]; · iexists _; iexact H9
    isplitl [H10]; · iexists _; iexact H10
    isplitl [HS0]; · iexact HS0
    iintro ⟨H0, H5, H6, H7, H9, H10, HS0⟩
    isplitl [HS0 Hg]
    · isplitl [HS0]
      · iexists _; isplitr
        · ipureintro; exact fun j _ => rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · by_cases h49 : t.val = 49
      · rw [show (dats m 0 c).leavesExact 8 t = owns (c : Thread nD τ) (ms8 t) fullShare ((dats m 0 c).after 8 t) from by
          unfold Dat.leavesExact; rw [(idle8_iff t).mpr h2, (flush8_iff t).mpr (Or.inr h49)]]
        rw [← before8_late m c (t.val - 25) t (by omega) d8]; iexact H8
      · rw [Dat.leavesExact_idle (dats m 0 c) 8 t ((idle8_iff t).mpr h2) (Bool.eq_false_of_not_iff (flush8_iff t) (by omega))]
        iexists _; iexact H8
    isplitl [H9]; · iexact H9
    iexact H10

/-- The body obligation of the pipeline, at every point. -/
theorem body_obligation (c : Dev nD) : BodyObligation (dats (F := F) m 0 c) (defs₀ (F := F)) Variants.none () Set.univ := fun t => by
  rw [bigSep_W0, bigSep_W0]
  exact sound_body m c t

/-- Before the first point nothing is asked of the scratch. -/
theorem hin (c : Dev nD) : Pipeline.ΦA spec0 c ⊢ (dats m 0 c).Φ 0 := by
  rw [show (dats m 0 c).Φ 0 = PhiS m c 0 from rfl, PhiA_eq]; unfold PhiS
  iintro ⟨⟨%d, HS0⟩, Hg⟩
  isplitl [HS0]
  · iexists _; isplitr
    · ipureintro; exact agree_zero m c d
    iexact HS0
  iexact Hg

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]; unfold PhiS
  iintro ⟨⟨%xs, -, HS0⟩, Hg⟩
  isplitl [HS0]
  · iexists _; iexact HS0
  iexact Hg

/-! ## The run and the frame -/

set_option backward.isDefEq.respectTransparency.types false in
/-- Every weakly fair execution of the program terminates; each window's array then holds what the write-backs of
    the proof data leave in it, and every other buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every run ends with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  frame_of m ρ (dats m) (A_eq m) (run_main m ρ)

end Cert.KernelIdeal.Gen

end
-- ==== Proof.KI.Cover.lean ====
/-
  The output arrays after the run.  Each of the three output windows writes back blocks of 400 rows: the first
  output's block b after the first layer's point b (b < 24) and block 24 at the very end, the other two outputs'
  block b after the second layer's point 25 + b.  Every row lies in exactly one such block, so each array ends
  holding, row by row, what the body left in the buffer at the point that wrote the row's block back.
-/
import proofs.«172329_g62586263437736_cont_9to1_m_674_9_alg».proof.Proof.KI.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block indices of the three output windows, decided over the grid. -/
theorem idx8 : ∀ t : Fin cfg0.N, win0_8.index t (0 : Fin 2) = min t.val 24 ∧ win0_8.index t (1 : Fin 2) = 0 :=
  (by decide +kernel : ∀ t : Fin grid0.N, win0_8.index t (0 : Fin 2) = min t.val 24 ∧ win0_8.index t (1 : Fin 2) = 0)
theorem idx9 : ∀ t : Fin cfg0.N, win0_9.index t (0 : Fin 2) = t.val - 25 ∧ win0_9.index t (1 : Fin 2) = 0 :=
  (by decide +kernel : ∀ t : Fin grid0.N, win0_9.index t (0 : Fin 2) = t.val - 25 ∧ win0_9.index t (1 : Fin 2) = 0)
theorem idx10 : ∀ t : Fin cfg0.N, win0_10.index t (0 : Fin 2) = t.val - 25 ∧ win0_10.index t (1 : Fin 2) = 0 :=
  (by decide +kernel : ∀ t : Fin grid0.N, win0_10.index t (0 : Fin 2) = t.val - 25 ∧ win0_10.index t (1 : Fin 2) = 0)

/-- An index of the first output is in point `t`'s block iff its row is in the block's 400 rows. -/
theorem mem_blk8 (t : Fin cfg0.N) (i : S10000x128.Idx) :
    i ∈ ((cfg0.win 8).blk t).view.set ↔ 400 * min t.val 24 ≤ (i 0).val ∧ (i 0).val < 400 * min t.val 24 + 400 := by
  show i ∈ ((View.whole main_v13_0).slice (win0_8.rect t)).set ↔ _
  rw [View.set_slice_whole, Rect.mem_set_unit]
  obtain ⟨e0, e1⟩ := idx8 t
  constructor
  · intro h
    have b0 : win0_8.index t (0 : Fin 2) * 400 ≤ (i 0).val ∧ (i 0).val < win0_8.index t (0 : Fin 2) * 400 + 400 := h 0
    omega
  · intro h a
    match a with
    | ⟨0, _⟩ => show win0_8.index t (0 : Fin 2) * 400 ≤ (i 0).val ∧ (i 0).val < win0_8.index t (0 : Fin 2) * 400 + 400; omega
    | ⟨1, _⟩ => show win0_8.index t (1 : Fin 2) * 128 ≤ (i 1).val ∧ (i 1).val < win0_8.index t (1 : Fin 2) * 128 + 128; have := ValueIdx.idx2_lt1 i; omega

theorem mem_blk9 (t : Fin cfg0.N) (i : S10000x128.Idx) :
    i ∈ ((cfg0.win 9).blk t).view.set ↔ 400 * (t.val - 25) ≤ (i 0).val ∧ (i 0).val < 400 * (t.val - 25) + 400 := by
  show i ∈ ((View.whole main_v13_1).slice (win0_9.rect t)).set ↔ _
  rw [View.set_slice_whole, Rect.mem_set_unit]
  obtain ⟨e0, e1⟩ := idx9 t
  constructor
  · intro h
    have b0 : win0_9.index t (0 : Fin 2) * 400 ≤ (i 0).val ∧ (i 0).val < win0_9.index t (0 : Fin 2) * 400 + 400 := h 0
    omega
  · intro h a
    match a with
    | ⟨0, _⟩ => show win0_9.index t (0 : Fin 2) * 400 ≤ (i 0).val ∧ (i 0).val < win0_9.index t (0 : Fin 2) * 400 + 400; omega
    | ⟨1, _⟩ => show win0_9.index t (1 : Fin 2) * 128 ≤ (i 1).val ∧ (i 1).val < win0_9.index t (1 : Fin 2) * 128 + 128; have := ValueIdx.idx2_lt1 i; omega

theorem mem_blk10 (t : Fin cfg0.N) (i : S10000x40.Idx) :
    i ∈ ((cfg0.win 10).blk t).view.set ↔ 400 * (t.val - 25) ≤ (i 0).val ∧ (i 0).val < 400 * (t.val - 25) + 400 := by
  show i ∈ ((View.whole main_v13_2).slice (win0_10.rect t)).set ↔ _
  rw [View.set_slice_whole, Rect.mem_set_unit]
  obtain ⟨e0, e1⟩ := idx10 t
  constructor
  · intro h
    have b0 : win0_10.index t (0 : Fin 2) * 400 ≤ (i 0).val ∧ (i 0).val < win0_10.index t (0 : Fin 2) * 400 + 400 := h 0
    omega
  · intro h a
    match a with
    | ⟨0, _⟩ => show win0_10.index t (0 : Fin 2) * 400 ≤ (i 0).val ∧ (i 0).val < win0_10.index t (0 : Fin 2) * 400 + 400; omega
    | ⟨1, _⟩ => show win0_10.index t (1 : Fin 2) * 40 ≤ (i 1).val ∧ (i 1).val < win0_10.index t (1 : Fin 2) * 40 + 40; have := ValueIdx.idx2_lt1 i; omega

/-- Every row of the first output is in a block that is written back: block b < 24 after point b, block 24 at the end. -/
theorem cover8 (i : S10000x128.Idx) : ∃ t : Fin cfg0.N, (cfg0.win 8).flush t = true ∧ i ∈ ((cfg0.win 8).blk t).view.set := by
  have hi : (i 0).val < 10000 := ValueIdx.idx2_lt0 i
  by_cases hb : (i 0).val / 400 < 24
  · refine ⟨⟨(i 0).val / 400, lt_N (by omega)⟩, (flush8_iff _).mpr (Or.inl hb), (mem_blk8 _ i).mpr ?_⟩
    show 400 * min ((i 0).val / 400) 24 ≤ (i 0).val ∧ (i 0).val < 400 * min ((i 0).val / 400) 24 + 400
    omega
  · refine ⟨⟨49, lt_N (by omega)⟩, (flush8_iff _).mpr (Or.inr rfl), (mem_blk8 _ i).mpr ?_⟩
    show 400 * min 49 24 ≤ (i 0).val ∧ (i 0).val < 400 * min 49 24 + 400
    omega

theorem cover9 (i : S10000x128.Idx) : ∃ t : Fin cfg0.N, (cfg0.win 9).flush t = true ∧ i ∈ ((cfg0.win 9).blk t).view.set := by
  have hi : (i 0).val < 10000 := ValueIdx.idx2_lt0 i
  refine ⟨⟨25 + (i 0).val / 400, lt_N (by omega)⟩, (flush9_iff _).mpr (by show 25 ≤ 25 + (i 0).val / 400; omega), (mem_blk9 _ i).mpr ?_⟩
  show 400 * (25 + (i 0).val / 400 - 25) ≤ (i 0).val ∧ (i 0).val < 400 * (25 + (i 0).val / 400 - 25) + 400
  omega

theorem cover10 (i : S10000x40.Idx) : ∃ t : Fin cfg0.N, (cfg0.win 10).flush t = true ∧ i ∈ ((cfg0.win 10).blk t).view.set := by
  have hi : (i 0).val < 10000 := ValueIdx.idx2_lt0 i
  refine ⟨⟨25 + (i 0).val / 400, lt_N (by omega)⟩, (flush10_iff _).mpr (by show 25 ≤ 25 + (i 0).val / 400; omega), (mem_blk10 _ i).mpr ?_⟩
  show 400 * (25 + (i 0).val / 400 - 25) ≤ (i 0).val ∧ (i 0).val < 400 * (25 + (i 0).val / 400 - 25) + 400
  omega

/-- The row offset of the second layer's scratch rows is 400 times the block. -/
theorem off2_eq : ∀ t : Fin cfg0.N, 25 ≤ t.val → k0_off2 (grid0.coords t) = ![400 * (t.val - 25), 0] :=
  (by decide +kernel : ∀ t : Fin grid0.N, 25 ≤ t.val → k0_off2 (grid0.coords t) = ![400 * (t.val - 25), 0])

/-- The block's rows of a [10000, 256] array, first layer: row p is row 400·b + p. -/
theorem rowsA_apply (b : Fin cfg0.N) (hb : b.val < 25) (Y : Vec F S10000x256 .bf16) (p : Fin 400) (q : Fin 256) :
    rowsA (grid0.coords b) ((inL1_iff b).mpr hb) Y (ValueIdx.ix2 p q) = Y (ValueIdx.ix2 ⟨400 * b.val + p.val, by have := p.isLt; omega⟩ q) := by
  show Y ((Rect.unit (s := S10000x256) (k0_off1 (grid0.coords b)) S400x256.size _).idx (ValueIdx.ix2 p q)) = _
  refine congrArg Y (funext fun a => Fin.ext ?_)
  have e := off1_eq b hb
  match a with
  | ⟨0, _⟩ => show k0_off1 (grid0.coords b) 0 + 1 * p.val = 400 * b.val + p.val; rw [e]; show 400 * b.val + 1 * p.val = _; omega
  | ⟨1, _⟩ => show k0_off1 (grid0.coords b) 1 + 1 * q.val = q.val; rw [e]; show 0 + 1 * q.val = _; omega

/-- The same for the second layer's point t: row p is row 400·(t − 25) + p. -/
theorem rowsB_apply (t : Fin cfg0.N) (ht : 25 ≤ t.val) (Y : Vec F S10000x256 .bf16) (p : Fin 400) (q : Fin 256) :
    rowsB (grid0.coords t) ((inL2_iff t).mpr ht) Y (ValueIdx.ix2 p q) = Y (ValueIdx.ix2 ⟨400 * (t.val - 25) + p.val, by have := p.isLt; have := val_lt50 t; omega⟩ q) := by
  show Y ((Rect.unit (s := S10000x256) (k0_off2 (grid0.coords t)) S400x256.size _).idx (ValueIdx.ix2 p q)) = _
  refine congrArg Y (funext fun a => Fin.ext ?_)
  have e := off2_eq t ht
  match a with
  | ⟨0, _⟩ => show k0_off2 (grid0.coords t) 0 + 1 * p.val = 400 * (t.val - 25) + p.val; rw [e]; show 400 * (t.val - 25) + 1 * p.val = _; omega
  | ⟨1, _⟩ => show k0_off2 (grid0.coords t) 1 + 1 * q.val = q.val; rw [e]; show 0 + 1 * q.val = _; omega

/-- Reading an array through an output window's block: row p of the block is row 400·(block) + p of the array. -/
theorem read_blk8 (t : Fin cfg0.N) (G : S10000x128.Idx → Elt F .f32) (p : Fin 400) (q : Fin 128) :
    ((cfg0.win 8).blk t).view.read (Elt F) G (ValueIdx.ix2 p q) = G (ValueIdx.ix2 ⟨400 * min t.val 24 + p.val, by have := p.isLt; omega⟩ q) := by
  obtain ⟨e0, e1⟩ := idx8 t
  show G (((cfg0.win 8).blk t).view.emb (ValueIdx.ix2 p q)) = _
  refine congrArg G (funext fun a => Fin.ext ?_)
  match a with
  | ⟨0, _⟩ => show win0_8.index t (0 : Fin 2) * 400 + 1 * p.val = 400 * min t.val 24 + p.val; omega
  | ⟨1, _⟩ => show win0_8.index t (1 : Fin 2) * 128 + 1 * q.val = q.val; omega

theorem read_blk9 (t : Fin cfg0.N) (G : S10000x128.Idx → Elt F .f32) (p : Fin 400) (q : Fin 128) (ht : 25 ≤ t.val) :
    ((cfg0.win 9).blk t).view.read (Elt F) G (ValueIdx.ix2 p q) = G (ValueIdx.ix2 ⟨400 * (t.val - 25) + p.val, by have := p.isLt; have := val_lt50 t; omega⟩ q) := by
  obtain ⟨e0, e1⟩ := idx9 t
  show G (((cfg0.win 9).blk t).view.emb (ValueIdx.ix2 p q)) = _
  refine congrArg G (funext fun a => Fin.ext ?_)
  match a with
  | ⟨0, _⟩ => show win0_9.index t (0 : Fin 2) * 400 + 1 * p.val = 400 * (t.val - 25) + p.val; omega
  | ⟨1, _⟩ => show win0_9.index t (1 : Fin 2) * 128 + 1 * q.val = q.val; omega

theorem read_blk10 (t : Fin cfg0.N) (G : S10000x40.Idx → Elt F .f32) (p : Fin 400) (q : Fin 40) (ht : 25 ≤ t.val) :
    ((cfg0.win 10).blk t).view.read (Elt F) G (ValueIdx.ix2 p q) = G (ValueIdx.ix2 ⟨400 * (t.val - 25) + p.val, by have := p.isLt; have := val_lt50 t; omega⟩ q) := by
  obtain ⟨e0, e1⟩ := idx10 t
  show G (((cfg0.win 10).blk t).view.emb (ValueIdx.ix2 p q)) = _
  refine congrArg G (funext fun a => Fin.ext ?_)
  match a with
  | ⟨0, _⟩ => show win0_10.index t (0 : Fin 2) * 400 + 1 * p.val = 400 * (t.val - 25) + p.val; omega
  | ⟨1, _⟩ => show win0_10.index t (1 : Fin 2) * 40 + 1 * q.val = q.val; omega

end Cert.KernelIdeal.Gen

end
-- ==== Proof.Spec.lean ====
/-
  The two-layer graph-isomorphism network as one function of its argument arrays, entry by entry, over the
  extended reals.  A layer aggregates the neighbours of each node through the dense adjacency matrix,
  `P = A · X`, and then applies an affine map to `(1 + ε) · X + P`.  The first layer is followed by a
  rectifier, the second by a row-wise log-softmax.  Both programs of this certificate are shown equal to
  these functions, so the definitions below are the only place where the network is written down.
-/
import Idealize.ShloMosaic.PureOps.Ideal
import Idealize.ShloMosaic.Lib.ValueIdx

noncomputable section

namespace Cert.Spec

open Idealize.ShloMosaic Idealize.ShloMosaic.ValueIdx

/-- A rank-2 array of extended reals with literal extents. -/
abbrev Mat (a b : Nat) : Type := (⟨2, ![a, b]⟩ : Shape).Idx → EReal
/-- A rank-1 array. -/
abbrev Row (a : Nat) : Type := (⟨1, ![a]⟩ : Shape).Idx → EReal
/-- A rank-0 array (one number). -/
abbrev Scal : Type := (⟨0, ![]⟩ : Shape).Idx → EReal

/-- The float word of `1.0`, kept as a word: both programs add the same word to `ε`. -/
abbrev one : EReal := Ideal.ofBits .f32 0x3F800000#32
/-- The float word of `-∞`, the value a row maximum starts from. -/
abbrev negInf : EReal := Ideal.ofBits .f32 0xFF800000#32

/-- Neighbourhood aggregation: `(A · X)(i, j) = Σ_k A(i, k) · X(k, j)`. -/
def agg {n f : Nat} (A : Mat n n) (X : Mat n f) : Mat n f :=
  fun j => ∑ k : Fin n, A (ix2 (j 0) k) * X (ix2 k (j 1))

/-- The affine map of a layer: `(((1 + ε) · X + P) · W)(i, j) + b(j)`. -/
def lin {n f h : Nat} (ε : Scal) (X P : Mat n f) (W : Mat f h) (b : Row h) : Mat n h :=
  fun j => (∑ k : Fin f, ((one + ε ix0) * X (ix2 (j 0) k) + P (ix2 (j 0) k)) * W (ix2 k (j 1))) + b (ix1 (j 1))

/-- The rectifier, entry by entry. -/
def relu {n h : Nat} (U : Mat n h) : Mat n h := fun j => max (U j) 0

/-- The maximum of row `i`, folded from `-∞`. -/
def rowMax {n c : Nat} (U : Mat n c) (i : Fin n) : EReal :=
  (Finset.univ : Finset (Fin c)).fold max negInf (fun k => U (ix2 i k))

/-- Row-wise log-softmax in the shifted form: `(u - m) - log Σ_k exp (u_k - m)` with `m` the row maximum. -/
def logSoftmax {n c : Nat} (U : Mat n c) : Mat n c :=
  fun j => (U j - rowMax U (j 0)) - Ideal.log (∑ k : Fin c, Ideal.exp (U (ix2 (j 0) k) - rowMax U (j 0)))

/-! ## The network's three results -/

/-- First aggregation `A · x`. -/
def fp1 (x : Mat 10000 128) (adj : Mat 10000 10000) : Mat 10000 128 := agg adj x

/-- Hidden activation after the first layer. -/
def hid (x : Mat 10000 128) (adj : Mat 10000 10000) (W1 : Mat 128 128) (b1 : Row 128) (e1 : Scal) : Mat 10000 128 :=
  relu (lin e1 x (fp1 x adj) W1 b1)

/-- Second aggregation `A · h`. -/
def fp2 (x : Mat 10000 128) (adj : Mat 10000 10000) (W1 : Mat 128 128) (b1 : Row 128) (e1 : Scal) : Mat 10000 128 :=
  agg adj (hid x adj W1 b1 e1)

/-- The class log-probabilities. -/
def res (x : Mat 10000 128) (adj : Mat 10000 10000) (W1 : Mat 128 128) (b1 : Row 128) (W2 : Mat 128 40) (b2 : Row 40)
    (e1 e2 : Scal) : Mat 10000 40 :=
  logSoftmax (lin e2 (hid x adj W1 b1 e1) (fp2 x adj W1 b1 e1) W2 b2)

end Cert.Spec

end
-- ==== Proof.RealClosed.lean ====
/-
  Closure of the real numbers inside the extended reals.  An extended real is called real when it is the
  image of a real number; sums, products, maxima and finite sums of real entries are real, and a real entry
  minus itself is zero.  The three intermediate results of the first layer of the network are built from the
  argument arrays by exactly these operations, so they are real whenever the arguments are.
-/
import Idealize.ShloMosaic.PureOps.Ideal
import Idealize.ShloMosaic.Lib.ValueIdx
import proofs.«172329_g62586263437736_cont_9to1_m_674_9_alg».proof.Proof.Spec

noncomputable section

namespace Cert.RealClosed

open Idealize.ShloMosaic Idealize.ShloMosaic.ValueIdx

/-- An extended real that is the image of a real number (neither `+∞` nor `-∞`). -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

/-- A finite sum of real entries is real (induction on the index set). -/
theorem IsReal.sum {ι : Type*} (s : Finset ι) (f : ι → EReal) (h : ∀ k, IsReal (f k)) :
    IsReal (∑ k ∈ s, f k) := by
  classical
  induction s using Finset.induction_on with
  | empty => simpa using isReal_zero
  | insert a s ha ih => rw [Finset.sum_insert ha]; exact (h a).add ih

/-- For a real entry, subtraction of itself is the honest zero (false at `±∞`). -/
theorem sub_self_of_isReal {a : EReal} (h : IsReal a) : a - a = 0 := by
  obtain ⟨r, rfl⟩ := h
  rw [← EReal.coe_sub, sub_self, EReal.coe_zero]

/-- The word of `1.0` denotes a real number. -/
theorem isReal_one : IsReal Cert.Spec.one := by
  refine ⟨1, ?_⟩
  show Ideal.ofBits .f32 0x3F800000#32 = ((1 : ℝ) : EReal)
  simp [Ideal.ofBits, Ideal.ieee, -EReal.coe_mul]; norm_num

open Cert.Spec

/-- Aggregation of real arrays is real: each entry is a finite sum of products. -/
theorem agg_real {n f : Nat} (A : Mat n n) (X : Mat n f) (hA : ∀ i, IsReal (A i)) (hX : ∀ i, IsReal (X i)) :
    ∀ j, IsReal (agg A X j) := by
  intro j
  unfold agg
  exact IsReal.sum _ _ fun k => (hA _).mul (hX _)

/-- The affine map of a layer keeps real arrays real. -/
theorem lin_real {n f h : Nat} (ε : Scal) (X P : Mat n f) (W : Mat f h) (b : Row h)
    (hε : ∀ i, IsReal (ε i)) (hX : ∀ i, IsReal (X i)) (hP : ∀ i, IsReal (P i)) (hW : ∀ i, IsReal (W i))
    (hb : ∀ i, IsReal (b i)) : ∀ j, IsReal (lin ε X P W b j) := by
  intro j
  unfold lin
  exact (IsReal.sum _ _ fun k => ((((isReal_one.add (hε _)).mul (hX _)).add (hP _)).mul (hW _))).add (hb _)

/-- The rectifier keeps real arrays real. -/
theorem relu_real {n h : Nat} (U : Mat n h) (hU : ∀ i, IsReal (U i)) : ∀ j, IsReal (relu U j) := by
  intro j
  unfold relu
  exact (hU j).max isReal_zero

theorem fp1_real (x : Mat 10000 128) (adj : Mat 10000 10000) (hx : ∀ i, IsReal (x i)) (hadj : ∀ i, IsReal (adj i)) :
    ∀ j, IsReal (fp1 x adj j) :=
  agg_real adj x hadj hx

theorem lin1_real (x : Mat 10000 128) (adj : Mat 10000 10000) (W1 : Mat 128 128) (b1 : Row 128) (e1 : Scal)
    (hx : ∀ i, IsReal (x i)) (hadj : ∀ i, IsReal (adj i)) (hW1 : ∀ i, IsReal (W1 i)) (hb1 : ∀ i, IsReal (b1 i))
    (he1 : ∀ i, IsReal (e1 i)) : ∀ j, IsReal (lin e1 x (fp1 x adj) W1 b1 j) :=
  lin_real e1 x (fp1 x adj) W1 b1 he1 hx (fp1_real x adj hx hadj) hW1 hb1

theorem hid_real (x : Mat 10000 128) (adj : Mat 10000 10000) (W1 : Mat 128 128) (b1 : Row 128) (e1 : Scal)
    (hx : ∀ i, IsReal (x i)) (hadj : ∀ i, IsReal (adj i)) (hW1 : ∀ i, IsReal (W1 i)) (hb1 : ∀ i, IsReal (b1 i))
    (he1 : ∀ i, IsReal (e1 i)) : ∀ j, IsReal (hid x adj W1 b1 e1 j) :=
  relu_real _ (lin1_real x adj W1 b1 e1 hx hadj hW1 hb1 he1)

/-- Second aggregation of real arrays is real. -/
theorem fp2_real (x : Mat 10000 128) (adj : Mat 10000 10000) (W1 : Mat 128 128) (b1 : Row 128) (e1 : Scal)
    (hx : ∀ i, IsReal (x i)) (hadj : ∀ i, IsReal (adj i)) (hW1 : ∀ i, IsReal (W1 i)) (hb1 : ∀ i, IsReal (b1 i))
    (he1 : ∀ i, IsReal (e1 i)) : ∀ j, IsReal (fp2 x adj W1 b1 e1 j) :=
  agg_real adj _ hadj (hid_real x adj W1 b1 e1 hx hadj hW1 hb1 he1)

end Cert.RealClosed

end
-- ==== Proof.Blocks.lean ====
/-
  What the kernel's windows hold, over the extended reals, in terms of the eight argument arrays.

  Before the kernel's region the program computes, from the arguments, the arrays four of the windows read: the
  pair `[x | x - x]` laid side by side along the lanes (a rounding to a shorter float is the identity on the
  extended reals, so the first half is `x` and the second is `x` less itself), the two rows `1 + ε` (a number
  reshaped and broadcast along 128 lanes), and the two biases reshaped to rows.  Each is read here at an index.

  A window's block at a grid point is the restriction of its array to a rectangle: coordinate by coordinate, the
  block index times the block's extent plus the coordinate inside the block.  The adjacency window moves with the
  point's second coordinate and holds 400 full rows; the seven other operand windows hold their whole array at
  every point, so an index of the block is the same index of the array.
-/
import proofs.«172329_g62586263437736_cont_9to1_m_674_9_alg».proof.Proof.Gen.KernelIdeal.Frame
import proofs.«172329_g62586263437736_cont_9to1_m_674_9_alg».proof.Proof.Spec
import proofs.«172329_g62586263437736_cont_9to1_m_674_9_alg».proof.Proof.RealClosed
import Idealize.ShloMosaic.Lib.ValueIdx
import Idealize.ShloMosaic.Lib.ValueLayout
import Idealize.ShloMosaic.Lib.Pipeline.Value

set_option maxRecDepth 16384

noncomputable section

namespace Cert.Blocks

open Idealize.ShloMosaic Idealize.ShloMosaic.TcCoe Idealize.ShloMosaic.Tactic Idealize.ShloMosaic.ValueIdx
open Idealize.ShloMosaic.Pipeline (Dat Cfg Window)
open Cert.KernelIdeal Cert.KernelIdeal.Gen

variable (m : (ℓ : Loc nD τ sig) → Buf (Elt Ideal) ℓ) (c : Dev nD)

/-! ## The eight argument arrays, as launched -/

/-- Node features `x`. -/
abbrev X0 : Cert.Spec.Mat 10000 128 := m ((c.tc : Thread nD τ).loc main_arg0)
/-- Dense adjacency matrix. -/
abbrev X1 : Cert.Spec.Mat 10000 10000 := m ((c.tc : Thread nD τ).loc main_arg1)
/-- First weight matrix. -/
abbrev X2 : Cert.Spec.Mat 128 128 := m ((c.tc : Thread nD τ).loc main_arg2)
/-- First bias. -/
abbrev X3 : Cert.Spec.Row 128 := m ((c.tc : Thread nD τ).loc main_arg3)
/-- Second weight matrix. -/
abbrev X4 : Cert.Spec.Mat 128 40 := m ((c.tc : Thread nD τ).loc main_arg4)
/-- Second bias. -/
abbrev X5 : Cert.Spec.Row 40 := m ((c.tc : Thread nD τ).loc main_arg5)
/-- `ε₁`. -/
abbrev X6 : Cert.Spec.Scal := m ((c.tc : Thread nD τ).loc main_arg6)
/-- `ε₂`. -/
abbrev X7 : Cert.Spec.Scal := m ((c.tc : Thread nD τ).loc main_arg7)

/-! ## The arrays the host operations write before the region, as terms of the argument arrays -/

/-- The high part of the pair before its rounding: `x` less the widened rounding of `x`. -/
theorem pair_term : (V m c main_v4 : S10000x256.Idx → EReal) =
    concatenate S10000x256 1 [⟨S10000x128, (truncf .bf16 ((X0 m c) : FVec Ideal S10000x128 .f32) bitsLt_bf16_f32 : FVec Ideal S10000x128 .bf16)⟩,
      ⟨S10000x128, (truncf .bf16 (subf ((X0 m c) : FVec Ideal S10000x128 .f32) (extf .f32 (truncf .bf16 ((X0 m c) : FVec Ideal S10000x128 .f32) bitsLt_bf16_f32 : FVec Ideal S10000x128 .bf16) bitsLt_bf16_f32)) bitsLt_bf16_f32 : FVec Ideal S10000x128 .bf16)⟩] concatenates_S10000x128_S10000x128_S10000x256_d1 := by
  dsimp only [Gen.V, Gen.hostOps0]; after_results
  all_goals rfl

/-- The first 128 lanes of the pair hold `x`: a rounding is the identity on the extended reals. -/
theorem pair_lo (r : Fin 10000) (q : Fin 128) :
    (V m c main_v4 : S10000x256.Idx → EReal) (ix2 r ⟨q.val, by omega⟩) = (X0 m c) (ix2 r q) := by
  rw [pair_term]
  exact concatenate_pair_apply_left (s₁ := S10000x128) (s₂ := S10000x128) (1 : Fin 2) _ _ _ (ix2 r (⟨q.val, by omega⟩ : Fin 256)) rfl (ix2 r q)
    (fun b => by match b with | ⟨0, _⟩ => rfl | ⟨1, _⟩ => rfl)

/-- The last 128 lanes hold `x - x`, the residual of a rounding that is the identity. -/
theorem pair_hi (r : Fin 10000) (q : Fin 128) :
    (V m c main_v4 : S10000x256.Idx → EReal) (ix2 r ⟨q.val + 128, by omega⟩) = (X0 m c) (ix2 r q) - (X0 m c) (ix2 r q) := by
  rw [pair_term]
  exact concatenate_pair_apply_right (s₁ := S10000x128) (s₂ := S10000x128) (1 : Fin 2) _ _ _ (ix2 r (⟨q.val + 128, by omega⟩ : Fin 256)) rfl rfl (ix2 r q)
    (fun b hb => by match b with | ⟨0, _⟩ => rfl | ⟨1, _⟩ => exact absurd rfl hb) rfl

theorem scale1_term : (V m c main_v7 : S1x128.Idx → EReal) =
    broadcastInDim S1x128 ![0, 1] bcast_S1x1_S1x128_0_1 (shapeCast S1x1 (addf (constant (F := Ideal) S_ .f32 0x3F800000#32) (X6 m c)) shapeCasts_S_S1x1) := by
  dsimp only [Gen.V, Gen.hostOps0]; after_results
  all_goals rfl

theorem scale2_term : (V m c main_v10 : S1x128.Idx → EReal) =
    broadcastInDim S1x128 ![0, 1] bcast_S1x1_S1x128_0_1 (shapeCast S1x1 (addf (constant (F := Ideal) S_ .f32 0x3F800000#32) (X7 m c)) shapeCasts_S_S1x1) := by
  dsimp only [Gen.V, Gen.hostOps0]; after_results
  all_goals rfl

/-- A number reshaped to `[1, 1]` and broadcast along a row reads the number everywhere. -/
theorem bcast_scalar_apply (x : S_.Idx → EReal) (k : Fin 128) :
    broadcastInDim S1x128 ![0, 1] bcast_S1x1_S1x128_0_1 (shapeCast S1x1 x shapeCasts_S_S1x1) (ix2 (0 : Fin 1) k) = x ix0 := by
  rw [broadcastInDim_apply ![0, 1] bcast_S1x1_S1x128_0_1 _ (ix2 (0 : Fin 1) k) (ix2 (0 : Fin 1) (0 : Fin 1))
    (fun a => by match a with | ⟨0, _⟩ => rfl | ⟨1, _⟩ => rfl)]
  refine shapeCast_apply x shapeCasts_S_S1x1 _ ix0 ?_
  have h1 : (S_.rowMajor ix0).val < 1 := (S_.rowMajor ix0).isLt
  have h2 : (S1x1.rowMajor (ix2 (0 : Fin 1) (0 : Fin 1))).val < 1 := (S1x1.rowMajor (ix2 (0 : Fin 1) (0 : Fin 1))).isLt
  omega

/-- The first layer's scale row holds `1 + ε₁` in every lane. -/
theorem scale1 (k : Fin 128) : (V m c main_v7 : S1x128.Idx → EReal) (ix2 (0 : Fin 1) k) = Cert.Spec.one + (X6 m c) ix0 := by
  rw [scale1_term, bcast_scalar_apply]; rfl

/-- The second layer's scale row holds `1 + ε₂` in every lane. -/
theorem scale2 (k : Fin 128) : (V m c main_v10 : S1x128.Idx → EReal) (ix2 (0 : Fin 1) k) = Cert.Spec.one + (X7 m c) ix0 := by
  rw [scale2_term, bcast_scalar_apply]; rfl

theorem bias1_term : (V m c main_v11 : S1x128.Idx → EReal) = shapeCast S1x128 (X3 m c) shapeCasts_S128_S1x128 := by
  dsimp only [Gen.V, Gen.hostOps0]; after_results
  all_goals rfl

theorem bias2_term : (V m c main_v12 : S1x40.Idx → EReal) = shapeCast S1x40 (X5 m c) shapeCasts_S40_S1x40 := by
  dsimp only [Gen.V, Gen.hostOps0]; after_results
  all_goals rfl

/-- The first bias as a row. -/
theorem bias1 (k : Fin 128) : (V m c main_v11 : S1x128.Idx → EReal) (ix2 (0 : Fin 1) k) = (X3 m c) (ix1 k) := by
  rw [bias1_term]; exact shapeCast_a_1a_apply _ _ 0 k

/-- The second bias as a row. -/
theorem bias2 (k : Fin 40) : (V m c main_v12 : S1x40.Idx → EReal) (ix2 (0 : Fin 1) k) = (X5 m c) (ix1 k) := by
  rw [bias2_term]; exact shapeCast_a_1a_apply _ _ 0 k

/-! ## The windows' blocks -/

/-- The adjacency window's block index is the point's second coordinate; it spans every column. -/
theorem idx0 : ∀ t : Fin cfg0.N, win0_0.index t (0 : Fin 2) = t.val % 25 ∧ win0_0.index t (1 : Fin 2) = 0 :=
  (by decide +kernel : ∀ t : Fin grid0.N, _)

/-- The adjacency block of a point: the 400 rows of the point's row block. -/
theorem blk0 (t : Fin cfg0.N) (p : Fin 400) (k : Fin 10000) :
    (iblk m c 0 t : S400x10000.Idx → EReal) (ix2 p k) = (X1 m c) (ix2 ⟨400 * (t.val % 25) + p.val, by omega⟩ k) := by
  unfold iblk
  show V m c main_arg1 (((cfg0.win 0).blk t).view.emb (ix2 p k)) = _
  rw [V_main_arg1]
  congr 1
  funext a; apply Fin.ext
  obtain ⟨e0, e1⟩ := idx0 t
  match a with
  | ⟨0, _⟩ => show win0_0.index t (0 : Fin 2) * 400 + 1 * p.val = 400 * (t.val % 25) + p.val; omega
  | ⟨1, _⟩ => show win0_0.index t (1 : Fin 2) * 10000 + 1 * k.val = k.val; omega

/-- The seven operand windows that hold a whole array stay at block `(0, 0)` at every point. -/
theorem idx_whole : ∀ t : Fin cfg0.N,
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) :=
  (by decide +kernel : ∀ t : Fin grid0.N, _)

/-- Window 1's block is its whole array: an index of the block is the same index of the array. -/
theorem emb1 (t : Fin cfg0.N) (y : S10000x256.Idx) : (((cfg0.win 1).blk t).view.emb y : S10000x256.Idx) = y := by
  funext a; apply Fin.ext
  obtain ⟨e0, e1⟩ := (idx_whole t).1
  match a with
  | ⟨0, _⟩ => show win0_1.index t (0 : Fin 2) * 10000 + 1 * (y 0).val = (y 0).val; omega
  | ⟨1, _⟩ => show win0_1.index t (1 : Fin 2) * 256 + 1 * (y 1).val = (y 1).val; omega

/-- Window 2's block is its whole array: an index of the block is the same index of the array. -/
theorem emb2 (t : Fin cfg0.N) (y : S128x128.Idx) : (((cfg0.win 2).blk t).view.emb y : S128x128.Idx) = y := by
  funext a; apply Fin.ext
  obtain ⟨e0, e1⟩ := (idx_whole t).2.1
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3's block is its whole array: an index of the block is the same index of the array. -/
theorem emb3 (t : Fin cfg0.N) (y : S1x128.Idx) : (((cfg0.win 3).blk t).view.emb y : S1x128.Idx) = y := by
  funext a; apply Fin.ext
  obtain ⟨e0, e1⟩ := (idx_whole t).2.2.1
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block is its whole array: an index of the block is the same index of the array. -/
theorem emb4 (t : Fin cfg0.N) (y : S1x128.Idx) : (((cfg0.win 4).blk t).view.emb y : S1x128.Idx) = y := by
  funext a; apply Fin.ext
  obtain ⟨e0, e1⟩ := (idx_whole t).2.2.2.1
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block is its whole array: an index of the block is the same index of the array. -/
theorem emb5 (t : Fin cfg0.N) (y : S128x40.Idx) : (((cfg0.win 5).blk t).view.emb y : S128x40.Idx) = y := by
  funext a; apply Fin.ext
  obtain ⟨e0, e1⟩ := (idx_whole t).2.2.2.2.1
  match a with
  | ⟨0, _⟩ => show win0_5.index t (0 : Fin 2) * 128 + 1 * (y 0).val = (y 0).val; omega
  | ⟨1, _⟩ => show win0_5.index t (1 : Fin 2) * 40 + 1 * (y 1).val = (y 1).val; omega

/-- Window 6's block is its whole array: an index of the block is the same index of the array. -/
theorem emb6 (t : Fin cfg0.N) (y : S1x40.Idx) : (((cfg0.win 6).blk t).view.emb y : S1x40.Idx) = y := by
  funext a; apply Fin.ext
  obtain ⟨e0, e1⟩ := (idx_whole t).2.2.2.2.2.1
  match a with
  | ⟨0, _⟩ => show win0_6.index t (0 : Fin 2) * 1 + 1 * (y 0).val = (y 0).val; omega
  | ⟨1, _⟩ => show win0_6.index t (1 : Fin 2) * 40 + 1 * (y 1).val = (y 1).val; omega

/-- Window 7's block is its whole array: an index of the block is the same index of the array. -/
theorem emb7 (t : Fin cfg0.N) (y : S1x128.Idx) : (((cfg0.win 7).blk t).view.emb y : S1x128.Idx) = y := by
  funext a; apply Fin.ext
  obtain ⟨e0, e1⟩ := (idx_whole t).2.2.2.2.2.2
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The pair window's first 128 lanes: `x`. -/
theorem blk1_lo (t : Fin cfg0.N) (r : Fin 10000) (q : Fin 128) :
    (iblk m c 1 t : S10000x256.Idx → EReal) (ix2 r ⟨q.val, by omega⟩) = (X0 m c) (ix2 r q) := by
  unfold iblk
  show V m c main_v4 (((cfg0.win 1).blk t).view.emb (ix2 r ⟨q.val, by omega⟩)) = _
  rw [emb1]; exact pair_lo m c r q

/-- The pair window's last 128 lanes: `x - x`. -/
theorem blk1_hi (t : Fin cfg0.N) (r : Fin 10000) (q : Fin 128) :
    (iblk m c 1 t : S10000x256.Idx → EReal) (ix2 r ⟨q.val + 128, by omega⟩) = (X0 m c) (ix2 r q) - (X0 m c) (ix2 r q) := by
  unfold iblk
  show V m c main_v4 (((cfg0.win 1).blk t).view.emb (ix2 r ⟨q.val + 128, by omega⟩)) = _
  rw [emb1]; exact pair_hi m c r q

/-- The first weight matrix. -/
theorem blk2 (t : Fin cfg0.N) (k q : Fin 128) : (iblk m c 2 t : S128x128.Idx → EReal) (ix2 k q) = (X2 m c) (ix2 k q) := by
  unfold iblk
  show V m c main_arg2 (((cfg0.win 2).blk t).view.emb (ix2 k q)) = _
  rw [emb2, V_main_arg2]

/-- The first bias row. -/
theorem blk3 (t : Fin cfg0.N) (k : Fin 128) : (iblk m c 3 t : S1x128.Idx → EReal) (ix2 (0 : Fin 1) k) = (X3 m c) (ix1 k) := by
  unfold iblk
  show V m c main_v11 (((cfg0.win 3).blk t).view.emb (ix2 (0 : Fin 1) k)) = _
  rw [emb3]; exact bias1 m c k

/-- The first scale row: `1 + ε₁`. -/
theorem blk4 (t : Fin cfg0.N) (k : Fin 128) : (iblk m c 4 t : S1x128.Idx → EReal) (ix2 (0 : Fin 1) k) = Cert.Spec.one + (X6 m c) ix0 := by
  unfold iblk
  show V m c main_v7 (((cfg0.win 4).blk t).view.emb (ix2 (0 : Fin 1) k)) = _
  rw [emb4]; exact scale1 m c k

/-- The second weight matrix. -/
theorem blk5 (t : Fin cfg0.N) (k : Fin 128) (q : Fin 40) : (iblk m c 5 t : S128x40.Idx → EReal) (ix2 k q) = (X4 m c) (ix2 k q) := by
  unfold iblk
  show V m c main_arg4 (((cfg0.win 5).blk t).view.emb (ix2 k q)) = _
  rw [emb5, V_main_arg4]

/-- The second bias row. -/
theorem blk6 (t : Fin cfg0.N) (k : Fin 40) : (iblk m c 6 t : S1x40.Idx → EReal) (ix2 (0 : Fin 1) k) = (X5 m c) (ix1 k) := by
  unfold iblk
  show V m c main_v12 (((cfg0.win 6).blk t).view.emb (ix2 (0 : Fin 1) k)) = _
  rw [emb6]; exact bias2 m c k

/-- The second scale row: `1 + ε₂`. -/
theorem blk7 (t : Fin cfg0.N) (k : Fin 128) : (iblk m c 7 t : S1x128.Idx → EReal) (ix2 (0 : Fin 1) k) = Cert.Spec.one + (X7 m c) ix0 := by
  unfold iblk
  show V m c main_v10 (((cfg0.win 7).blk t).view.emb (ix2 (0 : Fin 1) k)) = _
  rw [emb7]; exact scale2 m c k

end Cert.Blocks

end
-- ==== Proof.Payload.lean ====
/-
  The arithmetic of the kernel's body, entry by entry.  Each of the body's pure terms is read at an index
  `(p, q)` of its result as an expression in the entries of the vectors it was computed from: a matrix
  product into a zero accumulator is the sum over the contracted axis, a slice of 128 lanes reads the lanes
  `q` and `q + 128`, a narrowing or widening of the float format is the identity on extended reals.
-/
import proofs.«172329_g62586263437736_cont_9to1_m_674_9_alg».proof.Proof.Gen.KernelIdeal.Skeleton
import proofs.«172329_g62586263437736_cont_9to1_m_674_9_alg».proof.Proof.Spec
import proofs.«172329_g62586263437736_cont_9to1_m_674_9_alg».proof.Proof.RealClosed
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Idealize.ShloMosaic Idealize.ShloMosaic.ValueIdx Cert.KernelIdeal Cert.KernelIdeal.Gen

variable [Cert.KernelIdeal.Facts]

/-! ## Slices of 128 lanes -/

/-- The slice at lane offset 0 reads lane `q`. -/
theorem slice_lo {α : Type} (x : S400x256.Idx → α) (p : Fin 400) (q : Fin 128) :
    extractStridedSlice S400x128 ![0, 0] x slices_S400x256_o0_0_S400x128 (ix2 p q) = x (ix2 p ⟨q.val, by omega⟩) :=
  extractStridedSlice_apply _ x _ _ _ (fun a => by
    match a with
    | ⟨0, _⟩ => show p.val = 0 + p.val; omega
    | ⟨1, _⟩ => show q.val = 0 + q.val; omega)

/-- The slice at lane offset 128 reads lane `q + 128`. -/
theorem slice_hi {α : Type} (x : S400x256.Idx → α) (p : Fin 400) (q : Fin 128) :
    extractStridedSlice S400x128 ![0, 128] x slices_S400x256_o0_128_S400x128 (ix2 p q) = x (ix2 p ⟨q.val + 128, by omega⟩) :=
  extractStridedSlice_apply _ x _ _ _ (fun a => by
    match a with
    | ⟨0, _⟩ => show p.val = 0 + p.val; omega
    | ⟨1, _⟩ => show q.val + 128 = 128 + q.val; omega)

/-! ## The aggregation product `[400, 10000] × [10000, 256]` -/

/-- The left operand is read at the result's row … -/
theorem mm1_lhs0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide),
    dif_pos (show (0 : Fin S400x10000.rank) ∈ dot_S400x10000_S10000x256_S400x256_1_0_0_1_n_n.lhsNonContracting by decide)]
  rfl

/-- … and the right operand at the result's column. -/
theorem mm1_rhs1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide),
    dif_pos (show (1 : Fin S10000x256.rank) ∈ dot_S400x10000_S10000x256_S400x256_1_0_0_1_n_n.rhsNonContracting by decide)]
  rfl

/-- Into a zero accumulator the product's entry `(p, c)` is the sum over the 10000 contracted columns. -/
theorem mm1_apply (a : FVec Ideal S400x10000 .bf16) (b : FVec Ideal S10000x256 .bf16) (p : Fin 400) (c : Fin 256) :
    matmul dot_S400x10000_S10000x256_S400x256_1_0_0_1_n_n none a b (constant (F := Ideal) S400x256 .f32 0x00000000#32) (ix2 p c)
      = ∑ k : Fin 10000, a (ix2 p k) * b (ix2 k c) := by
  show FloatOps.matmul dot_S400x10000_S10000x256_S400x256_1_0_0_1_n_n none a b (constant S400x256 .f32 0x00000000#32) (ix2 p c) = _
  rw [Ideal.matmul_constant_zero_apply,
    ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p c) ((contrEquiv1 dot_S400x10000_S10000x256_S400x256_1_0_0_1_n_n 10000 rfl rfl).symm k) = ix2 p k :=
    funext fun x => Fin.ext (by
      match x with
      | ⟨0, _⟩ => exact mm1_lhs0 _ _
      | ⟨1, _⟩ => exact (dot_S400x10000_S10000x256_S400x256_1_0_0_1_n_n.lhsIdx_val_of_single rfl _ _).trans hk)
  have er : dot_S400x10000_S10000x256_S400x256_1_0_0_1_n_n.rhsIdx (ix2 p c) ((contrEquiv1 dot_S400x10000_S10000x256_S400x256_1_0_0_1_n_n 10000 rfl rfl).symm k) = ix2 k c :=
    funext fun x => Fin.ext (by
      match x with
      | ⟨0, _⟩ => exact (dot_S400x10000_S10000x256_S400x256_1_0_0_1_n_n.rhsIdx_val_of_single rfl _ _).trans hk
      | ⟨1, _⟩ => exact mm1_rhs1 _ _)
  rw [el, er]

/-- The first aggregation's rows: the product's lanes `q` and `q + 128` added. -/
theorem pay2_apply (v0 : Vec Ideal S400x10000 .f32) (v8 : Vec Ideal S10000x256 .bf16) (p : Fin 400) (q : Fin 128) :
    k0_pay2 v0 v8 (ix2 p q)
      = (∑ k : Fin 10000, (v0 (ix2 p k) : EReal) * (v8 (ix2 k ⟨q.val, by omega⟩) : EReal))
        + (∑ k : Fin 10000, (v0 (ix2 p k) : EReal) * (v8 (ix2 k ⟨q.val + 128, by omega⟩) : EReal)) := by
  unfold k0_pay2 k0_pay1
  dsimp only
  rw [addf_apply, slice_lo, slice_hi, shapeCast_self, mm1_apply, mm1_apply]
  rfl

/-- The second aggregation's rows: the same arithmetic. -/
theorem pay4_apply (v0 : Vec Ideal S400x10000 .f32) (v8 : Vec Ideal S10000x256 .bf16) (p : Fin 400) (q : Fin 128) :
    k0_pay4 v0 v8 (ix2 p q)
      = (∑ k : Fin 10000, (v0 (ix2 p k) : EReal) * (v8 (ix2 k ⟨q.val, by omega⟩) : EReal))
        + (∑ k : Fin 10000, (v0 (ix2 p k) : EReal) * (v8 (ix2 k ⟨q.val + 128, by omega⟩) : EReal)) := by
  unfold k0_pay4 k0_pay1
  dsimp only
  rw [addf_apply, slice_lo, slice_hi, mm1_apply, mm1_apply]
  rfl

end Cert.Payload

end
-- ==== Proof.PayloadB.lean ====
/-
  The first layer's stored rows, entry by entry.  The hidden activation of row `p`, column `q` is the
  rectified affine image of `(1 + ε) · x + A · x`: the scaled input is the sum of its two stored halves
  (lanes `k` and `k + 128`), the aggregated input is the product computed in the same step.  The stored
  row keeps the activation in its first 128 lanes and the activation minus itself in the last 128.
-/
import proofs.«172329_g62586263437736_cont_9to1_m_674_9_alg».proof.Proof.Payload

noncomputable section

namespace Cert.Payload

open Idealize.ShloMosaic Idealize.ShloMosaic.ValueIdx Cert.KernelIdeal Cert.KernelIdeal.Gen

variable [Cert.KernelIdeal.Facts]

/-! ## The concatenation of two blocks of 128 lanes -/

/-- Lane `q` of the concatenation is lane `q` of the first block. -/
theorem concat_lo {α : Type} (x₁ x₂ : S400x128.Idx → α) (p : Fin 400) (q : Fin 128) :
    concatenate S400x256 1 [⟨S400x128, x₁⟩, ⟨S400x128, x₂⟩] concatenates_S400x128_S400x128_S400x256_d1
      (ix2 p ⟨q.val, by omega⟩) = x₁ (ix2 p q) :=
  concatenate_pair_apply_left (t := S400x256) 1 x₁ x₂ _ _ rfl (ix2 p q) (fun b => by
    match b with
    | ⟨0, _⟩ => rfl
    | ⟨1, _⟩ => rfl)

/-- Lane `q + 128` of the concatenation is lane `q` of the second block. -/
theorem concat_hi {α : Type} (x₁ x₂ : S400x128.Idx → α) (p : Fin 400) (q : Fin 128) :
    concatenate S400x256 1 [⟨S400x128, x₁⟩, ⟨S400x128, x₂⟩] concatenates_S400x128_S400x128_S400x256_d1
      (ix2 p ⟨q.val + 128, by omega⟩) = x₂ (ix2 p q) :=
  concatenate_pair_apply_right (t := S400x256) 1 x₁ x₂ _ _ rfl rfl (ix2 p q) (fun b hb => by
    match b with
    | ⟨0, _⟩ => rfl
    | ⟨1, _⟩ => exact absurd rfl hb) rfl

/-! ## The first layer's product `[400, 128] × [128, 128]` -/

theorem mm2_lhs0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl

theorem mm2_rhs1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- Into a zero accumulator the product's entry `(p, q)` is the sum over the 128 contracted columns. -/
theorem mm2_apply (a : FVec Ideal S400x128 .f32) (b : FVec Ideal S128x128 .f32) (p : Fin 400) (q : Fin 128) :
    matmul dot_S400x128_S128x128_S400x128_1_0_0_1_n_n none a b (constant (F := Ideal) S400x128 .f32 0x00000000#32) (ix2 p q)
      = ∑ k : Fin 128, a (ix2 p k) * b (ix2 k q) := by
  show FloatOps.matmul dot_S400x128_S128x128_S400x128_1_0_0_1_n_n none a b (constant S400x128 .f32 0x00000000#32) (ix2 p q) = _
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k :=
    funext fun x => Fin.ext (by
      match x with
      | ⟨0, _⟩ => exact mm2_lhs0 _ _
      | ⟨1, _⟩ => exact (dot_S400x128_S128x128_S400x128_1_0_0_1_n_n.lhsIdx_val_of_single rfl _ _).trans hk)
  have er : dot_S400x128_S128x128_S400x128_1_0_0_1_n_n.rhsIdx (ix2 p q) ((contrEquiv1 dot_S400x128_S128x128_S400x128_1_0_0_1_n_n 128 rfl rfl).symm k) = ix2 k q :=
    funext fun x => Fin.ext (by
      match x with
      | ⟨0, _⟩ => exact (dot_S400x128_S128x128_S400x128_1_0_0_1_n_n.rhsIdx_val_of_single rfl _ _).trans hk
      | ⟨1, _⟩ => exact mm2_rhs1 _ _)
  rw [el, er]

/-! ## The hidden activation -/

/-- The hidden activation of row `p`, column `q`, from the entries the body read. -/
def hrow (v0 : Vec Ideal S400x10000 .f32) (v8 : Vec Ideal S10000x256 .bf16) (v17 : Vec Ideal S400x256 .bf16)
    (v24 : Vec Ideal S1x128 .f32) (v29 : Vec Ideal S128x128 .f32) (v31 : Vec Ideal S1x128 .f32) (p : Fin 400) (q : Fin 128) : EReal :=
  max ((∑ k : Fin 128, ((v24 (ix2 0 k) : EReal) * ((v17 (ix2 p ⟨k.val, by omega⟩) : EReal) + (v17 (ix2 p ⟨k.val + 128, by omega⟩) : EReal))
      + k0_pay2 v0 v8 (ix2 p k)) * (v29 (ix2 k q) : EReal)) + (v31 (ix2 0 q) : EReal)) 0

/-- The stored row is the concatenation of the activation and of the activation minus itself. -/
theorem pay3_split (v0 : Vec Ideal S400x10000 .f32) (v8 : Vec Ideal S10000x256 .bf16) (v17 : Vec Ideal S400x256 .bf16)
    (v24 : Vec Ideal S1x128 .f32) (v29 : Vec Ideal S128x128 .f32) (v31 : Vec Ideal S1x128 .f32) :
    ∃ A : FVec Ideal S400x128 .f32, (∀ (p : Fin 400) (q : Fin 128), A (ix2 p q) = hrow v0 v8 v17 v24 v29 v31 p q) ∧
      k0_pay3 v0 v8 v17 v24 v29 v31 = shapeCast S400x256 (concatenate S400x256 1
        [⟨S400x128, truncf .bf16 A bitsLt_bf16_f32⟩, ⟨S400x128, truncf .bf16 (subf A A) bitsLt_bf16_f32⟩]
        concatenates_S400x128_S400x128_S400x256_d1) shapeCasts_S400x256_S400x256 := by
  refine ⟨_, ?_, rfl⟩
  intro p q
  rw [maximumf_apply, addf_apply, mm2_apply, broadcast_apply, broadcastTo_1b_ab_apply, shapeCast_self]
  unfold hrow
  simp only [shapeCast_self]
  refine congrArg₂ max (congrArg₂ (· + ·) (Finset.sum_congr rfl fun k _ => ?_) rfl) Ideal.ofBits_zero_f32
  rw [addf_apply, mulf_apply, addf_apply, extf_apply, extf_apply, slice_lo, slice_hi, broadcastTo_1b_ab_apply]

/-- The first 128 lanes of the stored row hold the activation. -/
theorem pay3_lo (v0 : Vec Ideal S400x10000 .f32) (v8 : Vec Ideal S10000x256 .bf16) (v17 : Vec Ideal S400x256 .bf16)
    (v24 : Vec Ideal S1x128 .f32) (v29 : Vec Ideal S128x128 .f32) (v31 : Vec Ideal S1x128 .f32) (p : Fin 400) (q : Fin 128) :
    k0_pay3 v0 v8 v17 v24 v29 v31 (ix2 p ⟨q.val, by omega⟩) = hrow v0 v8 v17 v24 v29 v31 p q := by
  obtain ⟨A, hA, e⟩ := pay3_split v0 v8 v17 v24 v29 v31
  rw [e, shapeCast_self, concat_lo, truncf_apply, hA]

/-- The last 128 lanes hold the activation minus itself (zero where the activation is a real number). -/
theorem pay3_hi (v0 : Vec Ideal S400x10000 .f32) (v8 : Vec Ideal S10000x256 .bf16) (v17 : Vec Ideal S400x256 .bf16)
    (v24 : Vec Ideal S1x128 .f32) (v29 : Vec Ideal S128x128 .f32) (v31 : Vec Ideal S1x128 .f32) (p : Fin 400) (q : Fin 128) :
    k0_pay3 v0 v8 v17 v24 v29 v31 (ix2 p ⟨q.val + 128, by omega⟩)
      = hrow v0 v8 v17 v24 v29 v31 p q - hrow v0 v8 v17 v24 v29 v31 p q := by
  obtain ⟨A, hA, e⟩ := pay3_split v0 v8 v17 v24 v29 v31
  rw [e, shapeCast_self, concat_hi, truncf_apply, subf_apply, hA]

end Cert.Payload

end
-- ==== Proof.PayloadC.lean ====
/-
  The second layer's rows, entry by entry.  The logits of row `p` are the affine image of
  `(1 + ε) · h + A · h`, and the body applies the shifted log-softmax to each row: the row maximum `m`
  (a fold of `max` from `-∞` over the 40 lanes), `u - m`, its exponential, the lane sum, its logarithm, and
  `(u - m) - log Σ`.  A maximum or sum over the lanes is kept as a one-lane column and broadcast back.
-/
import proofs.«172329_g62586263437736_cont_9to1_m_674_9_alg».proof.Proof.Payload

noncomputable section

namespace Cert.Payload

open Idealize.ShloMosaic Idealize.ShloMosaic.ValueIdx Cert.KernelIdeal Cert.KernelIdeal.Gen

variable [Cert.KernelIdeal.Facts]

/-! ## Columns: a per-row value kept as one lane, and broadcast over the lanes -/

/-- A `[400]` array cast to `[400, 1]` reads, at `(p, 0)`, the operand at `p`. -/
theorem col_cast_apply {α : Type} (x : S400.Idx → α) (p : Fin 400) (z : Fin 1) :
    shapeCast S400x1 x shapeCasts_S400_S400x1 (ix2 p z) = x (ix1 p) :=
  shapeCast_apply x _ _ _ (by
    have hz : z.val = 0 := by omega
    rw [Shape.rowMajor_val_two, Shape.rowMajor_val_one]
    show p.val = p.val * 1 + z.val
    rw [hz, Nat.mul_one, Nat.add_zero])

/-- A `[400, 1]` column broadcast to `[400, 40]` reads, at `(p, c)`, the column at row `p`. -/
theorem col_bcast_apply {α : Type} (w : S400x1.Idx → α) (p : Fin 400) (c : Fin 40) :
    broadcastTo S400x40 w broadcasts_S400x1_S400x40 (ix2 p c) = w (ix2 p (0 : Fin 1)) :=
  broadcastTo_apply w _ (ix2 p c) (ix2 p (0 : Fin 1)) (fun ax => by
    match ax with
    | ⟨0, _⟩ => rfl
    | ⟨1, _⟩ => rfl)

/-- The source index of a lane reduction over row `p` at lane `k` is `(p, k)`. -/
theorem lift_row (p : Fin 400) (k : Fin (S400x40.size 1)) :
    reduces_S400x40_S400.lift (ix1 p) k = ix2 p (⟨k.val, k.isLt⟩ : Fin 40) :=
  funext fun c => Fin.ext (by
    rw [Shape.Reduces.lift_val]
    unfold Shape.Reduces.liftVal
    match c with
    | ⟨0, _⟩ => rfl
    | ⟨1, _⟩ => rfl)

/-! ## The second layer's product `[400, 128] × [128, 40]` -/

theorem mm3_lhs0 (i : S400x40.Idx) (q : dot_S400x128_S128x40_S400x40_1_0_0_1_n_n.contr.Idx) :
    (dot_S400x128_S128x40_S400x40_1_0_0_1_n_n.lhsIdx i q 0).val = (i 0).val := by
  unfold DotDims.lhsIdx
  rw [dif_neg (show ¬(0 : Fin S400x128.rank) ∈ dot_S400x128_S128x40_S400x40_1_0_0_1_n_n.lhsBatch by decide),
    dif_pos (show (0 : Fin S400x128.rank) ∈ dot_S400x128_S128x40_S400x40_1_0_0_1_n_n.lhsNonContracting by decide)]
  rfl

theorem mm3_rhs1 (i : S400x40.Idx) (q : dot_S400x128_S128x40_S400x40_1_0_0_1_n_n.contr.Idx) :
    (dot_S400x128_S128x40_S400x40_1_0_0_1_n_n.rhsIdx i q 1).val = (i 1).val := by
  unfold DotDims.rhsIdx
  rw [dif_neg (show ¬(1 : Fin S128x40.rank) ∈ dot_S400x128_S128x40_S400x40_1_0_0_1_n_n.rhsBatch by decide),
    dif_pos (show (1 : Fin S128x40.rank) ∈ dot_S400x128_S128x40_S400x40_1_0_0_1_n_n.rhsNonContracting by decide)]
  rfl

/-- Into a zero accumulator the product's entry `(p, q)` is the sum over the 128 contracted columns. -/
theorem mm3_apply (a : FVec Ideal S400x128 .f32) (b : FVec Ideal S128x40 .f32) (p : Fin 400) (q : Fin 40) :
    matmul dot_S400x128_S128x40_S400x40_1_0_0_1_n_n none a b (constant (F := Ideal) S400x40 .f32 0x00000000#32) (ix2 p q)
      = ∑ k : Fin 128, a (ix2 p k) * b (ix2 k q) := by
  show FloatOps.matmul dot_S400x128_S128x40_S400x40_1_0_0_1_n_n none a b (constant S400x40 .f32 0x00000000#32) (ix2 p q) = _
  rw [Ideal.matmul_constant_zero_apply, ← Equiv.sum_comp (contrEquiv1 dot_S400x128_S128x40_S400x40_1_0_0_1_n_n 128 rfl rfl).symm]
  refine Finset.sum_congr rfl fun k _ => ?_
  have hk := contrEquiv1_symm_val dot_S400x128_S128x40_S400x40_1_0_0_1_n_n 128 rfl rfl k
  have el : dot_S400x128_S128x40_S400x40_1_0_0_1_n_n.lhsIdx (ix2 p q) ((contrEquiv1 dot_S400x128_S128x40_S400x40_1_0_0_1_n_n 128 rfl rfl).symm k) = ix2 p k :=
    funext fun x => Fin.ext (by
      match x with
      | ⟨0, _⟩ => exact mm3_lhs0 _ _
      | ⟨1, _⟩ => exact (dot_S400x128_S128x40_S400x40_1_0_0_1_n_n.lhsIdx_val_of_single rfl _ _).trans hk)
  have er : dot_S400x128_S128x40_S400x40_1_0_0_1_n_n.rhsIdx (ix2 p q) ((contrEquiv1 dot_S400x128_S128x40_S400x40_1_0_0_1_n_n 128 rfl rfl).symm k) = ix2 k q :=
    funext fun x => Fin.ext (by
      match x with
      | ⟨0, _⟩ => exact (dot_S400x128_S128x40_S400x40_1_0_0_1_n_n.rhsIdx_val_of_single rfl _ _).trans hk
      | ⟨1, _⟩ => exact mm3_rhs1 _ _)
  rw [el, er]

/-! ## The shifted log-softmax of the body is the specification's -/

/-- The row maximum of the body, kept as a column and broadcast back over the lanes. -/
abbrev rowMaxB (u : FVec Ideal S400x40 .f32) : FVec Ideal S400x40 .f32 :=
  broadcastTo S400x40 (shapeCast S400x1
    (multiReduction (F := Ideal) .maximumf [1] S400 u 0xFF800000#32 reduces_S400x40_S400 (.inl rfl) rfl)
    shapeCasts_S400_S400x1) broadcasts_S400x1_S400x40

/-- At `(p, c)` it is the specification's maximum of row `p`: the fold of `max` from the word of `-∞`. -/
theorem rowMaxB_apply (u : FVec Ideal S400x40 .f32) (p : Fin 400) (c : Fin 40) :
    rowMaxB u (ix2 p c) = Cert.Spec.rowMax (n := 400) (c := 40) u p := by
  unfold rowMaxB
  rw [col_bcast_apply, col_cast_apply]
  refine (Ideal.multiReduction_maximumf_single u 0xFF800000#32 reduces_S400x40_S400 (.inl rfl) rfl (ix1 p)).trans ?_
  unfold Cert.Spec.rowMax
  show Finset.fold max Cert.Spec.negInf (u ∘ reduces_S400x40_S400.lift (ix1 p)) (Finset.univ : Finset (Fin 40)) = _
  congr 1
  funext k
  exact congrArg u (lift_row p k)

/-- The body's shifted log-softmax of an array `u` of logits is the specification's. -/
theorem lsm_eq (u : FVec Ideal S400x40 .f32) :
    subf (subf u (rowMaxB u)) (broadcastTo S400x40 (log (shapeCast S400x1
        (multiReduction (F := Ideal) .add [1] S400 (exp (subf u (rowMaxB u))) 0x00000000#32 reduces_S400x40_S400 (.inl rfl) rfl)
        shapeCasts_S400_S400x1)) broadcasts_S400x1_S400x40)
      = Cert.Spec.logSoftmax (n := 400) (c := 40) u := by
  funext j
  obtain ⟨p, c, rfl⟩ : ∃ (p : Fin 400) (c : Fin 40), j = ix2 p c := ⟨j 0, j 1, eq_ix2 j⟩
  rw [subf_apply, subf_apply, col_bcast_apply, rowMaxB_apply]
  show (u (ix2 p c) - Cert.Spec.rowMax (n := 400) (c := 40) u p) - Ideal.log (shapeCast S400x1
        (multiReduction (F := Ideal) .add [1] S400 (exp (subf u (rowMaxB u))) 0x00000000#32 reduces_S400x40_S400 (.inl rfl) rfl)
        shapeCasts_S400_S400x1 (ix2 p (0 : Fin 1))) = _
  rw [col_cast_apply]
  unfold Cert.Spec.logSoftmax
  refine congrArg (fun s => (u (ix2 p c) - Cert.Spec.rowMax (n := 400) (c := 40) u p) - Ideal.log s) ?_
  refine (Ideal.multiReduction_add_single (exp (subf u (rowMaxB u))) 0x00000000#32 reduces_S400x40_S400 (.inl rfl) rfl (ix1 p)).trans ?_
  show ∑ k : Fin 40, exp (subf u (rowMaxB u)) (reduces_S400x40_S400.lift (ix1 p) k) = _
  refine Finset.sum_congr rfl fun k _ => ?_
  have hl : reduces_S400x40_S400.lift (ix1 p) k = ix2 p k := lift_row p k
  refine (congrArg (exp (subf u (rowMaxB u))) hl).trans ?_
  show Ideal.exp (u (ix2 p k) - rowMaxB u (ix2 p k)) = _
  rw [rowMaxB_apply]

/-! ## The logits -/

/-- The logits of the second layer, from the entries the body read. -/
def logit (v0 : Vec Ideal S400x10000 .f32) (v8 : Vec Ideal S10000x256 .bf16) (v16 : Vec Ideal S400x256 .bf16)
    (v22 : Vec Ideal S1x128 .f32) (v27 : Vec Ideal S128x40 .f32) (v29 : Vec Ideal S1x40 .f32) : Cert.Spec.Mat 400 40 :=
  fun j => (∑ k : Fin 128, ((v22 (ix2 0 k) : EReal) * ((v16 (ix2 (j 0) ⟨k.val, by omega⟩) : EReal) + (v16 (ix2 (j 0) ⟨k.val + 128, by omega⟩) : EReal))
      + k0_pay4 v0 v8 (ix2 (j 0) k)) * (v27 (ix2 k (j 1)) : EReal)) + (v29 (ix2 0 (j 1)) : EReal)

/-- The second layer's rows are the log-softmax of the logits. -/
theorem pay5_eq (v0 : Vec Ideal S400x10000 .f32) (v8 : Vec Ideal S10000x256 .bf16) (v16 : Vec Ideal S400x256 .bf16)
    (v22 : Vec Ideal S1x128 .f32) (v27 : Vec Ideal S128x40 .f32) (v29 : Vec Ideal S1x40 .f32) :
    k0_pay5 v0 v8 v16 v22 v27 v29 = Cert.Spec.logSoftmax (logit v0 v8 v16 v22 v27 v29) := by
  unfold k0_pay5
  refine (lsm_eq _).trans (congrArg (Cert.Spec.logSoftmax (n := 400) (c := 40)) ?_)
  funext j
  obtain ⟨p, c, rfl⟩ : ∃ (p : Fin 400) (c : Fin 40), j = ix2 p c := ⟨j 0, j 1, eq_ix2 j⟩
  rw [addf_apply, mm3_apply, broadcastTo_1b_ab_apply]
  unfold logit
  simp only [shapeCast_self]
  refine congrArg₂ (· + ·) (Finset.sum_congr rfl fun k _ => ?_) rfl
  rw [addf_apply, mulf_apply, addf_apply, extf_apply, extf_apply, slice_lo, slice_hi, broadcastTo_1b_ab_apply]

end Cert.Payload

end
-- ==== Proof.PayloadD.lean ====
/-
  The body's results against the network.  A grid step works on a block of 400 consecutive rows starting
  at row `r0`.  Given what each loaded vector is in terms of the whole arrays — the adjacency block, the
  stored features in lanes `q` and their remainder `x - x` in lanes `q + 128`, the scaled unit `1 + ε`,
  the weights and the bias — the body's aggregation is the network's aggregation at row `r0 + p`, its
  activation the network's hidden activation, and its log-softmax the network's class log-probabilities.
  The remainder lanes contribute nothing: for real entries `x - x = 0`, and a product with zero is zero.
-/
import proofs.«172329_g62586263437736_cont_9to1_m_674_9_alg».proof.Proof.Payload
import proofs.«172329_g62586263437736_cont_9to1_m_674_9_alg».proof.Proof.PayloadB
import proofs.«172329_g62586263437736_cont_9to1_m_674_9_alg».proof.Proof.PayloadC
import proofs.«172329_g62586263437736_cont_9to1_m_674_9_alg».proof.Proof.Spec
import proofs.«172329_g62586263437736_cont_9to1_m_674_9_alg».proof.Proof.RealClosed

noncomputable section

namespace Cert.Payload

open Idealize.ShloMosaic Idealize.ShloMosaic.ValueIdx Cert.KernelIdeal Cert.KernelIdeal.Gen Cert.RealClosed Cert.Spec

variable [Cert.KernelIdeal.Facts]

/-- An aggregation over a pair of 128-lane halves whose second half is zero is the aggregation of the first half. -/
theorem agg_pair (adj : Mat 10000 10000) (H : Mat 10000 128) (r0 : ℕ) (hr0 : r0 + 400 ≤ 10000)
    (v0 : Vec Ideal S400x10000 .f32) (hp : Vec Ideal S10000x256 .bf16)
    (h0 : ∀ (p : Fin 400) (k : Fin 10000), (v0 (ix2 p k) : EReal) = adj (ix2 ⟨r0 + p.val, by omega⟩ k))
    (hlo : ∀ (r : Fin 10000) (q : Fin 128), (hp (ix2 r ⟨q.val, by omega⟩) : EReal) = H (ix2 r q))
    (hhi : ∀ (r : Fin 10000) (q : Fin 128), (hp (ix2 r ⟨q.val + 128, by omega⟩) : EReal) = 0)
    (p : Fin 400) (q : Fin 128) :
    (∑ k : Fin 10000, (v0 (ix2 p k) : EReal) * (hp (ix2 k ⟨q.val, by omega⟩) : EReal))
        + (∑ k : Fin 10000, (v0 (ix2 p k) : EReal) * (hp (ix2 k ⟨q.val + 128, by omega⟩) : EReal))
      = agg adj H (ix2 ⟨r0 + p.val, by omega⟩ q) := by
  have e2 : (∑ k : Fin 10000, (v0 (ix2 p k) : EReal) * (hp (ix2 k ⟨q.val + 128, by omega⟩) : EReal)) = 0 :=
    Finset.sum_eq_zero fun k _ => by rw [hhi, mul_zero]
  rw [e2, add_zero]
  unfold agg
  refine Finset.sum_congr rfl fun k _ => ?_
  rw [h0, hlo]

/-- (D3) The second aggregation of the block is the network's aggregation of `H` at row `r0 + p`. -/
theorem fp2_block (adj : Mat 10000 10000) (H : Mat 10000 128) (r0 : ℕ) (hr0 : r0 + 400 ≤ 10000)
    (v0 : Vec Ideal S400x10000 .f32) (hp : Vec Ideal S10000x256 .bf16)
    (h0 : ∀ (p : Fin 400) (k : Fin 10000), (v0 (ix2 p k) : EReal) = adj (ix2 ⟨r0 + p.val, by omega⟩ k))
    (hlo : ∀ (r : Fin 10000) (q : Fin 128), (hp (ix2 r ⟨q.val, by omega⟩) : EReal) = H (ix2 r q))
    (hhi : ∀ (r : Fin 10000) (q : Fin 128), (hp (ix2 r ⟨q.val + 128, by omega⟩) : EReal) = 0)
    (p : Fin 400) (q : Fin 128) :
    k0_pay4 v0 hp (ix2 p q) = agg adj H (ix2 ⟨r0 + p.val, by omega⟩ q) := by
  rw [pay4_apply]
  exact agg_pair adj H r0 hr0 v0 hp h0 hlo hhi p q

/-- (D1) The first aggregation of the block is the network's `A · x` at row `r0 + p`. -/
theorem fp1_block (x : Mat 10000 128) (adj : Mat 10000 10000) (r0 : ℕ) (hr0 : r0 + 400 ≤ 10000)
    (v0 : Vec Ideal S400x10000 .f32) (v8 : Vec Ideal S10000x256 .bf16)
    (h0 : ∀ (p : Fin 400) (k : Fin 10000), (v0 (ix2 p k) : EReal) = adj (ix2 ⟨r0 + p.val, by omega⟩ k))
    (h8lo : ∀ (r : Fin 10000) (q : Fin 128), (v8 (ix2 r ⟨q.val, by omega⟩) : EReal) = x (ix2 r q))
    (h8hi : ∀ (r : Fin 10000) (q : Fin 128), (v8 (ix2 r ⟨q.val + 128, by omega⟩) : EReal) = x (ix2 r q) - x (ix2 r q))
    (hx : ∀ i, IsReal (x i)) (p : Fin 400) (q : Fin 128) :
    k0_pay2 v0 v8 (ix2 p q) = fp1 x adj (ix2 ⟨r0 + p.val, by omega⟩ q) := by
  rw [pay2_apply]
  exact agg_pair adj x r0 hr0 v0 v8 h0 h8lo (fun r q => by rw [h8hi, sub_self_of_isReal (hx _)]) p q

/-- (D2) The activation of the block is the network's hidden activation at row `r0 + p`. -/
theorem hid_block (x : Mat 10000 128) (adj : Mat 10000 10000) (W1 : Mat 128 128) (b1 : Row 128) (e1 : Scal)
    (r0 : ℕ) (hr0 : r0 + 400 ≤ 10000)
    (v0 : Vec Ideal S400x10000 .f32) (v8 : Vec Ideal S10000x256 .bf16) (v17 : Vec Ideal S400x256 .bf16)
    (v24 : Vec Ideal S1x128 .f32) (v29 : Vec Ideal S128x128 .f32) (v31 : Vec Ideal S1x128 .f32)
    (h0 : ∀ (p : Fin 400) (k : Fin 10000), (v0 (ix2 p k) : EReal) = adj (ix2 ⟨r0 + p.val, by omega⟩ k))
    (h8lo : ∀ (r : Fin 10000) (q : Fin 128), (v8 (ix2 r ⟨q.val, by omega⟩) : EReal) = x (ix2 r q))
    (h8hi : ∀ (r : Fin 10000) (q : Fin 128), (v8 (ix2 r ⟨q.val + 128, by omega⟩) : EReal) = x (ix2 r q) - x (ix2 r q))
    (h17lo : ∀ (p : Fin 400) (q : Fin 128), (v17 (ix2 p ⟨q.val, by omega⟩) : EReal) = x (ix2 ⟨r0 + p.val, by omega⟩ q))
    (h17hi : ∀ (p : Fin 400) (q : Fin 128), (v17 (ix2 p ⟨q.val + 128, by omega⟩) : EReal)
      = x (ix2 ⟨r0 + p.val, by omega⟩ q) - x (ix2 ⟨r0 + p.val, by omega⟩ q))
    (h24 : ∀ k : Fin 128, (v24 (ix2 (0 : Fin 1) k) : EReal) = one + e1 ix0)
    (h29 : ∀ (k q : Fin 128), (v29 (ix2 k q) : EReal) = W1 (ix2 k q))
    (h31 : ∀ q : Fin 128, (v31 (ix2 (0 : Fin 1) q) : EReal) = b1 (ix1 q))
    (hx : ∀ i, IsReal (x i)) (p : Fin 400) (q : Fin 128) :
    hrow v0 v8 v17 v24 v29 v31 p q = hid x adj W1 b1 e1 (ix2 ⟨r0 + p.val, by omega⟩ q) := by
  unfold hrow hid relu lin
  refine congrArg (max · 0) (congrArg₂ (· + ·) (Finset.sum_congr rfl fun k _ => ?_) (h31 q))
  rw [h24, h17lo, h17hi, sub_self_of_isReal (hx _), add_zero, h29,
    fp1_block x adj r0 hr0 v0 v8 h0 h8lo h8hi hx p k]

/-- The log-softmax of a block of rows is the array's log-softmax at the shifted row: the row maximum and
the sum run over the columns of that one row only. -/
theorem logSoftmax_block {c : Nat} (L : Mat 10000 c) (r0 : ℕ) (hr0 : r0 + 400 ≤ 10000) (p : Fin 400) (q : Fin c) :
    logSoftmax (n := 400) (c := c) (fun j => L (ix2 ⟨r0 + (j 0).val, by have := idx2_lt0 j; omega⟩ (j 1))) (ix2 p q)
      = logSoftmax L (ix2 ⟨r0 + p.val, by omega⟩ q) := rfl

/-- (D4) The log-softmax rows of the block are the network's class log-probabilities at row `r0 + p`. -/
theorem res_block (adj : Mat 10000 10000) (H : Mat 10000 128) (W2 : Mat 128 40) (b2 : Row 40) (e2 : Scal)
    (r0 : ℕ) (hr0 : r0 + 400 ≤ 10000)
    (v0 : Vec Ideal S400x10000 .f32) (hp : Vec Ideal S10000x256 .bf16) (v16 : Vec Ideal S400x256 .bf16)
    (v22 : Vec Ideal S1x128 .f32) (v27 : Vec Ideal S128x40 .f32) (v29 : Vec Ideal S1x40 .f32)
    (h0 : ∀ (p : Fin 400) (k : Fin 10000), (v0 (ix2 p k) : EReal) = adj (ix2 ⟨r0 + p.val, by omega⟩ k))
    (hlo : ∀ (r : Fin 10000) (q : Fin 128), (hp (ix2 r ⟨q.val, by omega⟩) : EReal) = H (ix2 r q))
    (hhi : ∀ (r : Fin 10000) (q : Fin 128), (hp (ix2 r ⟨q.val + 128, by omega⟩) : EReal) = 0)
    (h16lo : ∀ (p : Fin 400) (q : Fin 128), (v16 (ix2 p ⟨q.val, by omega⟩) : EReal) = H (ix2 ⟨r0 + p.val, by omega⟩ q))
    (h16hi : ∀ (p : Fin 400) (q : Fin 128), (v16 (ix2 p ⟨q.val + 128, by omega⟩) : EReal) = 0)
    (h22 : ∀ k : Fin 128, (v22 (ix2 (0 : Fin 1) k) : EReal) = one + e2 ix0)
    (h27 : ∀ (k : Fin 128) (q : Fin 40), (v27 (ix2 k q) : EReal) = W2 (ix2 k q))
    (h29 : ∀ q : Fin 40, (v29 (ix2 (0 : Fin 1) q) : EReal) = b2 (ix1 q))
    (p : Fin 400) (q : Fin 40) :
    k0_pay5 v0 hp v16 v22 v27 v29 (ix2 p q)
      = logSoftmax (lin e2 H (agg adj H) W2 b2) (ix2 ⟨r0 + p.val, by omega⟩ q) := by
  have hl : logit v0 hp v16 v22 v27 v29
      = fun j => lin e2 H (agg adj H) W2 b2 (ix2 ⟨r0 + (j 0).val, by have := idx2_lt0 j; omega⟩ (j 1)) := by
    funext j
    obtain ⟨p, c, rfl⟩ : ∃ (p : Fin 400) (c : Fin 40), j = ix2 p c := ⟨j 0, j 1, eq_ix2 j⟩
    unfold logit lin
    refine congrArg₂ (· + ·) (Finset.sum_congr rfl fun k _ => ?_) (h29 c)
    rw [h22, h16lo, h16hi, add_zero, h27, fp2_block adj H r0 hr0 v0 hp h0 hlo hhi]
  rw [pay5_eq, hl]
  exact logSoftmax_block _ r0 hr0 p q

end Cert.Payload

end
-- ==== Proof.Finite.lean ====
/-
  From the printed finiteness precondition to "every entry of every argument array is a real number".
  The precondition is a conjunction of eight tests, one per argument array; each test compares the absolute
  value of every entry with the word of `+∞` by strict less-than and takes the conjunction over the array.
  An extended real whose absolute value `max x (-x)` is strictly below `+∞` is neither `+∞` nor `-∞`,
  hence the image of a real.
-/
import proofs.«172329_g62586263437736_cont_9to1_m_674_9_alg».proof.Defs
import proofs.«172329_g62586263437736_cont_9to1_m_674_9_alg».proof.Proof.RealClosed
import Idealize.ShloMosaic.Lib.ReduceAll
import Idealize.ShloMosaic.Lib.ValueIdx

noncomputable section

namespace Cert.Finite

open Idealize.ShloMosaic Idealize.ShloMosaic.ValueIdx Cert.RealClosed Cert.Pre_finite_inputs

/-- The rank-0 shape has exactly one index. -/
instance : Subsingleton S_.Idx := ⟨fun a b => funext fun d => d.elim0⟩

/-- The word `0x7F800000` denotes `+∞`. -/
theorem ofBits_posInf : Ideal.ofBits .f32 0x7F800000#32 = ⊤ := by simp [Ideal.ofBits, Ideal.ieee]

/-- An extended real whose absolute value is strictly below `+∞` is real: at `+∞` and at `-∞` the absolute
value `max x (-x)` is `+∞`, which is not below itself. -/
theorem isReal_of_abs_lt (x : EReal)
    (h : Ideal.cmp .olt (max x (-x)) (Ideal.ofBits .f32 0x7F800000#32) = 1#1) : IsReal x := by
  rw [ofBits_posInf] at h
  induction x using EReal.rec with
  | bot => simp [Ideal.cmp] at h
  | coe r => exact ⟨r, rfl⟩
  | top => simp [Ideal.cmp] at h

/-- One test of the precondition over an array of positive rank: the conjunction over all entries of
`|a| < +∞` being one makes every entry real. -/
theorem real_of_all {S : Shape} {axes : List (Fin S.rank)} (a : FVec Ideal S .f32)
    (hb : S_.BroadcastsInDim S (![] : Fin 0 → Fin S.rank)) (hr : S.ReducesTo axes S_) (hu : 0 < S_.numel)
    (init : IVec S_ 1)
    (e : Host.reduce IntOp.andi
          (cmpf .olt (Host.absf a) (broadcastInDim S ![] hb (constant (F := Ideal) S_ .f32 0x7F800000#32)))
          init hr hu ix0 = 1#1) :
    ∀ i, IsReal (a i) := by
  intro i
  have h := Host.reduce_andi_all _ init hr hu ix0 e i
  exact isReal_of_abs_lt (a i) h

/-- The same test over a rank-0 array (no broadcast of the bound). -/
theorem real_of_all0 {axes : List (Fin S_.rank)} (a : FVec Ideal S_ .f32) (hr : S_.ReducesTo axes S_)
    (hu : 0 < S_.numel) (init : IVec S_ 1)
    (e : Host.reduce IntOp.andi (cmpf .olt (Host.absf a) (constant (F := Ideal) S_ .f32 0x7F800000#32))
          init hr hu ix0 = 1#1) :
    ∀ i, IsReal (a i) := by
  intro i
  have h := Host.reduce_andi_all _ init hr hu ix0 e i
  exact isReal_of_abs_lt (a i) h

variable [Cert.Pre_finite_inputs.Facts]

/-- The precondition holds only when every entry of each of the eight argument arrays is real. -/
theorem real_of_pre (a0 : FVec Ideal S10000x128 .f32) (a1 : FVec Ideal S10000x10000 .f32)
    (a2 : FVec Ideal S128x128 .f32) (a3 : FVec Ideal S128 .f32) (a4 : FVec Ideal S128x40 .f32)
    (a5 : FVec Ideal S40 .f32) (a6 : FVec Ideal S_ .f32) (a7 : FVec Ideal S_ .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧
      (∀ i, IsReal (a4 i)) ∧ (∀ i, IsReal (a5 i)) ∧ (∀ i, IsReal (a6 i)) ∧ (∀ i, IsReal (a7 i)) := by
  have h0 := congrFun h ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5,
    real_of_all0 a6 _ _ _ e6, real_of_all0 a7 _ _ _ e7⟩

end Cert.Finite

end
-- ==== Proof.KernelValue.lean ====
/-
  The idealized kernel's three output arrays as the network's functions of the argument arrays.

  At the extended reals the [value | remainder] pair of a finite array is [a | 0]: the remainder a − a vanishes
  because a is a real number.  So the wide product of a block of adjacency rows with the pair is the plain
  aggregation in its first 128 lanes and zero in the others, their sum is the aggregation, and value plus
  remainder is the value.  With that, the rows the first layer stores in the scratch are the hidden activation
  (and zeros), the first output's blocks are blocks of A·x, and the second layer's blocks are blocks of A·h and of
  the log-softmax of its affine map.  Finiteness of the inputs is used for x and, through the closure of the reals
  under sums, products and maxima, for h.
-/
import proofs.«172329_g62586263437736_cont_9to1_m_674_9_alg».proof.Proof.KI.Cover
import proofs.«172329_g62586263437736_cont_9to1_m_674_9_alg».proof.Proof.Blocks
import proofs.«172329_g62586263437736_cont_9to1_m_674_9_alg».proof.Proof.PayloadD
import proofs.«172329_g62586263437736_cont_9to1_m_674_9_alg».proof.Proof.Finite
import proofs.«172329_g62586263437736_cont_9to1_m_674_9_alg».proof.Proof.Gen.Pre_finite_inputs

set_option maxRecDepth 16384

noncomputable section

namespace Cert.KernelValue

open Idealize.ShloMosaic Idealize.ShloMosaic.TcCoe Idealize.SL.Sem Idealize.ShloMosaic.ValueIdx
open Cert.KernelIdeal Cert.KernelIdeal.Gen Cert.Spec Cert.RealClosed Cert.Payload Cert.Blocks

variable (m : (ℓ : Loc nD τ sig) → Buf (Elt Ideal) ℓ) (c : Dev nD)

/-- Every entry of the inputs the first layer reads is a real number. -/
structure Reals : Prop where
  h0 : ∀ i, IsReal (X0 m c i)
  h1 : ∀ i, IsReal (X1 m c i)
  h2 : ∀ i, IsReal (X2 m c i)
  h3 : ∀ i, IsReal (X3 m c i)
  h6 : ∀ i, IsReal (X6 m c i)

/-- The hidden activation. -/
abbrev Hid : Mat 10000 128 := hid (X0 m c) (X1 m c) (X2 m c) (X3 m c) (X6 m c)

theorem row_eq (r : Fin 10000) (hlt : 400 * (r.val / 400) + r.val % 400 < 10000) :
    (⟨400 * (r.val / 400) + r.val % 400, hlt⟩ : Fin 10000) = r := Fin.ext (by show 400 * (r.val / 400) + r.val % 400 = r.val; omega)

/-- What the first layer's point b stores, first half: the hidden activation of its rows. -/
theorem hidRows_lo (H : Reals m c) (b : Fin cfg0.N) (hb : b.val < 25) (p : Fin 400) (q : Fin 128) :
    hidRows m c b hb (ix2 p ⟨q.val, by omega⟩) = Hid m c (ix2 ⟨400 * b.val + p.val, by have := p.isLt; omega⟩ q) := by
  unfold hidRows
  rw [pay3_lo]
  exact hid_block (X0 m c) (X1 m c) (X2 m c) (X3 m c) (X6 m c) (400 * b.val) (by omega) _ _ _ _ _ _
    (fun p k => (blk0 m c b p k).trans (by congr 2; exact Fin.ext (by show 400 * (b.val % 25) + p.val = 400 * b.val + p.val; rw [Nat.mod_eq_of_lt hb])))
    (fun r q => blk1_lo m c b r q) (fun r q => blk1_hi m c b r q)
    (fun p q => (rowsA_apply b hb _ p _).trans (blk1_lo m c b _ q))
    (fun p q => (rowsA_apply b hb _ p _).trans (blk1_hi m c b _ q))
    (fun k => blk4 m c b k) (fun k q => blk2 m c b k q) (fun q => blk3 m c b q) H.h0 p q

/-- Second half: the remainder of a real number, zero. -/
theorem hidRows_hi (H : Reals m c) (b : Fin cfg0.N) (hb : b.val < 25) (p : Fin 400) (q : Fin 128) :
    hidRows m c b hb (ix2 p ⟨q.val + 128, by omega⟩) = 0 := by
  have e := hidRows_lo m c H b hb p q
  unfold hidRows at e ⊢
  rw [pay3_hi]; rw [pay3_lo] at e
  rw [e]
  exact sub_self_of_isReal (hid_real _ _ _ _ _ H.h0 H.h1 H.h2 H.h3 H.h6 _)

theorem hidPair_lo (H : Reals m c) (r : Fin 10000) (q : Fin 128) :
    hidPair m c (ix2 r ⟨q.val, by omega⟩) = Hid m c (ix2 r q) := by
  have hr := r.isLt
  rw [hidPair_eq m c _ ⟨r.val / 400, lt_N (by omega)⟩ (by show r.val / 400 < 25; omega) ⟨r.val % 400, by omega⟩
    (by show r.val = 400 * (r.val / 400) + r.val % 400; omega)]
  refine (hidRows_lo m c H _ _ _ q).trans ?_
  congr 2; exact row_eq r _

theorem hidPair_hi (H : Reals m c) (r : Fin 10000) (q : Fin 128) :
    hidPair m c (ix2 r ⟨q.val + 128, by omega⟩) = 0 := by
  have hr := r.isLt
  rw [hidPair_eq m c _ ⟨r.val / 400, lt_N (by omega)⟩ (by show r.val / 400 < 25; omega) ⟨r.val % 400, by omega⟩
    (by show r.val = 400 * (r.val / 400) + r.val % 400; omega)]
  exact hidRows_hi m c H _ _ _ q

/-! ## What each write-back writes -/

theorem flushed8_eq (H : Reals m c) (t : Fin cfg0.N) :
    (dats m 0 c).flushed 8 t = ((cfg0.win 8).blk t).view.read (Elt Ideal) (fp1 (X0 m c) (X1 m c)) := by
  show (cfg0.win 8).cut (grid0.coords t) ((dats m 0 c).after 8 t) = _
  rw [after8]
  funext j
  obtain ⟨p, q, rfl⟩ : ∃ (p : Fin 400) (q : Fin 128), j = ix2 p q := ⟨j 0, j 1, eq_ix2 j⟩
  show k0_pay2 (iblk m c 0 (lastL1 t)) (iblk m c 1 (lastL1 t)) (ix2 p q) = ((cfg0.win 8).blk t).view.read (Elt Ideal) (fp1 (X0 m c) (X1 m c)) (ix2 p q)
  rw [read_blk8]
  exact fp1_block (X0 m c) (X1 m c) (400 * min t.val 24) (by omega) _ _
    (fun p k => (blk0 m c (lastL1 t) p k).trans (by congr 2; exact Fin.ext (by show 400 * (min t.val 24 % 25) + p.val = 400 * min t.val 24 + p.val; rw [Nat.mod_eq_of_lt (by omega)])))
    (fun r q => blk1_lo m c _ r q) (fun r q => blk1_hi m c _ r q) H.h0 p q

theorem flushed9_eq (H : Reals m c) (t : Fin cfg0.N) (hf : (cfg0.win 9).flush t = true) :
    (dats m 0 c).flushed 9 t = ((cfg0.win 9).blk t).view.read (Elt Ideal) (fp2 (X0 m c) (X1 m c) (X2 m c) (X3 m c) (X6 m c)) := by
  have ht : 25 ≤ t.val := (flush9_iff t).mp hf
  have hN := val_lt50 t
  show (cfg0.win 9).cut (grid0.coords t) ((dats m 0 c).after 9 t) = _
  rw [after9]
  funext j
  obtain ⟨p, q, rfl⟩ : ∃ (p : Fin 400) (q : Fin 128), j = ix2 p q := ⟨j 0, j 1, eq_ix2 j⟩
  show k0_pay4 (iblk m c 0 t) (hidPair m c) (ix2 p q) = ((cfg0.win 9).blk t).view.read (Elt Ideal) (fp2 (X0 m c) (X1 m c) (X2 m c) (X3 m c) (X6 m c)) (ix2 p q)
  rw [read_blk9 t _ p q ht]
  exact fp2_block (X1 m c) (Hid m c) (400 * (t.val - 25)) (by omega) _ _
    (fun p k => (blk0 m c t p k).trans (by congr 2; exact Fin.ext (by show 400 * (t.val % 25) + p.val = 400 * (t.val - 25) + p.val; omega)))
    (fun r q => hidPair_lo m c H r q) (fun r q => hidPair_hi m c H r q) p q

theorem flushed10_eq (H : Reals m c) (t : Fin cfg0.N) (hf : (cfg0.win 10).flush t = true) :
    (dats m 0 c).flushed 10 t = ((cfg0.win 10).blk t).view.read (Elt Ideal)
      (res (X0 m c) (X1 m c) (X2 m c) (X3 m c) (X4 m c) (X5 m c) (X6 m c) (X7 m c)) := by
  have ht : 25 ≤ t.val := (flush10_iff t).mp hf
  have hN := val_lt50 t
  show (cfg0.win 10).cut (grid0.coords t) ((dats m 0 c).after 10 t) = _
  rw [after10 m c t ht]
  funext j
  obtain ⟨p, q, rfl⟩ : ∃ (p : Fin 400) (q : Fin 40), j = ix2 p q := ⟨j 0, j 1, eq_ix2 j⟩
  show k0_pay5 (iblk m c 0 t) (hidPair m c) (rowsB (grid0.coords t) ((inL2_iff t).mpr ht) (hidPair m c)) (iblk m c 7 t) (iblk m c 5 t) (iblk m c 6 t) (ix2 p q)
    = ((cfg0.win 10).blk t).view.read (Elt Ideal) (res (X0 m c) (X1 m c) (X2 m c) (X3 m c) (X4 m c) (X5 m c) (X6 m c) (X7 m c)) (ix2 p q)
  rw [read_blk10 t _ p q ht]
  exact res_block (X1 m c) (Hid m c) (X4 m c) (X5 m c) (X7 m c) (400 * (t.val - 25)) (by omega) _ _ _ _ _ _
    (fun p k => (blk0 m c t p k).trans (by congr 2; exact Fin.ext (by show 400 * (t.val % 25) + p.val = 400 * (t.val - 25) + p.val; omega)))
    (fun r q => hidPair_lo m c H r q) (fun r q => hidPair_hi m c H r q)
    (fun p q => (rowsB_apply t ht _ p _).trans (hidPair_lo m c H _ q))
    (fun p q => (rowsB_apply t ht _ p _).trans (hidPair_hi m c H _ q))
    (fun k => blk7 m c t k) (fun k q => blk5 m c t k q) (fun q => blk6 m c t q) p q

/-! ## The arrays after the run -/

theorem final8 (H : Reals m c) : (dats m 0 c).arrAt 8 cfg0.N = fp1 (X0 m c) (X1 m c) :=
  (dats m 0 c).arrAt_eq_of_cover 8 _ (fun t _ => flushed8_eq m c H t) cover8

theorem final9 (H : Reals m c) : (dats m 0 c).arrAt 9 cfg0.N = fp2 (X0 m c) (X1 m c) (X2 m c) (X3 m c) (X6 m c) :=
  (dats m 0 c).arrAt_eq_of_cover 9 _ (fun t hf => flushed9_eq m c H t hf) cover9

theorem final10 (H : Reals m c) : (dats m 0 c).arrAt 10 cfg0.N
    = res (X0 m c) (X1 m c) (X2 m c) (X3 m c) (X4 m c) (X5 m c) (X6 m c) (X7 m c) :=
  (dats m 0 c).arrAt_eq_of_cover 10 _ (fun t hf => flushed10_eq m c H t hf) cover10

/-- Finite inputs are real numbers. -/
theorem reals_of_pre (hpre : Cert.Pre_KernelIdeal m) : Reals m c := by
  obtain ⟨r0, r1, r2, r3, r4, r5, r6, r7⟩ := Cert.Finite.real_of_pre _ _ _ _ _ _ _ _ (hpre c)
  exact ⟨r0, r1, r2, r3, r6⟩

/-- The idealized kernel's run: the three results at the network's functions of the arguments, the arguments unchanged. -/
theorem run_spec (ρ : Dev nD → PrngReg) (hpre : Cert.Pre_KernelIdeal m) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v13_2) = res (X0 m c) (X1 m c) (X2 m c) (X3 m c) (X4 m c) (X5 m c) (X6 m c) (X7 m c)
      ∧ r.2.mem ((c.tc : Thread nD τ).loc main_v13_0) = fp1 (X0 m c) (X1 m c)
      ∧ r.2.mem ((c.tc : Thread nD τ).loc main_v13_1) = fp2 (X0 m c) (X1 m c) (X2 m c) (X3 m c) (X6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.KernelIdeal.defs _ _).mono (fun r h c => by
    have H := reals_of_pre m c hpre
    exact ⟨((h c).1 10).trans (final10 m c H), ((h c).1 8).trans (final8 m c H), ((h c).1 9).trans (final9 m c H),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (Cert.KernelIdeal.Gen.run_main m ρ)

end Cert.KernelValue

end
-- ==== Proof.RefDot.lean ====
/-
  The reference's three matrix products read at an entry.  Each is a contraction over one axis, and at the exact
  (extended-real) values its entry (r, c) is the plain sum over k of left(r, k) · right(k, c): the product with the
  adjacency matrix (k over the 10000 nodes) and the products with the two weight matrices (k over the 128 features).
-/
import proofs.«172329_g62586263437736_cont_9to1_m_674_9_alg».proof.ReferenceIdeal
import proofs.«172329_g62586263437736_cont_9to1_m_674_9_alg».proof.Proof.Gen.ReferenceIdeal
import Idealize.ShloMosaic.Lib.ValueIdx
import Idealize.ShloMosaic.PureOps.Ideal.Laws

noncomputable section

namespace Cert.RefBridge

open Cert.ReferenceIdeal Cert.ReferenceIdeal.Gen Idealize.ShloMosaic Idealize.ShloMosaic.ValueIdx

/-! ### The product with the adjacency matrix -/

private theorem lhs0_adj (i : S10000x128.Idx) (q : dot_S10000x10000_S10000x128_S10000x128_1_0_0_1_n_n.contr.Idx) : (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch by decide), dif_pos (show (0 : Fin S10000x10000.rank) ∈ dot_S10000x10000_S10000x128_S10000x128_1_0_0_1_n_n.lhsNonContracting by decide)]
  rfl
private theorem lhs1_adj (i : S10000x128.Idx) (q : dot_S10000x10000_S10000x128_S10000x128_1_0_0_1_n_n.contr.Idx) : (dot_S10000x10000_S10000x128_S10000x128_1_0_0_1_n_n.lhsIdx i q 1).val = (q ⟨0, by decide⟩).val :=
  dot_S10000x10000_S10000x128_S10000x128_1_0_0_1_n_n.lhsIdx_val_of_single rfl i q
private theorem rhs0_adj (i : S10000x128.Idx) (q : dot_S10000x10000_S10000x128_S10000x128_1_0_0_1_n_n.contr.Idx) : (dot_S10000x10000_S10000x128_S10000x128_1_0_0_1_n_n.rhsIdx i q 0).val = (q ⟨0, by decide⟩).val :=
  dot_S10000x10000_S10000x128_S10000x128_1_0_0_1_n_n.rhsIdx_val_of_single rfl i q
private theorem rhs1_adj (i : S10000x128.Idx) (q : dot_S10000x10000_S10000x128_S10000x128_1_0_0_1_n_n.contr.Idx) : (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch by decide), dif_pos (show (1 : Fin S10000x128.rank) ∈ dot_S10000x10000_S10000x128_S10000x128_1_0_0_1_n_n.rhsNonContracting by decide)]
  rfl

/-- Entry (r, c) of the product is the sum over k of left(r, k) · right(k, c). -/
theorem dot_adj_apply (l : FVec Ideal S10000x10000 .f32) (r : FVec Ideal S10000x128 .f32) (i : S10000x128.Idx) :
    Host.dotGeneral (F := Ideal) dot_S10000x10000_S10000x128_S10000x128_1_0_0_1_n_n none l r i = ∑ k : Fin 10000, l (ix2 (i 0) k) * r (ix2 k (i 1)) := by
  simp only [Host.dotGeneral]
  rw [Ideal.dotGeneral_apply, ← Equiv.sum_comp (ValueIdx.contrEquiv1 dot_S10000x10000_S10000x128_S10000x128_1_0_0_1_n_n 10000 rfl rfl).symm]
  refine Finset.sum_congr rfl fun k _ => ?_
  have hk := ValueIdx.contrEquiv1_symm_val dot_S10000x10000_S10000x128_S10000x128_1_0_0_1_n_n 10000 rfl rfl k
  have el : dot_S10000x10000_S10000x128_S10000x128_1_0_0_1_n_n.lhsIdx i ((ValueIdx.contrEquiv1 dot_S10000x10000_S10000x128_S10000x128_1_0_0_1_n_n 10000 rfl rfl).symm k) = ix2 (i 0) k := funext fun a => Fin.ext (by
    match a with
    | ⟨0, _⟩ => exact lhs0_adj _ _
    | ⟨1, _⟩ => exact (lhs1_adj _ _).trans hk)
  have er : dot_S10000x10000_S10000x128_S10000x128_1_0_0_1_n_n.rhsIdx i ((ValueIdx.contrEquiv1 dot_S10000x10000_S10000x128_S10000x128_1_0_0_1_n_n 10000 rfl rfl).symm k) = ix2 k (i 1) := funext fun a => Fin.ext (by
    match a with
    | ⟨0, _⟩ => exact (rhs0_adj _ _).trans hk
    | ⟨1, _⟩ => exact rhs1_adj _ _)
  rw [el, er]
  rfl

/-! ### The product with the first layer's weights -/

private theorem lhs0_w1 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhs1_w1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
private theorem rhs0_w1 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
private theorem rhs1_w1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (r, c) of the product is the sum over k of left(r, k) · right(k, c). -/
theorem dot_w1_apply (l : FVec Ideal S10000x128 .f32) (r : FVec Ideal S128x128 .f32) (i : S10000x128.Idx) :
    Host.dotGeneral (F := Ideal) dot_S10000x128_S128x128_S10000x128_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (i 0) k := funext fun a => Fin.ext (by
    match a with
    | ⟨0, _⟩ => exact lhs0_w1 _ _
    | ⟨1, _⟩ => exact (lhs1_w1 _ _).trans hk)
  have er : dot_S10000x128_S128x128_S10000x128_1_0_0_1_n_n.rhsIdx i ((ValueIdx.contrEquiv1 dot_S10000x128_S128x128_S10000x128_1_0_0_1_n_n 128 rfl rfl).symm k) = ix2 k (i 1) := funext fun a => Fin.ext (by
    match a with
    | ⟨0, _⟩ => exact (rhs0_w1 _ _).trans hk
    | ⟨1, _⟩ => exact rhs1_w1 _ _)
  rw [el, er]
  rfl

/-! ### The product with the second layer's weights -/

private theorem lhs0_w2 (i : S10000x40.Idx) (q : dot_S10000x128_S128x40_S10000x40_1_0_0_1_n_n.contr.Idx) : (dot_S10000x128_S128x40_S10000x40_1_0_0_1_n_n.lhsIdx i q 0).val = (i 0).val := by
  unfold DotDims.lhsIdx
  rw [dif_neg (show ¬(0 : Fin S10000x128.rank) ∈ dot_S10000x128_S128x40_S10000x40_1_0_0_1_n_n.lhsBatch by decide), dif_pos (show (0 : Fin S10000x128.rank) ∈ dot_S10000x128_S128x40_S10000x40_1_0_0_1_n_n.lhsNonContracting by decide)]
  rfl
private theorem lhs1_w2 (i : S10000x40.Idx) (q : dot_S10000x128_S128x40_S10000x40_1_0_0_1_n_n.contr.Idx) : (dot_S10000x128_S128x40_S10000x40_1_0_0_1_n_n.lhsIdx i q 1).val = (q ⟨0, by decide⟩).val :=
  dot_S10000x128_S128x40_S10000x40_1_0_0_1_n_n.lhsIdx_val_of_single rfl i q
private theorem rhs0_w2 (i : S10000x40.Idx) (q : dot_S10000x128_S128x40_S10000x40_1_0_0_1_n_n.contr.Idx) : (dot_S10000x128_S128x40_S10000x40_1_0_0_1_n_n.rhsIdx i q 0).val = (q ⟨0, by decide⟩).val :=
  dot_S10000x128_S128x40_S10000x40_1_0_0_1_n_n.rhsIdx_val_of_single rfl i q
private theorem rhs1_w2 (i : S10000x40.Idx) (q : dot_S10000x128_S128x40_S10000x40_1_0_0_1_n_n.contr.Idx) : (dot_S10000x128_S128x40_S10000x40_1_0_0_1_n_n.rhsIdx i q 1).val = (i 1).val := by
  unfold DotDims.rhsIdx
  rw [dif_neg (show ¬(1 : Fin S128x40.rank) ∈ dot_S10000x128_S128x40_S10000x40_1_0_0_1_n_n.rhsBatch by decide), dif_pos (show (1 : Fin S128x40.rank) ∈ dot_S10000x128_S128x40_S10000x40_1_0_0_1_n_n.rhsNonContracting by decide)]
  rfl

/-- Entry (r, c) of the product is the sum over k of left(r, k) · right(k, c). -/
theorem dot_w2_apply (l : FVec Ideal S10000x128 .f32) (r : FVec Ideal S128x40 .f32) (i : S10000x40.Idx) :
    Host.dotGeneral (F := Ideal) dot_S10000x128_S128x40_S10000x40_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S10000x128_S128x40_S10000x40_1_0_0_1_n_n 128 rfl rfl).symm]
  refine Finset.sum_congr rfl fun k _ => ?_
  have hk := ValueIdx.contrEquiv1_symm_val dot_S10000x128_S128x40_S10000x40_1_0_0_1_n_n 128 rfl rfl k
  have el : dot_S10000x128_S128x40_S10000x40_1_0_0_1_n_n.lhsIdx i ((ValueIdx.contrEquiv1 dot_S10000x128_S128x40_S10000x40_1_0_0_1_n_n 128 rfl rfl).symm k) = ix2 (i 0) k := funext fun a => Fin.ext (by
    match a with
    | ⟨0, _⟩ => exact lhs0_w2 _ _
    | ⟨1, _⟩ => exact (lhs1_w2 _ _).trans hk)
  have er : dot_S10000x128_S128x40_S10000x40_1_0_0_1_n_n.rhsIdx i ((ValueIdx.contrEquiv1 dot_S10000x128_S128x40_S10000x40_1_0_0_1_n_n 128 rfl rfl).symm k) = ix2 k (i 1) := funext fun a => Fin.ext (by
    match a with
    | ⟨0, _⟩ => exact (rhs0_w2 _ _).trans hk
    | ⟨1, _⟩ => exact rhs1_w2 _ _)
  rw [el, er]
  rfl

end Cert.RefBridge

end
-- ==== Proof.RefStages.lean ====
/-
  The reference's operations grouped into the stages of the network, each stage a function of the arrays it reads,
  and each shown equal, entry by entry, to the specification's function of the same name: the aggregation `adj · X`,
  the affine map of a layer `((1 + ε) · X + P) · W + b` for the two widths that occur, the rectifier, and the row-wise
  log-softmax in its shifted form.  Nothing here needs a finiteness assumption: every step is an identity of sums,
  products, maxima, `exp` and `log` over the extended reals, read at one entry.
-/
import proofs.«172329_g62586263437736_cont_9to1_m_674_9_alg».proof.Proof.RefDot
import proofs.«172329_g62586263437736_cont_9to1_m_674_9_alg».proof.Proof.Spec
import Idealize.ShloMosaic.Lib.Pipeline.Value
import Idealize.ShloMosaic.PureOps.Reduce

noncomputable section

namespace Cert.RefBridge

open Cert.ReferenceIdeal Cert.ReferenceIdeal.Gen Idealize.ShloMosaic Idealize.ShloMosaic.ValueIdx

/-! ## The stages -/

/-- Aggregation `adj · X`. -/
def aggV (adj : FVec Ideal S10000x10000 .f32) (X : FVec Ideal S10000x128 .f32) : FVec Ideal S10000x128 .f32 :=
  Host.dotGeneral (F := Ideal) dot_S10000x10000_S10000x128_S10000x128_1_0_0_1_n_n none adj X

/-- The first layer's affine map: the scalar `1 + ε` spread over the array, times `X`, plus `P`, times `W`, plus the
    bias row spread over the rows. -/
def lin1V (e : FVec Ideal S_ .f32) (X P : FVec Ideal S10000x128 .f32) (W : FVec Ideal S128x128 .f32) (b : FVec Ideal S128 .f32) :
    FVec Ideal S10000x128 .f32 :=
  addf (Host.dotGeneral (F := Ideal) dot_S10000x128_S128x128_S10000x128_1_0_0_1_n_n none
      (addf (mulf (broadcastInDim S10000x128 ![] bcast_S_S10000x128 (addf (constant (F := Ideal) S_ .f32 0x3F800000#32) e)) X) P) W)
    (broadcastInDim S10000x128 ![0, 1] bcast_S1x128_S10000x128_0_1 (broadcastInDim S1x128 ![1] bcast_S128_S1x128_1 b))

/-- The rectifier: the maximum with the zero word spread over the array. -/
def reluV (U : FVec Ideal S10000x128 .f32) : FVec Ideal S10000x128 .f32 :=
  maximumf U (broadcastInDim S10000x128 ![] bcast_S_S10000x128 (constant (F := Ideal) S_ .f32 0x00000000#32))

/-- The second layer's affine map, into the 40 classes. -/
def lin2V (e : FVec Ideal S_ .f32) (X P : FVec Ideal S10000x128 .f32) (W : FVec Ideal S128x40 .f32) (b : FVec Ideal S40 .f32) :
    FVec Ideal S10000x40 .f32 :=
  addf (Host.dotGeneral (F := Ideal) dot_S10000x128_S128x40_S10000x40_1_0_0_1_n_n none
      (addf (mulf (broadcastInDim S10000x128 ![] bcast_S_S10000x128 (addf (constant (F := Ideal) S_ .f32 0x3F800000#32) e)) X) P) W)
    (broadcastInDim S10000x40 ![0, 1] bcast_S1x40_S10000x40_0_1 (broadcastInDim S1x40 ![1] bcast_S40_S1x40_1 b))

/-- The row maxima as the reference takes them: the maximum of the `-∞` word and the fold of each row from `-∞`. -/
def rowMaxV (U : FVec Ideal S10000x40 .f32) : FVec Ideal S10000 .f32 :=
  maximumf (broadcastInDim S10000 ![] bcast_S_S10000 (constant (F := Ideal) S_ .f32 0xFF800000#32))
    (Host.reduce FloatOps.maximumf U (constant (F := Ideal) S_ .f32 0xFF800000#32) reducesTo_S10000x40_S10000_d1 h_S_)

/-- The logits minus their row's maximum. -/
def shiftV (U : FVec Ideal S10000x40 .f32) : FVec Ideal S10000x40 .f32 :=
  subf U (broadcastInDim S10000x40 ![0, 1] bcast_S10000x1_S10000x40_0_1 (broadcastInDim S10000x1 ![0] bcast_S10000_S10000x1_0 (rowMaxV U)))

/-- The log-softmax: the shifted logits minus the logarithm of their row's sum of exponentials. -/
def lsmV (U : FVec Ideal S10000x40 .f32) : FVec Ideal S10000x40 .f32 :=
  subf (shiftV U) (broadcastInDim S10000x40 ![0, 1] bcast_S10000x1_S10000x40_0_1 (Host.log (broadcastInDim S10000x1 ![0] bcast_S10000_S10000x1_0
    (Host.reduceAdd (F := Ideal) (Host.exp (shiftV U)) (constant (F := Ideal) S_ .f32 0x00000000#32) reducesTo_S10000x40_S10000_d1 h_S_))))

/-! ## Each stage is the specification's -/

theorem aggV_eq (adj : FVec Ideal S10000x10000 .f32) (X : FVec Ideal S10000x128 .f32) : aggV adj X = Cert.Spec.agg adj X := by
  funext i
  unfold aggV Cert.Spec.agg
  exact dot_adj_apply adj X i

/-- A scalar spread over a 10000 × 128 array reads the scalar everywhere. -/
private theorem scal128_apply (y : FVec Ideal S_ .f32) (j : S10000x128.Idx) :
    broadcastInDim S10000x128 ![] bcast_S_S10000x128 y j = y ix0 :=
  broadcastInDim_apply _ bcast_S_S10000x128 y j ix0 (fun a => a.elim0)

/-- A row of 128 spread over 10000 rows reads the row's entry at the column. -/
private theorem row128_apply (b : FVec Ideal S128 .f32) (j : S10000x128.Idx) :
    broadcastInDim S10000x128 ![0, 1] bcast_S1x128_S10000x128_0_1 (broadcastInDim S1x128 ![1] bcast_S128_S1x128_1 b) j = b (ix1 (j 1)) := by
  rw [broadcastInDim_apply _ bcast_S1x128_S10000x128_0_1 _ j (ix2 (0 : Fin 1) (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)]),
    broadcastInDim_apply _ bcast_S128_S1x128_1 b (ix2 (0 : Fin 1) (j 1)) (ix1 (j 1)) (fun a => match a with
      | ⟨0, _⟩ => by show (j 1).val = if (128 : Nat) = 1 then 0 else (j 1).val; rw [if_neg (by decide)])]

/-- A row of 40 spread over 10000 rows reads the row's entry at the column. -/
private theorem row40_apply (b : FVec Ideal S40 .f32) (j : S10000x40.Idx) :
    broadcastInDim S10000x40 ![0, 1] bcast_S1x40_S10000x40_0_1 (broadcastInDim S1x40 ![1] bcast_S40_S1x40_1 b) j = b (ix1 (j 1)) := by
  rw [broadcastInDim_apply _ bcast_S1x40_S10000x40_0_1 _ j (ix2 (0 : Fin 1) (j 1)) (fun a => match a with
      | ⟨0, _⟩ => by show 0 = if (1 : Nat) = 1 then 0 else (j 0).val; rw [if_pos rfl]
      | ⟨1, _⟩ => by show (j 1).val = if (40 : Nat) = 1 then 0 else (j 1).val; rw [if_neg (by decide)]),
    broadcastInDim_apply _ bcast_S40_S1x40_1 b (ix2 (0 : Fin 1) (j 1)) (ix1 (j 1)) (fun a => match a with
      | ⟨0, _⟩ => by show (j 1).val = if (40 : Nat) = 1 then 0 else (j 1).val; rw [if_neg (by decide)])]

/-- A 10000 × 1 column spread over 40 columns reads the column at the row. -/
private theorem col2_apply (w : FVec Ideal S10000x1 .f32) (j : S10000x40.Idx) :
    broadcastInDim S10000x40 ![0, 1] bcast_S10000x1_S10000x40_0_1 w j = w (ix2 (j 0) (0 : Fin 1)) :=
  broadcastInDim_apply _ bcast_S10000x1_S10000x40_0_1 w j (ix2 (j 0) (0 : Fin 1)) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

/-- A vector of 10000 set up as a 10000 × 1 column reads the vector at the row. -/
private theorem col1_apply (v : FVec Ideal S10000 .f32) (p : S10000x1.Idx) :
    broadcastInDim S10000x1 ![0] bcast_S10000_S10000x1_0 v p = v (ix1 (p 0)) :=
  broadcastInDim_apply _ bcast_S10000_S10000x1_0 v p (ix1 (p 0)) (fun a => match a with
    | ⟨0, _⟩ => by show (p 0).val = if (10000 : Nat) = 1 then 0 else (p 0).val; rw [if_neg (by decide)])

/-- The two together: a vector of 10000 spread over 40 columns reads the vector at the row. -/
private theorem col_apply (v : FVec Ideal S10000 .f32) (j : S10000x40.Idx) :
    broadcastInDim S10000x40 ![0, 1] bcast_S10000x1_S10000x40_0_1 (broadcastInDim S10000x1 ![0] bcast_S10000_S10000x1_0 v) j = v (ix1 (j 0)) := by
  rw [col2_apply, col1_apply]

theorem lin1V_eq (e : FVec Ideal S_ .f32) (X P : FVec Ideal S10000x128 .f32) (W : FVec Ideal S128x128 .f32) (b : FVec Ideal S128 .f32) :
    lin1V e X P W b = Cert.Spec.lin e X P W b := by
  funext i
  unfold lin1V Cert.Spec.lin
  rw [addf_apply, dot_w1_apply, row128_apply]
  refine congrArg (· + b (ix1 (i 1))) (Finset.sum_congr rfl fun k _ => ?_)
  rw [addf_apply, mulf_apply, scal128_apply, addf_apply, constant_apply]

theorem lin2V_eq (e : FVec Ideal S_ .f32) (X P : FVec Ideal S10000x128 .f32) (W : FVec Ideal S128x40 .f32) (b : FVec Ideal S40 .f32) :
    lin2V e X P W b = Cert.Spec.lin e X P W b := by
  funext i
  unfold lin2V Cert.Spec.lin
  rw [addf_apply, dot_w2_apply, row40_apply]
  refine congrArg (· + b (ix1 (i 1))) (Finset.sum_congr rfl fun k _ => ?_)
  rw [addf_apply, mulf_apply, scal128_apply, addf_apply, constant_apply]

theorem reluV_eq (U : FVec Ideal S10000x128 .f32) : reluV U = Cert.Spec.relu U := by
  funext i
  unfold reluV Cert.Spec.relu
  rw [maximumf_apply, scal128_apply, constant_apply, Ideal.ofBits_zero_f32]

/-- The reference's row maximum is the fold of the row from `-∞`: the fold is at least its starting value, so the
    extra maximum with `-∞` changes nothing. -/
theorem rowMaxV_apply (U : FVec Ideal S10000x40 .f32) (r : S10000.Idx) : rowMaxV U r = Cert.Spec.rowMax U (r 0) := by
  have hR : S10000x40.Reduces [1] S10000 := by decide
  have hl : ∀ k : Fin 40, hR.lift r k = ix2 (r 0) k := fun k => funext fun c => Fin.ext (by
    match c with
    | ⟨0, _⟩ => rfl
    | ⟨1, _⟩ => rfl)
  have hf : (U ∘ hR.lift r) = fun k : Fin 40 => U (ix2 (r 0) k) := funext fun k => congrArg U (hl k)
  have hfold : Host.reduce FloatOps.maximumf U (constant (F := Ideal) S_ .f32 0xFF800000#32) reducesTo_S10000x40_S10000_d1 h_S_ r
      = Cert.Spec.rowMax U (r 0) := by
    rw [Host.reduce_eq_fold_single FloatOps.maximumf U _ reducesTo_S10000x40_S10000_d1 hR h_S_ r]
    exact congrArg (fun f => Finset.fold max (Ideal.ofBits .f32 0xFF800000#32) f (Finset.univ : Finset (Fin 40))) hf
  unfold rowMaxV
  rw [maximumf_apply, hfold, broadcastInDim_apply _ bcast_S_S10000 _ r ix0 (fun a => a.elim0), constant_apply]
  exact max_eq_right ((Finset.le_fold_max _).2 (Or.inl le_rfl))

theorem shiftV_apply (U : FVec Ideal S10000x40 .f32) (q : S10000x40.Idx) : shiftV U q = U q - Cert.Spec.rowMax U (q 0) := by
  unfold shiftV
  rw [subf_apply, col_apply, rowMaxV_apply]

/-- A row's sum from the zero word is the plain sum over the row. -/
private theorem sumRow_apply (Y : FVec Ideal S10000x40 .f32) (r : S10000.Idx) :
    Host.reduceAdd (F := Ideal) Y (constant (F := Ideal) S_ .f32 0x00000000#32) reducesTo_S10000x40_S10000_d1 h_S_ r
      = ∑ k : Fin 40, Y (ix2 (r 0) k) := by
  simp only [Host.reduceAdd, Ideal.hostReduceAdd_def]
  rw [Ideal.hostReduceAdd_single reducesTo_S10000x40_S10000_d1 (by decide), constant_apply, Ideal.ofBits_zero_f32, zero_add]
  refine Finset.sum_congr rfl fun k _ => ?_
  exact congrArg Y (funext fun a => Fin.ext (by
    match a with
    | ⟨0, _⟩ => rfl
    | ⟨1, _⟩ => rfl))

theorem lsmV_eq (U : FVec Ideal S10000x40 .f32) : lsmV U = Cert.Spec.logSoftmax U := by
  funext i
  unfold lsmV Cert.Spec.logSoftmax
  rw [subf_apply, shiftV_apply, col2_apply]
  show _ - FloatOps.hostUnary .log (broadcastInDim S10000x1 ![0] bcast_S10000_S10000x1_0
    (Host.reduceAdd (F := Ideal) (Host.exp (shiftV U)) (constant (F := Ideal) S_ .f32 0x00000000#32) reducesTo_S10000x40_S10000_d1 h_S_) (ix2 (i 0) (0 : Fin 1))) = _
  rw [col1_apply, sumRow_apply, Ideal.hostUnary_log_def]
  refine congrArg (fun t => _ - Ideal.log t) (Finset.sum_congr rfl fun k _ => ?_)
  show FloatOps.hostUnary .exp (shiftV U (ix2 (i 0) k)) = _
  rw [shiftV_apply, Ideal.hostUnary_exp_def]

end Cert.RefBridge

end
-- ==== Proof.RefRun.lean ====
/-
  The reference's run.  Its @main is a straight line of 38 host operations (the two outlined functions, the rectifier
  and the log-softmax, standing in their calls' places), so every weakly fair execution terminates with each buffer
  at the fold of the operations' results over the launch contents.  The fold is read in three stretches — the first
  layer up to the hidden activation, the second layer up to the logits, the log-softmax — each for an ARBITRARY
  incoming valuation, so that a stretch's result is a small term in what the stretch reads; the stretches are then
  chained, and each stage replaced by the specification's function.  The two aggregations and the arguments are read
  off the whole line directly.
-/
import proofs.«172329_g62586263437736_cont_9to1_m_674_9_alg».proof.Defs
import proofs.«172329_g62586263437736_cont_9to1_m_674_9_alg».proof.Proof.Gen.ReferenceIdeal
import proofs.«172329_g62586263437736_cont_9to1_m_674_9_alg».proof.Proof.Gen.Pre_finite_inputs
import proofs.«172329_g62586263437736_cont_9to1_m_674_9_alg».proof.Proof.RefStages
import Idealize.ShloMosaic.Lib.StableHlo.Run

noncomputable section

namespace Cert.RefBridge

open Cert.ReferenceIdeal Cert.ReferenceIdeal.Gen Idealize.ShloMosaic Idealize.ShloMosaic.TcCoe Idealize.SL.Sem Idealize.ShloMosaic.StableHlo

section Line
variable {F : FTy → Type} [FloatOps F]

/-- The first layer: the aggregation `adj · x`, the affine map, the rectifier (operations 1 to 13). -/
abbrev ops1 : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst (constant S_ .f32 0x3F800000#32),
    binary main_cst main_arg6 main_v1 (addf : (⟨S_, .f32⟩ : BufTy).Contents (Elt F) → (⟨S_, .f32⟩ : BufTy).Contents (Elt F) → (⟨S_, .f32⟩ : BufTy).Contents (Elt F)),
    unary main_v1 main_v2 (broadcastInDim S10000x128 ![] bcast_S_S10000x128 : (⟨S_, .f32⟩ : BufTy).Contents (Elt F) → (⟨S10000x128, .f32⟩ : BufTy).Contents (Elt F)),
    binary main_v2 main_arg0 main_v3 (mulf : (⟨S10000x128, .f32⟩ : BufTy).Contents (Elt F) → (⟨S10000x128, .f32⟩ : BufTy).Contents (Elt F) → (⟨S10000x128, .f32⟩ : BufTy).Contents (Elt F)),
    binary main_v3 main_v0 main_v4 (addf : (⟨S10000x128, .f32⟩ : BufTy).Contents (Elt F) → (⟨S10000x128, .f32⟩ : BufTy).Contents (Elt F) → (⟨S10000x128, .f32⟩ : BufTy).Contents (Elt F)),
    binary main_v4 main_arg2 main_v5 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v6 (broadcastInDim S1x128 ![1] bcast_S128_S1x128_1 : (⟨S128, .f32⟩ : BufTy).Contents (Elt F) → (⟨S1x128, .f32⟩ : BufTy).Contents (Elt F)),
    unary main_v6 main_v7 (broadcastInDim S10000x128 ![0, 1] bcast_S1x128_S10000x128_0_1 : (⟨S1x128, .f32⟩ : BufTy).Contents (Elt F) → (⟨S10000x128, .f32⟩ : BufTy).Contents (Elt F)),
    binary main_v5 main_v7 main_v8 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v8) (TRef.of (T := ⟨S10000x128, .f32⟩) main_call0_v0) (TRef.of (T := ⟨S10000x128, .f32⟩) main_v9) maximumf ]

/-- The second layer: the aggregation `adj · h` and the affine map into the classes (operations 14 to 23). -/
abbrev ops2 : List (HloOp τ sig (Elt F)) :=
  [ binary main_arg1 main_v9 main_v10 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst_0 (constant S_ .f32 0x3F800000#32),
    binary main_cst_0 main_arg7 main_v11 (addf : (⟨S_, .f32⟩ : BufTy).Contents (Elt F) → (⟨S_, .f32⟩ : BufTy).Contents (Elt F) → (⟨S_, .f32⟩ : BufTy).Contents (Elt F)),
    unary main_v11 main_v12 (broadcastInDim S10000x128 ![] bcast_S_S10000x128 : (⟨S_, .f32⟩ : BufTy).Contents (Elt F) → (⟨S10000x128, .f32⟩ : BufTy).Contents (Elt F)),
    binary main_v12 main_v9 main_v13 (mulf : (⟨S10000x128, .f32⟩ : BufTy).Contents (Elt F) → (⟨S10000x128, .f32⟩ : BufTy).Contents (Elt F) → (⟨S10000x128, .f32⟩ : BufTy).Contents (Elt F)),
    binary main_v13 main_v10 main_v14 (addf : (⟨S10000x128, .f32⟩ : BufTy).Contents (Elt F) → (⟨S10000x128, .f32⟩ : BufTy).Contents (Elt F) → (⟨S10000x128, .f32⟩ : BufTy).Contents (Elt F)),
    binary main_v14 main_arg4 main_v15 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    unary main_arg5 main_v16 (broadcastInDim S1x40 ![1] bcast_S40_S1x40_1 : (⟨S40, .f32⟩ : BufTy).Contents (Elt F) → (⟨S1x40, .f32⟩ : BufTy).Contents (Elt F)),
    unary main_v16 main_v17 (broadcastInDim S10000x40 ![0, 1] bcast_S1x40_S10000x40_0_1 : (⟨S1x40, .f32⟩ : BufTy).Contents (Elt F) → (⟨S10000x40, .f32⟩ : BufTy).Contents (Elt F)),
    binary main_v15 main_v17 main_v18 (addf : (⟨S10000x40, .f32⟩ : BufTy).Contents (Elt F) → (⟨S10000x40, .f32⟩ : BufTy).Contents (Elt F) → (⟨S10000x40, .f32⟩ : BufTy).Contents (Elt F)) ]

/-- The log-softmax (operations 24 to 38). -/
abbrev ops3 : List (HloOp τ sig (Elt F)) :=
  [ TRef.nullary (TRef.of (T := ⟨S_, .f32⟩) main_call1_cst) (constant S_ .f32 0xFF800000#32),
    TRef.binary (TRef.of (T := ⟨S10000x40, .f32⟩) main_v18) (TRef.of (T := ⟨S_, .f32⟩) main_call1_cst) (TRef.of (T := ⟨S10000, .f32⟩) main_call1_v0) (fun x v => Host.reduce FloatOps.maximumf x v reducesTo_S10000x40_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x40, .f32⟩) main_call1_v4) (broadcastInDim S10000x40 ![0, 1] bcast_S10000x1_S10000x40_0_1),
    TRef.binary (TRef.of (T := ⟨S10000x40, .f32⟩) main_v18) (TRef.of (T := ⟨S10000x40, .f32⟩) main_call1_v4) (TRef.of (T := ⟨S10000x40, .f32⟩) main_call1_v5) subf,
    TRef.unary (TRef.of (T := ⟨S10000x40, .f32⟩) main_call1_v5) (TRef.of (T := ⟨S10000x40, .f32⟩) main_call1_v6) Host.exp,
    TRef.nullary (TRef.of (T := ⟨S_, .f32⟩) main_call1_cst_1) (constant S_ .f32 0x00000000#32),
    TRef.binary (TRef.of (T := ⟨S10000x40, .f32⟩) main_call1_v6) (TRef.of (T := ⟨S_, .f32⟩) main_call1_cst_1) (TRef.of (T := ⟨S10000, .f32⟩) main_call1_v7) (fun x v => Host.reduceAdd x v reducesTo_S10000x40_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x40, .f32⟩) main_call1_v10) (broadcastInDim S10000x40 ![0, 1] bcast_S10000x1_S10000x40_0_1),
    TRef.binary (TRef.of (T := ⟨S10000x40, .f32⟩) main_call1_v5) (TRef.of (T := ⟨S10000x40, .f32⟩) main_call1_v10) (TRef.of (T := ⟨S10000x40, .f32⟩) main_v19) subf ]

/-- @main's 38 operations, in order. -/
abbrev ops : List (HloOp τ sig (Elt F)) :=
  [ binary main_arg1 main_arg0 main_v0 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst (constant S_ .f32 0x3F800000#32),
    binary main_cst main_arg6 main_v1 (addf : (⟨S_, .f32⟩ : BufTy).Contents (Elt F) → (⟨S_, .f32⟩ : BufTy).Contents (Elt F) → (⟨S_, .f32⟩ : BufTy).Contents (Elt F)),
    unary main_v1 main_v2 (broadcastInDim S10000x128 ![] bcast_S_S10000x128 : (⟨S_, .f32⟩ : BufTy).Contents (Elt F) → (⟨S10000x128, .f32⟩ : BufTy).Contents (Elt F)),
    binary main_v2 main_arg0 main_v3 (mulf : (⟨S10000x128, .f32⟩ : BufTy).Contents (Elt F) → (⟨S10000x128, .f32⟩ : BufTy).Contents (Elt F) → (⟨S10000x128, .f32⟩ : BufTy).Contents (Elt F)),
    binary main_v3 main_v0 main_v4 (addf : (⟨S10000x128, .f32⟩ : BufTy).Contents (Elt F) → (⟨S10000x128, .f32⟩ : BufTy).Contents (Elt F) → (⟨S10000x128, .f32⟩ : BufTy).Contents (Elt F)),
    binary main_v4 main_arg2 main_v5 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v6 (broadcastInDim S1x128 ![1] bcast_S128_S1x128_1 : (⟨S128, .f32⟩ : BufTy).Contents (Elt F) → (⟨S1x128, .f32⟩ : BufTy).Contents (Elt F)),
    unary main_v6 main_v7 (broadcastInDim S10000x128 ![0, 1] bcast_S1x128_S10000x128_0_1 : (⟨S1x128, .f32⟩ : BufTy).Contents (Elt F) → (⟨S10000x128, .f32⟩ : BufTy).Contents (Elt F)),
    binary main_v5 main_v7 main_v8 (addf : (⟨S10000x128, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v8) (TRef.of (T := ⟨S10000x128, .f32⟩) main_call0_v0) (TRef.of (T := ⟨S10000x128, .f32⟩) main_v9) maximumf,
    binary main_arg1 main_v9 main_v10 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst_0 (constant S_ .f32 0x3F800000#32),
    binary main_cst_0 main_arg7 main_v11 (addf : (⟨S_, .f32⟩ : BufTy).Contents (Elt F) → (⟨S_, .f32⟩ : BufTy).Contents (Elt F) → (⟨S_, .f32⟩ : BufTy).Contents (Elt F)),
    unary main_v11 main_v12 (broadcastInDim S10000x128 ![] bcast_S_S10000x128 : (⟨S_, .f32⟩ : BufTy).Contents (Elt F) → (⟨S10000x128, .f32⟩ : BufTy).Contents (Elt F)),
    binary main_v12 main_v9 main_v13 (mulf : (⟨S10000x128, .f32⟩ : BufTy).Contents (Elt F) → (⟨S10000x128, .f32⟩ : BufTy).Contents (Elt F) → (⟨S10000x128, .f32⟩ : BufTy).Contents (Elt F)),
    binary main_v13 main_v10 main_v14 (addf : (⟨S10000x128, .f32⟩ : BufTy).Contents (Elt F) → (⟨S10000x128, .f32⟩ : BufTy).Contents (Elt F) → (⟨S10000x128, .f32⟩ : BufTy).Contents (Elt F)),
    binary main_v14 main_arg4 main_v15 ((fun l r => Host.dotGeneral dot_S10000x128_S128x40_S10000x40_1_0_0_1_n_n none l r) : (⟨S10000x128, .f32⟩ : BufTy).Contents (Elt F) → (⟨S128x40, .f32⟩ : BufTy).Contents (Elt F) → (⟨S10000x40, .f32⟩ : BufTy).Contents (Elt F)),
    unary main_arg5 main_v16 (broadcastInDim S1x40 ![1] bcast_S40_S1x40_1 : (⟨S40, .f32⟩ : BufTy).Contents (Elt F) → (⟨S1x40, .f32⟩ : BufTy).Contents (Elt F)),
    unary main_v16 main_v17 (broadcastInDim S10000x40 ![0, 1] bcast_S1x40_S10000x40_0_1 : (⟨S1x40, .f32⟩ : BufTy).Contents (Elt F) → (⟨S10000x40, .f32⟩ : BufTy).Contents (Elt F)),
    binary main_v15 main_v17 main_v18 (addf : (⟨S10000x40, .f32⟩ : BufTy).Contents (Elt F) → (⟨S10000x40, .f32⟩ : BufTy).Contents (Elt F) → (⟨S10000x40, .f32⟩ : BufTy).Contents (Elt F)),
    TRef.nullary (TRef.of (T := ⟨S_, .f32⟩) main_call1_cst) (constant S_ .f32 0xFF800000#32),
    TRef.binary (TRef.of (T := ⟨S10000x40, .f32⟩) main_v18) (TRef.of (T := ⟨S_, .f32⟩) main_call1_cst) (TRef.of (T := ⟨S10000, .f32⟩) main_call1_v0) (fun x v => Host.reduce FloatOps.maximumf x v reducesTo_S10000x40_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x40, .f32⟩) main_call1_v4) (broadcastInDim S10000x40 ![0, 1] bcast_S10000x1_S10000x40_0_1),
    TRef.binary (TRef.of (T := ⟨S10000x40, .f32⟩) main_v18) (TRef.of (T := ⟨S10000x40, .f32⟩) main_call1_v4) (TRef.of (T := ⟨S10000x40, .f32⟩) main_call1_v5) subf,
    TRef.unary (TRef.of (T := ⟨S10000x40, .f32⟩) main_call1_v5) (TRef.of (T := ⟨S10000x40, .f32⟩) main_call1_v6) Host.exp,
    TRef.nullary (TRef.of (T := ⟨S_, .f32⟩) main_call1_cst_1) (constant S_ .f32 0x00000000#32),
    TRef.binary (TRef.of (T := ⟨S10000x40, .f32⟩) main_call1_v6) (TRef.of (T := ⟨S_, .f32⟩) main_call1_cst_1) (TRef.of (T := ⟨S10000, .f32⟩) main_call1_v7) (fun x v => Host.reduceAdd x v reducesTo_S10000x40_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x40, .f32⟩) main_call1_v10) (broadcastInDim S10000x40 ![0, 1] bcast_S10000x1_S10000x40_0_1),
    TRef.binary (TRef.of (T := ⟨S10000x40, .f32⟩) main_call1_v5) (TRef.of (T := ⟨S10000x40, .f32⟩) main_call1_v10) (TRef.of (T := ⟨S10000x40, .f32⟩) main_v19) subf ]

theorem ops_split : (ops : List (HloOp τ sig (Elt F))) = ops1 ++ (ops2 ++ ops3) := rfl
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Two lines run one after the other: the second folds over what the first leaves. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

end Line

/-! ## The stretches, from any contents -/

/-- Contents moved to a typed reference's buffer type and back are unchanged. -/
theorem ofBuf_toBuf {sig : RefSig} {Val : EltTy → Type} {T : BufTy} (x : StableHlo.TRef sig T) (v : T.Contents Val) :
    x.ofBuf (x.toBuf v) = v := by
  obtain ⟨r, h, a, b⟩ := x
  subst h
  rfl

/-- After the first layer the hidden activation's buffer holds the rectified affine map of what the arguments' buffers held. -/
theorem s1_v9 (V : Valuation τ sig (Elt Ideal)) :
    after (ops1 (F := Ideal)) V (Proc.devRef .tc main_v9) = (reluV (lin1V (V (Proc.devRef .tc main_arg6)) (V (Proc.devRef .tc main_arg0)) (aggV (V (Proc.devRef .tc main_arg1)) (V (Proc.devRef .tc main_arg0))) (V (Proc.devRef .tc main_arg2)) (V (Proc.devRef .tc main_arg3)))) := by
  after_results_simp <;> rfl

theorem s1_main_arg1 (V : Valuation τ sig (Elt Ideal)) :
    after (ops1 (F := Ideal)) V (Proc.devRef .tc main_arg1) = V (Proc.devRef .tc main_arg1) := by
  after_results_simp <;> rfl

theorem s1_main_arg4 (V : Valuation τ sig (Elt Ideal)) :
    after (ops1 (F := Ideal)) V (Proc.devRef .tc main_arg4) = V (Proc.devRef .tc main_arg4) := by
  after_results_simp <;> rfl

theorem s1_main_arg5 (V : Valuation τ sig (Elt Ideal)) :
    after (ops1 (F := Ideal)) V (Proc.devRef .tc main_arg5) = V (Proc.devRef .tc main_arg5) := by
  after_results_simp <;> rfl

theorem s1_main_arg7 (V : Valuation τ sig (Elt Ideal)) :
    after (ops1 (F := Ideal)) V (Proc.devRef .tc main_arg7) = V (Proc.devRef .tc main_arg7) := by
  after_results_simp <;> rfl

/-- After the second layer the logits' buffer holds the affine map of the hidden activation and its aggregation. -/
theorem s2_v18 (V : Valuation τ sig (Elt Ideal)) :
    after (ops2 (F := Ideal)) V (Proc.devRef .tc main_v18)
      = lin2V (V (Proc.devRef .tc main_arg7)) (V (Proc.devRef .tc main_v9)) (aggV (V (Proc.devRef .tc main_arg1)) (V (Proc.devRef .tc main_v9))) (V (Proc.devRef .tc main_arg4)) (V (Proc.devRef .tc main_arg5)) := by
  after_results_simp <;> rfl

/-- After the log-softmax's operations the result's buffer holds the log-softmax of what the logits' buffer held. -/
theorem s3_v19 (V : Valuation τ sig (Elt Ideal)) :
    after (ops3 (F := Ideal)) V (Proc.devRef .tc main_v19) = lsmV (V (Proc.devRef .tc main_v18)) := by
  after_results_simp
  simp only [ofBuf_toBuf]
  simp only [cast_eq]
  rfl

/-! ## The whole line -/

theorem fin_v19 (V : Valuation τ sig (Elt Ideal)) :
    after (ops (F := Ideal)) V (Proc.devRef .tc main_v19)
      = lsmV (lin2V (V (Proc.devRef .tc main_arg7)) (reluV (lin1V (V (Proc.devRef .tc main_arg6)) (V (Proc.devRef .tc main_arg0)) (aggV (V (Proc.devRef .tc main_arg1)) (V (Proc.devRef .tc main_arg0))) (V (Proc.devRef .tc main_arg2)) (V (Proc.devRef .tc main_arg3)))) (aggV (V (Proc.devRef .tc main_arg1)) (reluV (lin1V (V (Proc.devRef .tc main_arg6)) (V (Proc.devRef .tc main_arg0)) (aggV (V (Proc.devRef .tc main_arg1)) (V (Proc.devRef .tc main_arg0))) (V (Proc.devRef .tc main_arg2)) (V (Proc.devRef .tc main_arg3))))) (V (Proc.devRef .tc main_arg4)) (V (Proc.devRef .tc main_arg5))) := by
  rw [ops_split, after_two, after_two, s3_v19, s2_v18, s1_v9, s1_main_arg1, s1_main_arg4, s1_main_arg5, s1_main_arg7]

theorem fin_v0 (V : Valuation τ sig (Elt Ideal)) :
    after (ops (F := Ideal)) V (Proc.devRef .tc main_v0) = aggV (V (Proc.devRef .tc main_arg1)) (V (Proc.devRef .tc main_arg0)) := by
  after_results_simp <;> rfl

theorem fin_v10 (V : Valuation τ sig (Elt Ideal)) :
    after (ops (F := Ideal)) V (Proc.devRef .tc main_v10) = aggV (V (Proc.devRef .tc main_arg1)) (reluV (lin1V (V (Proc.devRef .tc main_arg6)) (V (Proc.devRef .tc main_arg0)) (aggV (V (Proc.devRef .tc main_arg1)) (V (Proc.devRef .tc main_arg0))) (V (Proc.devRef .tc main_arg2)) (V (Proc.devRef .tc main_arg3)))) := by
  after_results_simp <;> rfl

theorem fin_main_arg0 (V : Valuation τ sig (Elt Ideal)) :
    after (ops (F := Ideal)) V (Proc.devRef .tc main_arg0) = V (Proc.devRef .tc main_arg0) := by
  after_results_simp <;> rfl

theorem fin_main_arg1 (V : Valuation τ sig (Elt Ideal)) :
    after (ops (F := Ideal)) V (Proc.devRef .tc main_arg1) = V (Proc.devRef .tc main_arg1) := by
  after_results_simp <;> rfl

theorem fin_main_arg2 (V : Valuation τ sig (Elt Ideal)) :
    after (ops (F := Ideal)) V (Proc.devRef .tc main_arg2) = V (Proc.devRef .tc main_arg2) := by
  after_results_simp <;> rfl

theorem fin_main_arg3 (V : Valuation τ sig (Elt Ideal)) :
    after (ops (F := Ideal)) V (Proc.devRef .tc main_arg3) = V (Proc.devRef .tc main_arg3) := by
  after_results_simp <;> rfl

theorem fin_main_arg4 (V : Valuation τ sig (Elt Ideal)) :
    after (ops (F := Ideal)) V (Proc.devRef .tc main_arg4) = V (Proc.devRef .tc main_arg4) := by
  after_results_simp <;> rfl

theorem fin_main_arg5 (V : Valuation τ sig (Elt Ideal)) :
    after (ops (F := Ideal)) V (Proc.devRef .tc main_arg5) = V (Proc.devRef .tc main_arg5) := by
  after_results_simp <;> rfl

theorem fin_main_arg6 (V : Valuation τ sig (Elt Ideal)) :
    after (ops (F := Ideal)) V (Proc.devRef .tc main_arg6) = V (Proc.devRef .tc main_arg6) := by
  after_results_simp <;> rfl

theorem fin_main_arg7 (V : Valuation τ sig (Elt Ideal)) :
    after (ops (F := Ideal)) V (Proc.devRef .tc main_arg7) = V (Proc.devRef .tc main_arg7) := by
  after_results_simp <;> rfl

/-! ## The stages are the specification's -/

theorem hid_spec (x : FVec Ideal S10000x128 .f32) (adj : FVec Ideal S10000x10000 .f32) (W1 : FVec Ideal S128x128 .f32)
    (b1 : FVec Ideal S128 .f32) (e1 : FVec Ideal S_ .f32) :
    reluV (lin1V e1 x (aggV adj x) W1 b1) = Cert.Spec.hid x adj W1 b1 e1 := by
  rw [aggV_eq, lin1V_eq, reluV_eq]; rfl

theorem fp2_spec (x : FVec Ideal S10000x128 .f32) (adj : FVec Ideal S10000x10000 .f32) (W1 : FVec Ideal S128x128 .f32)
    (b1 : FVec Ideal S128 .f32) (e1 : FVec Ideal S_ .f32) :
    aggV adj (reluV (lin1V e1 x (aggV adj x) W1 b1)) = Cert.Spec.fp2 x adj W1 b1 e1 := by
  rw [hid_spec, aggV_eq]; rfl

theorem res_spec (x : FVec Ideal S10000x128 .f32) (adj : FVec Ideal S10000x10000 .f32) (W1 : FVec Ideal S128x128 .f32)
    (b1 : FVec Ideal S128 .f32) (W2 : FVec Ideal S128x40 .f32) (b2 : FVec Ideal S40 .f32) (e1 e2 : FVec Ideal S_ .f32) :
    lsmV (lin2V e2 (reluV (lin1V e1 x (aggV adj x) W1 b1)) (aggV adj (reluV (lin1V e1 x (aggV adj x) W1 b1))) W2 b2)
      = Cert.Spec.res x adj W1 b1 W2 b2 e1 e2 := by
  rw [fp2_spec, hid_spec, lin2V_eq, lsmV_eq]; rfl

/-! ## The run -/

/-- On every device, from any memory with zero counters: every weakly fair execution of the reference's @main
    terminates with the three results at the specification's functions of the arguments' launch contents, and the
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Cert.Spec.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v0) = Cert.Spec.fp1 (m ((c.tc : Thread nD τ).loc main_arg0)) (m ((c.tc : Thread nD τ).loc main_arg1))
      ∧ r.2.mem ((c.tc : Thread nD τ).loc main_v10) = Cert.Spec.fp2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v19).trans ((fin_v19 _).trans (res_spec _ _ _ _ _ _ _ _)),
       (h c main_v0).trans ((fin_v0 _).trans (aggV_eq _ _)),
       (h c main_v10).trans ((fin_v10 _).trans (fp2_spec _ _ _ _ _)),
       (h c main_arg0).trans (fin_main_arg0 _),
       (h c main_arg1).trans (fin_main_arg1 _),
       (h c main_arg2).trans (fin_main_arg2 _),
       (h c main_arg3).trans (fin_main_arg3 _),
       (h c main_arg4).trans (fin_main_arg4 _),
       (h c main_arg5).trans (fin_main_arg5 _),
       (h c main_arg6).trans (fin_main_arg6 _),
       (h c main_arg7).trans (fin_main_arg7 _)⟩)
    (run_seq scopedRefs_eq scopedSems_eq defs main (fun _ => ops) main_eq (fun _ => ops_sub) m ρ)

/-- The reference runs and leaves its arguments unchanged. -/
theorem frame_ri : Cert.frame_ReferenceIdeal := fun m ρ _ =>
  (θ_run (defs (F := Ideal)) _ _).mono (fun _ h c => (h c).2.2.2) (run_spec m ρ)

end Cert.RefBridge

end
-- ==== Proof.RefValue.lean ====
/-
  The reference side of the certificate, gathered: the reference's run with its three results at the specification's
  functions of the arguments (`Cert.RefBridge.run_spec`) and the frame claim (`Cert.RefBridge.frame_ri`).
-/
import proofs.«172329_g62586263437736_cont_9to1_m_674_9_alg».proof.Proof.RefRun
-- ==== Proof.lean ====
/-
  A two-layer graph-isomorphism network on a dense 10000 × 10000 adjacency matrix: the kernel runs both layers
  in one pipelined call over a 2 × 25 grid (layer, block of 400 rows), keeping the hidden activation in a
  persistent scratch as a [value | remainder] pair of half-precision arrays; the reference is the plain
  formula  fp = A · x,  u = ((1 + ε) · x + fp) · W + b,  with a rectifier after the first layer and a row-wise
  log-softmax after the second, returning (log-probabilities, fp₁, fp₂).

  Over the extended reals a change of float format is the identity, so the pair is [h | h − h], and for
  finite inputs h is a real number, h − h = 0, the products with the remainder half vanish and value plus
  remainder is the value: both programs compute the functions of Spec.lean (`fp1`, `fp2`, `res`).  The
  precondition (every input finite) is used exactly there.  The three frames: the two kernel programs by the
  body's run at each grid point (KB/, KI/: one proof, generic in the float instance), the reference by its run.
-/
import proofs.«172329_g62586263437736_cont_9to1_m_674_9_alg».proof.Defs
import proofs.«172329_g62586263437736_cont_9to1_m_674_9_alg».proof.Proof.Gen.Kernel
import proofs.«172329_g62586263437736_cont_9to1_m_674_9_alg».proof.Proof.Gen.KernelIdeal
import proofs.«172329_g62586263437736_cont_9to1_m_674_9_alg».proof.Proof.Gen.ReferenceIdeal
import proofs.«172329_g62586263437736_cont_9to1_m_674_9_alg».proof.Proof.Gen.Pre_finite_inputs
import proofs.«172329_g62586263437736_cont_9to1_m_674_9_alg».proof.Proof.KB.Frame
import proofs.«172329_g62586263437736_cont_9to1_m_674_9_alg».proof.Proof.KI.Frame
import proofs.«172329_g62586263437736_cont_9to1_m_674_9_alg».proof.Proof.KernelValue
import proofs.«172329_g62586263437736_cont_9to1_m_674_9_alg».proof.Proof.RefValue
import proofs.«172329_g62586263437736_cont_9to1_m_674_9_alg».proof.Proof.Finite
import Idealize.ShloMosaic.Adequacy
import Idealize.ShloMosaic.Init

noncomputable section

namespace Cert.Proof

open Idealize.ShloMosaic Idealize.SL.Sem

theorem frame_p : Cert.frame_Kernel :=
  fun m ρ _ => Cert.Kernel.Gen.frame m ρ

theorem frame_pi : Cert.frame_KernelIdeal :=
  fun m ρ _ => Cert.KernelIdeal.Gen.frame m ρ

/-- The one rewrite of the idealization: widening a value just narrowed to half precision gives the value back. -/
theorem preserves : Cert.preserves_Kernel_KernelIdeal :=
  IdealRules.truncf_extf.statement Cert.KernelIdeal.S400x128 .f32 .bf16

/-- Both idealized programs end with the three results at the network's functions of the (agreeing) arguments. -/
theorem algebraic : Cert.algebraic_KernelIdeal_ReferenceIdeal := by
  intro m ρ m' ρ' hpre hagree
  refine ⟨_, _, _, Cert.KernelValue.run_spec m ρ hpre, ?_⟩
  refine (θ_run Cert.ReferenceIdeal.defs _ _).mono (fun _ h c => ?_) (Cert.RefBridge.run_spec m' ρ')
  obtain ⟨a0, a1, a2, a3, a4, a5, a6, a7⟩ := hagree c
  obtain ⟨r0, r1, r2, k0, k1, k2, k3, k4, k5, k6, k7⟩ := h c
  rw [a0, a1, a2, a3, a4, a5, a6, a7] at r0
  rw [a0, a1] at r1
  rw [a0, a1, a2, a3, a6] at r2
  exact ⟨r0, r1, r2, k0, k1, k2, k3, k4, k5, k6, k7⟩

theorem claim : Cert.Claim :=
  ⟨Cert.Kernel.Gen.facts, Cert.KernelIdeal.Gen.facts, Cert.ReferenceIdeal.Gen.facts, Cert.Pre_finite_inputs.Gen.facts,
    frame_p, frame_pi, Cert.RefBridge.frame_ri, preserves, algebraic⟩

end Cert.Proof

end
